-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v419) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x192x192x192 : Shape := ⟨5, ![1, 1, 192, 192, 192]⟩
abbrev S1x3x192x192x192 : Shape := ⟨5, ![1, 3, 192, 192, 192]⟩
abbrev S_ : Shape := ⟨0, ![]⟩

class Facts : Prop where
  bcast_S_S1x1x192x192x192 : S_.BroadcastsInDim S1x1x192x192x192 (![] : Fin 0 → Fin S1x1x192x192x192.rank)
  reducesTo_S1x1x192x192x192_S_d0_1_2_3_4 : S1x1x192x192x192.ReducesTo [0, 1, 2, 3, 4] S_
  h_S_ : 0 < S_.numel
  bcast_S_S1x3x192x192x192 : S_.BroadcastsInDim S1x3x192x192x192 (![] : Fin 0 → Fin S1x3x192x192x192.rank)
  reducesTo_S1x3x192x192x192_S_d0_1_2_3_4 : S1x3x192x192x192.ReducesTo [0, 1, 2, 3, 4] S_

variable [Facts]

def fn {F : FTy → Type} [FloatOps F] (main_arg0 : FVec F S1x1x192x192x192 .f32) (main_arg1 : FVec F S1x3x192x192x192 .f32) : IVec S_ 1 :=
  let main_v0 : FVec F S1x1x192x192x192 .f32 := Host.absf main_arg0
  let main_cst : FVec F S_ .f32 := constant S_ .f32 0x7F800000#32
  let main_v1 : FVec F S1x1x192x192x192 .f32 := broadcastInDim S1x1x192x192x192 ![] bcast_S_S1x1x192x192x192 main_cst
  let main_v2 : IVec S1x1x192x192x192 1 := cmpf .olt main_v0 main_v1
  let main_c : IVec S_ 1 := constantI S_ 1 1#1
  let main_v3 : IVec S_ 1 := (fun x v => Host.reduce IntOp.andi x v reducesTo_S1x1x192x192x192_S_d0_1_2_3_4 h_S_) main_v2 main_c
  let main_v4 : FVec F S1x3x192x192x192 .f32 := Host.absf main_arg1
  let main_cst_0 : FVec F S_ .f32 := constant S_ .f32 0x7F800000#32
  let main_v5 : FVec F S1x3x192x192x192 .f32 := broadcastInDim S1x3x192x192x192 ![] bcast_S_S1x3x192x192x192 main_cst_0
  let main_v6 : IVec S1x3x192x192x192 1 := cmpf .olt main_v4 main_v5
  let main_c_1 : IVec S_ 1 := constantI S_ 1 1#1
  let main_v7 : IVec S_ 1 := (fun x v => Host.reduce IntOp.andi x v reducesTo_S1x3x192x192x192_S_d0_1_2_3_4 h_S_) main_v6 main_c_1
  let main_v8 : IVec S_ 1 := andi main_v3 main_v7
  main_v8
-- ==== Kernel.lean ====
abbrev S1x1x192x192x192 : Shape := ⟨5, ![1, 1, 192, 192, 192]⟩
abbrev S1x3x192x192x192 : Shape := ⟨5, ![1, 3, 192, 192, 192]⟩
abbrev S192x192x192 : Shape := ⟨3, ![192, 192, 192]⟩
abbrev S3x192x192x192 : Shape := ⟨4, ![3, 192, 192, 192]⟩
abbrev S8x192x192x192 : Shape := ⟨4, ![8, 192, 192, 192]⟩
abbrev S2x192x192 : Shape := ⟨3, ![2, 192, 192]⟩
abbrev S3x2x192x192 : Shape := ⟨4, ![3, 2, 192, 192]⟩
abbrev S8x2x192x192 : Shape := ⟨4, ![8, 2, 192, 192]⟩
abbrev S1x2x192x192 : Shape := ⟨4, ![1, 2, 192, 192]⟩
abbrev S56623104 : Shape := ⟨1, ![56623104]⟩
abbrev S_ : Shape := ⟨0, ![]⟩
abbrev S7077888 : Shape := ⟨1, ![7077888]⟩
abbrev S56623104x1 : Shape := ⟨2, ![56623104, 1]⟩

abbrev nBuf : Space → Nat
  | .hbm => 20
  | .vmem => 8
  | .smem => 0
  | _ => 0

abbrev bufTy : (tb : Table) → Fin (tcTables nBuf tb) → BufTy
  | .hbm, ⟨0, _⟩ => ⟨S1x1x192x192x192, .f32⟩
  | .hbm, ⟨1, _⟩ => ⟨S1x3x192x192x192, .f32⟩
  | .hbm, ⟨2, _⟩ => ⟨S192x192x192, .f32⟩
  | .hbm, ⟨3, _⟩ => ⟨S3x192x192x192, .f32⟩
  | .hbm, ⟨4, _⟩ => ⟨S8x192x192x192, .i32⟩
  | .hbm, ⟨5, _⟩ => ⟨S8x192x192x192, .f32⟩
  | .hbm, ⟨6, _⟩ => ⟨S56623104, .i32⟩
  | .hbm, ⟨7, _⟩ => ⟨S56623104, .f32⟩
  | .hbm, ⟨8, _⟩ => ⟨S_, .f32⟩
  | .hbm, ⟨9, _⟩ => ⟨S7077888, .f32⟩
  | .hbm, ⟨10, _⟩ => ⟨S_, .i32⟩
  | .hbm, ⟨11, _⟩ => ⟨S56623104, .i32⟩
  | .hbm, ⟨12, _⟩ => ⟨S56623104, .i1⟩
  | .hbm, ⟨13, _⟩ => ⟨S_, .i32⟩
  | .hbm, ⟨14, _⟩ => ⟨S56623104, .i32⟩
  | .hbm, ⟨15, _⟩ => ⟨S56623104, .i32⟩
  | .hbm, ⟨16, _⟩ => ⟨S56623104, .i32⟩
  | .hbm, ⟨17, _⟩ => ⟨S56623104x1, .i32⟩
  | .hbm, ⟨18, _⟩ => ⟨S7077888, .f32⟩
  | .hbm, ⟨19, _⟩ => ⟨S1x1x192x192x192, .f32⟩
  | .local _ .vmem, ⟨0, _⟩ => ⟨S2x192x192, .f32⟩
  | .local _ .vmem, ⟨1, _⟩ => ⟨S2x192x192, .f32⟩
  | .local _ .vmem, ⟨2, _⟩ => ⟨S3x2x192x192, .f32⟩
  | .local _ .vmem, ⟨3, _⟩ => ⟨S3x2x192x192, .f32⟩
  | .local _ .vmem, ⟨4, _⟩ => ⟨S8x2x192x192, .i32⟩
  | .local _ .vmem, ⟨5, _⟩ => ⟨S8x2x192x192, .i32⟩
  | .local _ .vmem, ⟨6, _⟩ => ⟨S8x2x192x192, .f32⟩
  | .local _ .vmem, ⟨7, _⟩ => ⟨S8x2x192x192, .f32⟩
  | _, _ => ⟨S1x1x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2x192x192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2x192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x1x192x192x192_S192x192x192 : S1x1x192x192x192.ShapeCasts S192x192x192
  shapeCasts_S1x3x192x192x192_S3x192x192x192 : S1x3x192x192x192.ShapeCasts S3x192x192x192
  iota_S2x192x192_d0_w32 : S2x192x192.Iotas .tc 32 [0]
  iota_S2x192x192_d1_w32 : S2x192x192.Iotas .tc 32 [1]
  iota_S2x192x192_d2_w32 : S2x192x192.Iotas .tc 32 [2]
  inb_S3x2x192x192_S1x2x192x192_0_0_0_0 : ∀ a, (![0, 0, 0, 0] : Fin 4 → Nat) a + S1x2x192x192.size a ≤ S3x2x192x192.size a
  h_S1x2x192x192 : 0 < S1x2x192x192.numel
  shapeCasts_S1x2x192x192_S2x192x192 : S1x2x192x192.ShapeCasts S2x192x192
  inb_S3x2x192x192_S1x2x192x192_1_0_0_0 : ∀ a, (![1, 0, 0, 0] : Fin 4 → Nat) a + S1x2x192x192.size a ≤ S3x2x192x192.size a
  inb_S3x2x192x192_S1x2x192x192_2_0_0_0 : ∀ a, (![2, 0, 0, 0] : Fin 4 → Nat) a + S1x2x192x192.size a ≤ S3x2x192x192.size a
  inb_S2x192x192_S2x192x192_0_0_0 : ∀ a, (![0, 0, 0] : Fin 3 → Nat) a + S2x192x192.size a ≤ S2x192x192.size a
  h_S2x192x192 : 0 < S2x192x192.numel
  shapeCasts_S2x192x192_S2x192x192 : S2x192x192.ShapeCasts S2x192x192
  inb_S8x2x192x192_S1x2x192x192_0_0_0_0 : ∀ a, (![0, 0, 0, 0] : Fin 4 → Nat) a + S1x2x192x192.size a ≤ S8x2x192x192.size a
  shapeCasts_S2x192x192_S1x2x192x192 : S2x192x192.ShapeCasts S1x2x192x192
  inb_S8x2x192x192_S1x2x192x192_1_0_0_0 : ∀ a, (![1, 0, 0, 0] : Fin 4 → Nat) a + S1x2x192x192.size a ≤ S8x2x192x192.size a
  inb_S8x2x192x192_S1x2x192x192_2_0_0_0 : ∀ a, (![2, 0, 0, 0] : Fin 4 → Nat) a + S1x2x192x192.size a ≤ S8x2x192x192.size a
  inb_S8x2x192x192_S1x2x192x192_3_0_0_0 : ∀ a, (![3, 0, 0, 0] : Fin 4 → Nat) a + S1x2x192x192.size a ≤ S8x2x192x192.size a
  inb_S8x2x192x192_S1x2x192x192_4_0_0_0 : ∀ a, (![4, 0, 0, 0] : Fin 4 → Nat) a + S1x2x192x192.size a ≤ S8x2x192x192.size a
  inb_S8x2x192x192_S1x2x192x192_5_0_0_0 : ∀ a, (![5, 0, 0, 0] : Fin 4 → Nat) a + S1x2x192x192.size a ≤ S8x2x192x192.size a
  inb_S8x2x192x192_S1x2x192x192_6_0_0_0 : ∀ a, (![6, 0, 0, 0] : Fin 4 → Nat) a + S1x2x192x192.size a ≤ S8x2x192x192.size a
  inb_S8x2x192x192_S1x2x192x192_7_0_0_0 : ∀ a, (![7, 0, 0, 0] : Fin 4 → Nat) a + S1x2x192x192.size a ≤ S8x2x192x192.size a
  shapeCasts_S8x192x192x192_S56623104 : S8x192x192x192.ShapeCasts S56623104
  bcast_S_S7077888 : S_.BroadcastsInDim S7077888 (![] : Fin 0 → Fin S7077888.rank)
  bcast_S_S56623104 : S_.BroadcastsInDim S56623104 (![] : Fin 0 → Fin S56623104.rank)
  bcast_S56623104_S56623104x1_0 : S56623104.BroadcastsInDim S56623104x1 (![0] : Fin 1 → Fin S56623104x1.rank)
  shapeCasts_S7077888_S1x1x192x192x192 : S7077888.ShapeCasts S1x1x192x192x192
  scatter_S7077888_S56623104x1_S56623104_n_0_0_1_wf : ScatterDims.WF S7077888 S56623104x1 S56623104 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x192x192.size a ≤ S192x192x192.size a
  hwx0_0 : ∀ i : grid0.Coords, EltTy.bits .f32 = 32 ∨ (Rect.block (s := S192x192x192) S2x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2x192x192.size a ≤ S3x192x192x192.size a
  hwx0_1 : ∀ i : grid0.Coords, EltTy.bits .f32 = 32 ∨ (Rect.block (s := S3x192x192x192) S3x2x192x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2x192x192.size a ≤ S8x192x192x192.size a
  hwx0_2 : ∀ i : grid0.Coords, EltTy.bits .i32 = 32 ∨ (Rect.block (s := S8x192x192x192) S8x2x192x192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2x192x192.size a ≤ S8x192x192x192.size a
  hwx0_3 : ∀ i : grid0.Coords, EltTy.bits .f32 = 32 ∨ (Rect.block (s := S8x192x192x192) S8x2x192x192.size (cc0_transform_3 i) (hinb0_3 i)).WholeWords (EltTy.packing .f32)

variable [Facts₀]

def scatter_S7077888_S56623104x1_S56623104_n_0_0_1 : ScatterDims S7077888 S56623104x1 S56623104 where
  updateWindowDims := []
  insertedWindowDims := [0]
  scatterDimsToOperandDims := [0]
  indexVectorDim := 1
  wf := scatter_S7077888_S56623104x1_S56623104_n_0_0_1_wf

abbrev win0_0 : Pipeline.Window sig grid0 :=
  Pipeline.Window.ofSpec (Memref.whole main_v0) S2x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x2x192x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S8x2x192x192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S8x2x192x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x1x192x192x192 : Shape := ⟨5, ![1, 1, 192, 192, 192]⟩
abbrev S1x3x192x192x192 : Shape := ⟨5, ![1, 3, 192, 192, 192]⟩
abbrev S3 : Shape := ⟨1, ![3]⟩
abbrev S192 : Shape := ⟨1, ![192]⟩
abbrev S192x192x192 : Shape := ⟨3, ![192, 192, 192]⟩
abbrev S1x192x192x192 : Shape := ⟨4, ![1, 192, 192, 192]⟩
abbrev S3x192x192x192 : Shape := ⟨4, ![3, 192, 192, 192]⟩
abbrev S_ : Shape := ⟨0, ![]⟩
abbrev S3x7077888 : Shape := ⟨2, ![3, 7077888]⟩
abbrev S3x1 : Shape := ⟨2, ![3, 1]⟩
abbrev S7077888 : Shape := ⟨1, ![7077888]⟩
abbrev S1x7077888 : Shape := ⟨2, ![1, 7077888]⟩
abbrev S1 : Shape := ⟨1, ![1]⟩
abbrev S7077888x1 : Shape := ⟨2, ![7077888, 1]⟩

abbrev nBuf : Space → Nat
  | .hbm => 494
  | .vmem => 0
  | .smem => 0
  | _ => 0

abbrev hbmTy0_0 (i : Nat) : BufTy := match i % 128 with
  | 0 => ⟨S1x1x192x192x192, .f32⟩
  | 1 => ⟨S1x3x192x192x192, .f32⟩
  | 2 => ⟨S3, .i32⟩
  | 3 => ⟨S192, .i32⟩
  | 4 => ⟨S192, .i32⟩
  | 5 => ⟨S192, .i32⟩
  | 6 => ⟨S192x192x192, .i32⟩
  | 7 => ⟨S192x192x192, .i32⟩
  | 8 => ⟨S192x192x192, .i32⟩
  | 9 => ⟨S1x192x192x192, .i32⟩
  | 10 => ⟨S1x192x192x192, .i32⟩
  | 11 => ⟨S1x192x192x192, .i32⟩
  | 12 => ⟨S3x192x192x192, .i32⟩
  | 13 => ⟨S1x3x192x192x192, .i32⟩
  | 14 => ⟨S1x3x192x192x192, .f32⟩
  | 15 => ⟨S1x3x192x192x192, .f32⟩
  | 16 => ⟨S_, .f32⟩
  | 17 => ⟨S1x3x192x192x192, .f32⟩
  | 18 => ⟨S1x3x192x192x192, .i1⟩
  | 19 => ⟨S_, .f32⟩
  | 20 => ⟨S1x3x192x192x192, .f32⟩
  | 21 => ⟨S1x3x192x192x192, .f32⟩
  | 22 => ⟨S1x3x192x192x192, .f32⟩
  | 23 => ⟨S1x3x192x192x192, .f32⟩
  | 24 => ⟨S3x7077888, .f32⟩
  | 25 => ⟨S1x3x192x192x192, .i32⟩
  | 26 => ⟨S3x7077888, .i32⟩
  | 27 => ⟨S3x1, .i32⟩
  | 28 => ⟨S3x7077888, .i32⟩
  | 29 => ⟨S3x7077888, .i32⟩
  | 30 => ⟨S7077888, .f32⟩
  | 31 => ⟨S_, .f32⟩
  | 32 => ⟨S7077888, .f32⟩
  | 33 => ⟨S1x7077888, .i32⟩
  | 34 => ⟨S7077888, .i32⟩
  | 35 => ⟨S_, .i32⟩
  | 36 => ⟨S7077888, .i32⟩
  | 37 => ⟨S7077888, .i32⟩
  | 38 => ⟨S1, .i32⟩
  | 39 => ⟨S_, .i32⟩
  | 40 => ⟨S7077888, .i32⟩
  | 41 => ⟨S7077888, .i32⟩
  | 42 => ⟨S1x7077888, .i32⟩
  | 43 => ⟨S7077888, .i32⟩
  | 44 => ⟨S_, .i32⟩
  | 45 => ⟨S7077888, .i32⟩
  | 46 => ⟨S7077888, .i32⟩
  | 47 => ⟨S1, .i32⟩
  | 48 => ⟨S_, .i32⟩
  | 49 => ⟨S7077888, .i32⟩
  | 50 => ⟨S7077888, .i32⟩
  | 51 => ⟨S1x7077888, .i32⟩
  | 52 => ⟨S7077888, .i32⟩
  | 53 => ⟨S_, .i32⟩
  | 54 => ⟨S7077888, .i32⟩
  | 55 => ⟨S7077888, .i32⟩
  | 56 => ⟨S1, .i32⟩
  | 57 => ⟨S_, .i32⟩
  | 58 => ⟨S7077888, .i32⟩
  | 59 => ⟨S7077888, .i32⟩
  | 60 => ⟨S1x7077888, .f32⟩
  | 61 => ⟨S7077888, .f32⟩
  | 62 => ⟨S_, .f32⟩
  | 63 => ⟨S7077888, .f32⟩
  | 64 => ⟨S7077888, .f32⟩
  | 65 => ⟨S1x7077888, .f32⟩
  | 66 => ⟨S7077888, .f32⟩
  | 67 => ⟨S_, .f32⟩
  | 68 => ⟨S7077888, .f32⟩
  | 69 => ⟨S7077888, .f32⟩
  | 70 => ⟨S7077888, .f32⟩
  | 71 => ⟨S1x7077888, .f32⟩
  | 72 => ⟨S7077888, .f32⟩
  | 73 => ⟨S_, .f32⟩
  | 74 => ⟨S7077888, .f32⟩
  | 75 => ⟨S7077888, .f32⟩
  | 76 => ⟨S7077888, .f32⟩
  | 77 => ⟨S_, .i32⟩
  | 78 => ⟨S7077888, .i32⟩
  | 79 => ⟨S7077888, .i32⟩
  | 80 => ⟨S_, .i32⟩
  | 81 => ⟨S7077888, .i32⟩
  | 82 => ⟨S7077888, .i32⟩
  | 83 => ⟨S7077888, .i32⟩
  | 84 => ⟨S7077888, .i32⟩
  | 85 => ⟨S7077888, .f32⟩
  | 86 => ⟨S_, .i32⟩
  | 87 => ⟨S7077888, .i32⟩
  | 88 => ⟨S7077888, .i1⟩
  | 89 => ⟨S_, .i32⟩
  | 90 => ⟨S7077888, .i32⟩
  | 91 => ⟨S7077888, .i32⟩
  | 92 => ⟨S7077888, .i32⟩
  | 93 => ⟨S7077888x1, .i32⟩
  | 94 => ⟨S7077888, .f32⟩
  | 95 => ⟨S1x7077888, .i32⟩
  | 96 => ⟨S7077888, .i32⟩
  | 97 => ⟨S_, .i32⟩
  | 98 => ⟨S7077888, .i32⟩
  | 99 => ⟨S7077888, .i32⟩
  | 100 => ⟨S1, .i32⟩
  | 101 => ⟨S_, .i32⟩
  | 102 => ⟨S7077888, .i32⟩
  | 103 => ⟨S7077888, .i32⟩
  | 104 => ⟨S1x7077888, .i32⟩
  | 105 => ⟨S7077888, .i32⟩
  | 106 => ⟨S_, .i32⟩
  | 107 => ⟨S7077888, .i32⟩
  | 108 => ⟨S7077888, .i32⟩
  | 109 => ⟨S1, .i32⟩
  | 110 => ⟨S_, .i32⟩
  | 111 => ⟨S7077888, .i32⟩
  | 112 => ⟨S7077888, .i32⟩
  | 113 => ⟨S1x7077888, .i32⟩
  | 114 => ⟨S7077888, .i32⟩
  | 115 => ⟨S_, .i32⟩
  | 116 => ⟨S7077888, .i32⟩
  | 117 => ⟨S7077888, .i32⟩
  | 118 => ⟨S1, .i32⟩
  | 119 => ⟨S_, .i32⟩
  | 120 => ⟨S7077888, .i32⟩
  | 121 => ⟨S7077888, .i32⟩
  | 122 => ⟨S1x7077888, .f32⟩
  | 123 => ⟨S7077888, .f32⟩
  | 124 => ⟨S_, .f32⟩
  | 125 => ⟨S7077888, .f32⟩
  | 126 => ⟨S7077888, .f32⟩
  | 127 => ⟨S1x7077888, .f32⟩
  | _ => ⟨S1x1x192x192x192, .f32⟩

abbrev hbmTy0_1 (i : Nat) : BufTy := match i % 128 with
  | 0 => ⟨S7077888, .f32⟩
  | 1 => ⟨S_, .f32⟩
  | 2 => ⟨S7077888, .f32⟩
  | 3 => ⟨S7077888, .f32⟩
  | 4 => ⟨S7077888, .f32⟩
  | 5 => ⟨S1x7077888, .f32⟩
  | 6 => ⟨S7077888, .f32⟩
  | 7 => ⟨S7077888, .f32⟩
  | 8 => ⟨S_, .i32⟩
  | 9 => ⟨S7077888, .i32⟩
  | 10 => ⟨S7077888, .i32⟩
  | 11 => ⟨S_, .i32⟩
  | 12 => ⟨S7077888, .i32⟩
  | 13 => ⟨S7077888, .i32⟩
  | 14 => ⟨S7077888, .i32⟩
  | 15 => ⟨S7077888, .i32⟩
  | 16 => ⟨S7077888, .f32⟩
  | 17 => ⟨S_, .i32⟩
  | 18 => ⟨S7077888, .i32⟩
  | 19 => ⟨S7077888, .i1⟩
  | 20 => ⟨S_, .i32⟩
  | 21 => ⟨S7077888, .i32⟩
  | 22 => ⟨S7077888, .i32⟩
  | 23 => ⟨S7077888, .i32⟩
  | 24 => ⟨S7077888x1, .i32⟩
  | 25 => ⟨S7077888, .f32⟩
  | 26 => ⟨S1x7077888, .i32⟩
  | 27 => ⟨S7077888, .i32⟩
  | 28 => ⟨S_, .i32⟩
  | 29 => ⟨S7077888, .i32⟩
  | 30 => ⟨S7077888, .i32⟩
  | 31 => ⟨S1, .i32⟩
  | 32 => ⟨S_, .i32⟩
  | 33 => ⟨S7077888, .i32⟩
  | 34 => ⟨S7077888, .i32⟩
  | 35 => ⟨S1x7077888, .i32⟩
  | 36 => ⟨S7077888, .i32⟩
  | 37 => ⟨S_, .i32⟩
  | 38 => ⟨S7077888, .i32⟩
  | 39 => ⟨S7077888, .i32⟩
  | 40 => ⟨S1, .i32⟩
  | 41 => ⟨S_, .i32⟩
  | 42 => ⟨S7077888, .i32⟩
  | 43 => ⟨S7077888, .i32⟩
  | 44 => ⟨S1x7077888, .i32⟩
  | 45 => ⟨S7077888, .i32⟩
  | 46 => ⟨S_, .i32⟩
  | 47 => ⟨S7077888, .i32⟩
  | 48 => ⟨S7077888, .i32⟩
  | 49 => ⟨S1, .i32⟩
  | 50 => ⟨S_, .i32⟩
  | 51 => ⟨S7077888, .i32⟩
  | 52 => ⟨S7077888, .i32⟩
  | 53 => ⟨S1x7077888, .f32⟩
  | 54 => ⟨S7077888, .f32⟩
  | 55 => ⟨S_, .f32⟩
  | 56 => ⟨S7077888, .f32⟩
  | 57 => ⟨S7077888, .f32⟩
  | 58 => ⟨S1x7077888, .f32⟩
  | 59 => ⟨S7077888, .f32⟩
  | 60 => ⟨S7077888, .f32⟩
  | 61 => ⟨S1x7077888, .f32⟩
  | 62 => ⟨S7077888, .f32⟩
  | 63 => ⟨S_, .f32⟩
  | 64 => ⟨S7077888, .f32⟩
  | 65 => ⟨S7077888, .f32⟩
  | 66 => ⟨S7077888, .f32⟩
  | 67 => ⟨S_, .i32⟩
  | 68 => ⟨S7077888, .i32⟩
  | 69 => ⟨S7077888, .i32⟩
  | 70 => ⟨S_, .i32⟩
  | 71 => ⟨S7077888, .i32⟩
  | 72 => ⟨S7077888, .i32⟩
  | 73 => ⟨S7077888, .i32⟩
  | 74 => ⟨S7077888, .i32⟩
  | 75 => ⟨S7077888, .f32⟩
  | 76 => ⟨S_, .i32⟩
  | 77 => ⟨S7077888, .i32⟩
  | 78 => ⟨S7077888, .i1⟩
  | 79 => ⟨S_, .i32⟩
  | 80 => ⟨S7077888, .i32⟩
  | 81 => ⟨S7077888, .i32⟩
  | 82 => ⟨S7077888, .i32⟩
  | 83 => ⟨S7077888x1, .i32⟩
  | 84 => ⟨S7077888, .f32⟩
  | 85 => ⟨S1x7077888, .i32⟩
  | 86 => ⟨S7077888, .i32⟩
  | 87 => ⟨S_, .i32⟩
  | 88 => ⟨S7077888, .i32⟩
  | 89 => ⟨S7077888, .i32⟩
  | 90 => ⟨S1, .i32⟩
  | 91 => ⟨S_, .i32⟩
  | 92 => ⟨S7077888, .i32⟩
  | 93 => ⟨S7077888, .i32⟩
  | 94 => ⟨S1x7077888, .i32⟩
  | 95 => ⟨S7077888, .i32⟩
  | 96 => ⟨S_, .i32⟩
  | 97 => ⟨S7077888, .i32⟩
  | 98 => ⟨S7077888, .i32⟩
  | 99 => ⟨S1, .i32⟩
  | 100 => ⟨S_, .i32⟩
  | 101 => ⟨S7077888, .i32⟩
  | 102 => ⟨S7077888, .i32⟩
  | 103 => ⟨S1x7077888, .i32⟩
  | 104 => ⟨S7077888, .i32⟩
  | 105 => ⟨S_, .i32⟩
  | 106 => ⟨S7077888, .i32⟩
  | 107 => ⟨S7077888, .i32⟩
  | 108 => ⟨S1, .i32⟩
  | 109 => ⟨S_, .i32⟩
  | 110 => ⟨S7077888, .i32⟩
  | 111 => ⟨S7077888, .i32⟩
  | 112 => ⟨S1x7077888, .f32⟩
  | 113 => ⟨S7077888, .f32⟩
  | 114 => ⟨S_, .f32⟩
  | 115 => ⟨S7077888, .f32⟩
  | 116 => ⟨S7077888, .f32⟩
  | 117 => ⟨S1x7077888, .f32⟩
  | 118 => ⟨S7077888, .f32⟩
  | 119 => ⟨S7077888, .f32⟩
  | 120 => ⟨S1x7077888, .f32⟩
  | 121 => ⟨S7077888, .f32⟩
  | 122 => ⟨S7077888, .f32⟩
  | 123 => ⟨S_, .i32⟩
  | 124 => ⟨S7077888, .i32⟩
  | 125 => ⟨S7077888, .i32⟩
  | 126 => ⟨S_, .i32⟩
  | 127 => ⟨S7077888, .i32⟩
  | _ => ⟨S1x1x192x192x192, .f32⟩

abbrev hbmTy0_2 (i : Nat) : BufTy := match i % 128 with
  | 0 => ⟨S7077888, .i32⟩
  | 1 => ⟨S7077888, .i32⟩
  | 2 => ⟨S7077888, .i32⟩
  | 3 => ⟨S7077888, .f32⟩
  | 4 => ⟨S_, .i32⟩
  | 5 => ⟨S7077888, .i32⟩
  | 6 => ⟨S7077888, .i1⟩
  | 7 => ⟨S_, .i32⟩
  | 8 => ⟨S7077888, .i32⟩
  | 9 => ⟨S7077888, .i32⟩
  | 10 => ⟨S7077888, .i32⟩
  | 11 => ⟨S7077888x1, .i32⟩
  | 12 => ⟨S7077888, .f32⟩
  | 13 => ⟨S1x7077888, .i32⟩
  | 14 => ⟨S7077888, .i32⟩
  | 15 => ⟨S_, .i32⟩
  | 16 => ⟨S7077888, .i32⟩
  | 17 => ⟨S7077888, .i32⟩
  | 18 => ⟨S1, .i32⟩
  | 19 => ⟨S_, .i32⟩
  | 20 => ⟨S7077888, .i32⟩
  | 21 => ⟨S7077888, .i32⟩
  | 22 => ⟨S1x7077888, .i32⟩
  | 23 => ⟨S7077888, .i32⟩
  | 24 => ⟨S_, .i32⟩
  | 25 => ⟨S7077888, .i32⟩
  | 26 => ⟨S7077888, .i32⟩
  | 27 => ⟨S1, .i32⟩
  | 28 => ⟨S_, .i32⟩
  | 29 => ⟨S7077888, .i32⟩
  | 30 => ⟨S7077888, .i32⟩
  | 31 => ⟨S1x7077888, .i32⟩
  | 32 => ⟨S7077888, .i32⟩
  | 33 => ⟨S_, .i32⟩
  | 34 => ⟨S7077888, .i32⟩
  | 35 => ⟨S7077888, .i32⟩
  | 36 => ⟨S1, .i32⟩
  | 37 => ⟨S_, .i32⟩
  | 38 => ⟨S7077888, .i32⟩
  | 39 => ⟨S7077888, .i32⟩
  | 40 => ⟨S1x7077888, .f32⟩
  | 41 => ⟨S7077888, .f32⟩
  | 42 => ⟨S1x7077888, .f32⟩
  | 43 => ⟨S7077888, .f32⟩
  | 44 => ⟨S_, .f32⟩
  | 45 => ⟨S7077888, .f32⟩
  | 46 => ⟨S7077888, .f32⟩
  | 47 => ⟨S7077888, .f32⟩
  | 48 => ⟨S1x7077888, .f32⟩
  | 49 => ⟨S7077888, .f32⟩
  | 50 => ⟨S_, .f32⟩
  | 51 => ⟨S7077888, .f32⟩
  | 52 => ⟨S7077888, .f32⟩
  | 53 => ⟨S7077888, .f32⟩
  | 54 => ⟨S_, .i32⟩
  | 55 => ⟨S7077888, .i32⟩
  | 56 => ⟨S7077888, .i32⟩
  | 57 => ⟨S_, .i32⟩
  | 58 => ⟨S7077888, .i32⟩
  | 59 => ⟨S7077888, .i32⟩
  | 60 => ⟨S7077888, .i32⟩
  | 61 => ⟨S7077888, .i32⟩
  | 62 => ⟨S7077888, .f32⟩
  | 63 => ⟨S_, .i32⟩
  | 64 => ⟨S7077888, .i32⟩
  | 65 => ⟨S7077888, .i1⟩
  | 66 => ⟨S_, .i32⟩
  | 67 => ⟨S7077888, .i32⟩
  | 68 => ⟨S7077888, .i32⟩
  | 69 => ⟨S7077888, .i32⟩
  | 70 => ⟨S7077888x1, .i32⟩
  | 71 => ⟨S7077888, .f32⟩
  | 72 => ⟨S1x7077888, .i32⟩
  | 73 => ⟨S7077888, .i32⟩
  | 74 => ⟨S_, .i32⟩
  | 75 => ⟨S7077888, .i32⟩
  | 76 => ⟨S7077888, .i32⟩
  | 77 => ⟨S1, .i32⟩
  | 78 => ⟨S_, .i32⟩
  | 79 => ⟨S7077888, .i32⟩
  | 80 => ⟨S7077888, .i32⟩
  | 81 => ⟨S1x7077888, .i32⟩
  | 82 => ⟨S7077888, .i32⟩
  | 83 => ⟨S_, .i32⟩
  | 84 => ⟨S7077888, .i32⟩
  | 85 => ⟨S7077888, .i32⟩
  | 86 => ⟨S1, .i32⟩
  | 87 => ⟨S_, .i32⟩
  | 88 => ⟨S7077888, .i32⟩
  | 89 => ⟨S7077888, .i32⟩
  | 90 => ⟨S1x7077888, .i32⟩
  | 91 => ⟨S7077888, .i32⟩
  | 92 => ⟨S_, .i32⟩
  | 93 => ⟨S7077888, .i32⟩
  | 94 => ⟨S7077888, .i32⟩
  | 95 => ⟨S1, .i32⟩
  | 96 => ⟨S_, .i32⟩
  | 97 => ⟨S7077888, .i32⟩
  | 98 => ⟨S7077888, .i32⟩
  | 99 => ⟨S1x7077888, .f32⟩
  | 100 => ⟨S7077888, .f32⟩
  | 101 => ⟨S1x7077888, .f32⟩
  | 102 => ⟨S7077888, .f32⟩
  | 103 => ⟨S_, .f32⟩
  | 104 => ⟨S7077888, .f32⟩
  | 105 => ⟨S7077888, .f32⟩
  | 106 => ⟨S7077888, .f32⟩
  | 107 => ⟨S1x7077888, .f32⟩
  | 108 => ⟨S7077888, .f32⟩
  | 109 => ⟨S7077888, .f32⟩
  | 110 => ⟨S_, .i32⟩
  | 111 => ⟨S7077888, .i32⟩
  | 112 => ⟨S7077888, .i32⟩
  | 113 => ⟨S_, .i32⟩
  | 114 => ⟨S7077888, .i32⟩
  | 115 => ⟨S7077888, .i32⟩
  | 116 => ⟨S7077888, .i32⟩
  | 117 => ⟨S7077888, .i32⟩
  | 118 => ⟨S7077888, .f32⟩
  | 119 => ⟨S_, .i32⟩
  | 120 => ⟨S7077888, .i32⟩
  | 121 => ⟨S7077888, .i1⟩
  | 122 => ⟨S_, .i32⟩
  | 123 => ⟨S7077888, .i32⟩
  | 124 => ⟨S7077888, .i32⟩
  | 125 => ⟨S7077888, .i32⟩
  | 126 => ⟨S7077888x1, .i32⟩
  | 127 => ⟨S7077888, .f32⟩
  | _ => ⟨S1x1x192x192x192, .f32⟩

abbrev hbmTy0_3 (i : Nat) : BufTy := match i % 128 with
  | 0 => ⟨S1x7077888, .i32⟩
  | 1 => ⟨S7077888, .i32⟩
  | 2 => ⟨S_, .i32⟩
  | 3 => ⟨S7077888, .i32⟩
  | 4 => ⟨S7077888, .i32⟩
  | 5 => ⟨S1, .i32⟩
  | 6 => ⟨S_, .i32⟩
  | 7 => ⟨S7077888, .i32⟩
  | 8 => ⟨S7077888, .i32⟩
  | 9 => ⟨S1x7077888, .i32⟩
  | 10 => ⟨S7077888, .i32⟩
  | 11 => ⟨S_, .i32⟩
  | 12 => ⟨S7077888, .i32⟩
  | 13 => ⟨S7077888, .i32⟩
  | 14 => ⟨S1, .i32⟩
  | 15 => ⟨S_, .i32⟩
  | 16 => ⟨S7077888, .i32⟩
  | 17 => ⟨S7077888, .i32⟩
  | 18 => ⟨S1x7077888, .i32⟩
  | 19 => ⟨S7077888, .i32⟩
  | 20 => ⟨S_, .i32⟩
  | 21 => ⟨S7077888, .i32⟩
  | 22 => ⟨S7077888, .i32⟩
  | 23 => ⟨S1, .i32⟩
  | 24 => ⟨S_, .i32⟩
  | 25 => ⟨S7077888, .i32⟩
  | 26 => ⟨S7077888, .i32⟩
  | 27 => ⟨S1x7077888, .f32⟩
  | 28 => ⟨S7077888, .f32⟩
  | 29 => ⟨S1x7077888, .f32⟩
  | 30 => ⟨S7077888, .f32⟩
  | 31 => ⟨S7077888, .f32⟩
  | 32 => ⟨S1x7077888, .f32⟩
  | 33 => ⟨S7077888, .f32⟩
  | 34 => ⟨S_, .f32⟩
  | 35 => ⟨S7077888, .f32⟩
  | 36 => ⟨S7077888, .f32⟩
  | 37 => ⟨S7077888, .f32⟩
  | 38 => ⟨S_, .i32⟩
  | 39 => ⟨S7077888, .i32⟩
  | 40 => ⟨S7077888, .i32⟩
  | 41 => ⟨S_, .i32⟩
  | 42 => ⟨S7077888, .i32⟩
  | 43 => ⟨S7077888, .i32⟩
  | 44 => ⟨S7077888, .i32⟩
  | 45 => ⟨S7077888, .i32⟩
  | 46 => ⟨S7077888, .f32⟩
  | 47 => ⟨S_, .i32⟩
  | 48 => ⟨S7077888, .i32⟩
  | 49 => ⟨S7077888, .i1⟩
  | 50 => ⟨S_, .i32⟩
  | 51 => ⟨S7077888, .i32⟩
  | 52 => ⟨S7077888, .i32⟩
  | 53 => ⟨S7077888, .i32⟩
  | 54 => ⟨S7077888x1, .i32⟩
  | 55 => ⟨S7077888, .f32⟩
  | 56 => ⟨S1x7077888, .i32⟩
  | 57 => ⟨S7077888, .i32⟩
  | 58 => ⟨S_, .i32⟩
  | 59 => ⟨S7077888, .i32⟩
  | 60 => ⟨S7077888, .i32⟩
  | 61 => ⟨S1, .i32⟩
  | 62 => ⟨S_, .i32⟩
  | 63 => ⟨S7077888, .i32⟩
  | 64 => ⟨S7077888, .i32⟩
  | 65 => ⟨S1x7077888, .i32⟩
  | 66 => ⟨S7077888, .i32⟩
  | 67 => ⟨S_, .i32⟩
  | 68 => ⟨S7077888, .i32⟩
  | 69 => ⟨S7077888, .i32⟩
  | 70 => ⟨S1, .i32⟩
  | 71 => ⟨S_, .i32⟩
  | 72 => ⟨S7077888, .i32⟩
  | 73 => ⟨S7077888, .i32⟩
  | 74 => ⟨S1x7077888, .i32⟩
  | 75 => ⟨S7077888, .i32⟩
  | 76 => ⟨S_, .i32⟩
  | 77 => ⟨S7077888, .i32⟩
  | 78 => ⟨S7077888, .i32⟩
  | 79 => ⟨S1, .i32⟩
  | 80 => ⟨S_, .i32⟩
  | 81 => ⟨S7077888, .i32⟩
  | 82 => ⟨S7077888, .i32⟩
  | 83 => ⟨S1x7077888, .f32⟩
  | 84 => ⟨S7077888, .f32⟩
  | 85 => ⟨S1x7077888, .f32⟩
  | 86 => ⟨S7077888, .f32⟩
  | 87 => ⟨S7077888, .f32⟩
  | 88 => ⟨S1x7077888, .f32⟩
  | 89 => ⟨S7077888, .f32⟩
  | 90 => ⟨S7077888, .f32⟩
  | 91 => ⟨S_, .i32⟩
  | 92 => ⟨S7077888, .i32⟩
  | 93 => ⟨S7077888, .i32⟩
  | 94 => ⟨S_, .i32⟩
  | 95 => ⟨S7077888, .i32⟩
  | 96 => ⟨S7077888, .i32⟩
  | 97 => ⟨S7077888, .i32⟩
  | 98 => ⟨S7077888, .i32⟩
  | 99 => ⟨S7077888, .f32⟩
  | 100 => ⟨S_, .i32⟩
  | 101 => ⟨S7077888, .i32⟩
  | 102 => ⟨S7077888, .i1⟩
  | 103 => ⟨S_, .i32⟩
  | 104 => ⟨S7077888, .i32⟩
  | 105 => ⟨S7077888, .i32⟩
  | 106 => ⟨S7077888, .i32⟩
  | 107 => ⟨S7077888x1, .i32⟩
  | 108 => ⟨S7077888, .f32⟩
  | 109 => ⟨S1x1x192x192x192, .f32⟩
  | _ => ⟨S1x1x192x192x192, .f32⟩

abbrev hbmTy (i : Nat) : BufTy := match i / 128 with
  | 0 => hbmTy0_0 i
  | 1 => hbmTy0_1 i
  | 2 => hbmTy0_2 i
  | 3 => hbmTy0_3 i
  | _ => ⟨S1x1x192x192x192, .f32⟩

abbrev bufTy : (tb : Table) → Fin (tcTables nBuf tb) → BufTy
  | .hbm, ⟨i, _⟩ => hbmTy i
  | _, _ => ⟨S1x1x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_c_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_6 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_c_8 : Ref sig .tc := ⟨.hbm, 77, rfl⟩
abbrev main_v65 : Ref sig .tc := ⟨.hbm, 78, rfl⟩
abbrev main_v66 : Ref sig .tc := ⟨.hbm, 79, rfl⟩
abbrev main_c_9 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_c_10 : Ref sig .tc := ⟨.hbm, 86, rfl⟩
abbrev main_v72 : Ref sig .tc := ⟨.hbm, 87, rfl⟩
abbrev main_v73 : Ref sig .tc := ⟨.hbm, 88, rfl⟩
abbrev main_c_11 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_c_12 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_c_13 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_c_14 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_cst_15 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_16 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_17 : Ref sig .tc := ⟨.hbm, 136, rfl⟩
abbrev main_v115 : Ref sig .tc := ⟨.hbm, 137, rfl⟩
abbrev main_v116 : Ref sig .tc := ⟨.hbm, 138, rfl⟩
abbrev main_c_18 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_c_19 : Ref sig .tc := ⟨.hbm, 145, rfl⟩
abbrev main_v122 : Ref sig .tc := ⟨.hbm, 146, rfl⟩
abbrev main_v123 : Ref sig .tc := ⟨.hbm, 147, rfl⟩
abbrev main_c_20 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_c_21 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_c_22 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_c_23 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_cst_24 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_cst_25 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_c_26 : Ref sig .tc := ⟨.hbm, 195, rfl⟩
abbrev main_v165 : Ref sig .tc := ⟨.hbm, 196, rfl⟩
abbrev main_v166 : Ref sig .tc := ⟨.hbm, 197, rfl⟩
abbrev main_c_27 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_c_28 : Ref sig .tc := ⟨.hbm, 204, rfl⟩
abbrev main_v172 : Ref sig .tc := ⟨.hbm, 205, rfl⟩
abbrev main_v173 : Ref sig .tc := ⟨.hbm, 206, rfl⟩
abbrev main_c_29 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_c_30 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_c_31 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_c_32 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_cst_33 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_c_34 : Ref sig .tc := ⟨.hbm, 251, rfl⟩
abbrev main_v213 : Ref sig .tc := ⟨.hbm, 252, rfl⟩
abbrev main_v214 : Ref sig .tc := ⟨.hbm, 253, rfl⟩
abbrev main_c_35 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_c_36 : Ref sig .tc := ⟨.hbm, 260, rfl⟩
abbrev main_v220 : Ref sig .tc := ⟨.hbm, 261, rfl⟩
abbrev main_v221 : Ref sig .tc := ⟨.hbm, 262, rfl⟩
abbrev main_c_37 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_c_38 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_c_39 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_c_40 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_cst_41 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_cst_42 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_c_43 : Ref sig .tc := ⟨.hbm, 310, rfl⟩
abbrev main_v263 : Ref sig .tc := ⟨.hbm, 311, rfl⟩
abbrev main_v264 : Ref sig .tc := ⟨.hbm, 312, rfl⟩
abbrev main_c_44 : Ref sig .tc := ⟨.hbm, 313, rfl⟩
abbrev main_v265 : Ref sig .tc := ⟨.hbm, 314, rfl⟩
abbrev main_v266 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_c_45 : Ref sig .tc := ⟨.hbm, 319, rfl⟩
abbrev main_v270 : Ref sig .tc := ⟨.hbm, 320, rfl⟩
abbrev main_v271 : Ref sig .tc := ⟨.hbm, 321, rfl⟩
abbrev main_c_46 : Ref sig .tc := ⟨.hbm, 322, rfl⟩
abbrev main_v272 : Ref sig .tc := ⟨.hbm, 323, rfl⟩
abbrev main_v273 : Ref sig .tc := ⟨.hbm, 324, rfl⟩
abbrev main_v274 : Ref sig .tc := ⟨.hbm, 325, rfl⟩
abbrev main_v275 : Ref sig .tc := ⟨.hbm, 326, rfl⟩
abbrev main_v276 : Ref sig .tc := ⟨.hbm, 327, rfl⟩
abbrev main_v277 : Ref sig .tc := ⟨.hbm, 328, rfl⟩
abbrev main_v278 : Ref sig .tc := ⟨.hbm, 329, rfl⟩
abbrev main_c_47 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_c_48 : Ref sig .tc := ⟨.hbm, 339, rfl⟩
abbrev main_v287 : Ref sig .tc := ⟨.hbm, 340, rfl⟩
abbrev main_v288 : Ref sig .tc := ⟨.hbm, 341, rfl⟩
abbrev main_v289 : Ref sig .tc := ⟨.hbm, 342, rfl⟩
abbrev main_v290 : Ref sig .tc := ⟨.hbm, 343, rfl⟩
abbrev main_v291 : Ref sig .tc := ⟨.hbm, 344, rfl⟩
abbrev main_v292 : Ref sig .tc := ⟨.hbm, 345, rfl⟩
abbrev main_v293 : Ref sig .tc := ⟨.hbm, 346, rfl⟩
abbrev main_v294 : Ref sig .tc := ⟨.hbm, 347, rfl⟩
abbrev main_c_49 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_cst_50 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_v309 : Ref sig .tc := ⟨.hbm, 364, rfl⟩
abbrev main_v310 : Ref sig .tc := ⟨.hbm, 365, rfl⟩
abbrev main_c_51 : Ref sig .tc := ⟨.hbm, 366, rfl⟩
abbrev main_v311 : Ref sig .tc := ⟨.hbm, 367, rfl⟩
abbrev main_v312 : Ref sig .tc := ⟨.hbm, 368, rfl⟩
abbrev main_c_52 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_c_53 : Ref sig .tc := ⟨.hbm, 375, rfl⟩
abbrev main_v318 : Ref sig .tc := ⟨.hbm, 376, rfl⟩
abbrev main_v319 : Ref sig .tc := ⟨.hbm, 377, rfl⟩
abbrev main_c_54 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_v324 : Ref sig .tc := ⟨.hbm, 383, rfl⟩
abbrev main_v325 : Ref sig .tc := ⟨.hbm, 384, rfl⟩
abbrev main_v326 : Ref sig .tc := ⟨.hbm, 385, rfl⟩
abbrev main_c_55 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_c_56 : Ref sig .tc := ⟨.hbm, 395, rfl⟩
abbrev main_v335 : Ref sig .tc := ⟨.hbm, 396, rfl⟩
abbrev main_v336 : Ref sig .tc := ⟨.hbm, 397, rfl⟩
abbrev main_v337 : Ref sig .tc := ⟨.hbm, 398, rfl⟩
abbrev main_v338 : Ref sig .tc := ⟨.hbm, 399, rfl⟩
abbrev main_v339 : Ref sig .tc := ⟨.hbm, 400, rfl⟩
abbrev main_v340 : Ref sig .tc := ⟨.hbm, 401, rfl⟩
abbrev main_v341 : Ref sig .tc := ⟨.hbm, 402, rfl⟩
abbrev main_v342 : Ref sig .tc := ⟨.hbm, 403, rfl⟩
abbrev main_c_57 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_v346 : Ref sig .tc := ⟨.hbm, 408, rfl⟩
abbrev main_v347 : Ref sig .tc := ⟨.hbm, 409, rfl⟩
abbrev main_v348 : Ref sig .tc := ⟨.hbm, 410, rfl⟩
abbrev main_v349 : Ref sig .tc := ⟨.hbm, 411, rfl⟩
abbrev main_v350 : Ref sig .tc := ⟨.hbm, 412, rfl⟩
abbrev main_v351 : Ref sig .tc := ⟨.hbm, 413, rfl⟩
abbrev main_v352 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_cst_58 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_c_59 : Ref sig .tc := ⟨.hbm, 422, rfl⟩
abbrev main_v359 : Ref sig .tc := ⟨.hbm, 423, rfl⟩
abbrev main_v360 : Ref sig .tc := ⟨.hbm, 424, rfl⟩
abbrev main_c_60 : Ref sig .tc := ⟨.hbm, 425, rfl⟩
abbrev main_v361 : Ref sig .tc := ⟨.hbm, 426, rfl⟩
abbrev main_v362 : Ref sig .tc := ⟨.hbm, 427, rfl⟩
abbrev main_v363 : Ref sig .tc := ⟨.hbm, 428, rfl⟩
abbrev main_v364 : Ref sig .tc := ⟨.hbm, 429, rfl⟩
abbrev main_v365 : Ref sig .tc := ⟨.hbm, 430, rfl⟩
abbrev main_c_61 : Ref sig .tc := ⟨.hbm, 431, rfl⟩
abbrev main_v366 : Ref sig .tc := ⟨.hbm, 432, rfl⟩
abbrev main_v367 : Ref sig .tc := ⟨.hbm, 433, rfl⟩
abbrev main_c_62 : Ref sig .tc := ⟨.hbm, 434, rfl⟩
abbrev main_v368 : Ref sig .tc := ⟨.hbm, 435, rfl⟩
abbrev main_v369 : Ref sig .tc := ⟨.hbm, 436, rfl⟩
abbrev main_v370 : Ref sig .tc := ⟨.hbm, 437, rfl⟩
abbrev main_v371 : Ref sig .tc := ⟨.hbm, 438, rfl⟩
abbrev main_v372 : Ref sig .tc := ⟨.hbm, 439, rfl⟩
abbrev main_v373 : Ref sig .tc := ⟨.hbm, 440, rfl⟩
abbrev main_v374 : Ref sig .tc := ⟨.hbm, 441, rfl⟩
abbrev main_c_63 : Ref sig .tc := ⟨.hbm, 442, rfl⟩
abbrev main_v375 : Ref sig .tc := ⟨.hbm, 443, rfl⟩
abbrev main_v376 : Ref sig .tc := ⟨.hbm, 444, rfl⟩
abbrev main_v377 : Ref sig .tc := ⟨.hbm, 445, rfl⟩
abbrev main_v378 : Ref sig .tc := ⟨.hbm, 446, rfl⟩
abbrev main_v379 : Ref sig .tc := ⟨.hbm, 447, rfl⟩
abbrev main_v380 : Ref sig .tc := ⟨.hbm, 448, rfl⟩
abbrev main_v381 : Ref sig .tc := ⟨.hbm, 449, rfl⟩
abbrev main_v382 : Ref sig .tc := ⟨.hbm, 450, rfl⟩
abbrev main_c_64 : Ref sig .tc := ⟨.hbm, 451, rfl⟩
abbrev main_v383 : Ref sig .tc := ⟨.hbm, 452, rfl⟩
abbrev main_v384 : Ref sig .tc := ⟨.hbm, 453, rfl⟩
abbrev main_v385 : Ref sig .tc := ⟨.hbm, 454, rfl⟩
abbrev main_v386 : Ref sig .tc := ⟨.hbm, 455, rfl⟩
abbrev main_v387 : Ref sig .tc := ⟨.hbm, 456, rfl⟩
abbrev main_v388 : Ref sig .tc := ⟨.hbm, 457, rfl⟩
abbrev main_v389 : Ref sig .tc := ⟨.hbm, 458, rfl⟩
abbrev main_v390 : Ref sig .tc := ⟨.hbm, 459, rfl⟩
abbrev main_c_65 : Ref sig .tc := ⟨.hbm, 460, rfl⟩
abbrev main_v391 : Ref sig .tc := ⟨.hbm, 461, rfl⟩
abbrev main_v392 : Ref sig .tc := ⟨.hbm, 462, rfl⟩
abbrev main_v393 : Ref sig .tc := ⟨.hbm, 463, rfl⟩
abbrev main_v394 : Ref sig .tc := ⟨.hbm, 464, rfl⟩
abbrev main_v395 : Ref sig .tc := ⟨.hbm, 465, rfl⟩
abbrev main_v396 : Ref sig .tc := ⟨.hbm, 466, rfl⟩
abbrev main_v397 : Ref sig .tc := ⟨.hbm, 467, rfl⟩
abbrev main_v398 : Ref sig .tc := ⟨.hbm, 468, rfl⟩
abbrev main_v399 : Ref sig .tc := ⟨.hbm, 469, rfl⟩
abbrev main_v400 : Ref sig .tc := ⟨.hbm, 470, rfl⟩
abbrev main_v401 : Ref sig .tc := ⟨.hbm, 471, rfl⟩
abbrev main_v402 : Ref sig .tc := ⟨.hbm, 472, rfl⟩
abbrev main_v403 : Ref sig .tc := ⟨.hbm, 473, rfl⟩
abbrev main_v404 : Ref sig .tc := ⟨.hbm, 474, rfl⟩
abbrev main_c_66 : Ref sig .tc := ⟨.hbm, 475, rfl⟩
abbrev main_v405 : Ref sig .tc := ⟨.hbm, 476, rfl⟩
abbrev main_v406 : Ref sig .tc := ⟨.hbm, 477, rfl⟩
abbrev main_c_67 : Ref sig .tc := ⟨.hbm, 478, rfl⟩
abbrev main_v407 : Ref sig .tc := ⟨.hbm, 479, rfl⟩
abbrev main_v408 : Ref sig .tc := ⟨.hbm, 480, rfl⟩
abbrev main_v409 : Ref sig .tc := ⟨.hbm, 481, rfl⟩
abbrev main_v410 : Ref sig .tc := ⟨.hbm, 482, rfl⟩
abbrev main_v411 : Ref sig .tc := ⟨.hbm, 483, rfl⟩
abbrev main_c_68 : Ref sig .tc := ⟨.hbm, 484, rfl⟩
abbrev main_v412 : Ref sig .tc := ⟨.hbm, 485, rfl⟩
abbrev main_v413 : Ref sig .tc := ⟨.hbm, 486, rfl⟩
abbrev main_c_69 : Ref sig .tc := ⟨.hbm, 487, rfl⟩
abbrev main_v414 : Ref sig .tc := ⟨.hbm, 488, rfl⟩
abbrev main_v415 : Ref sig .tc := ⟨.hbm, 489, rfl⟩
abbrev main_v416 : Ref sig .tc := ⟨.hbm, 490, rfl⟩
abbrev main_v417 : Ref sig .tc := ⟨.hbm, 491, rfl⟩
abbrev main_v418 : Ref sig .tc := ⟨.hbm, 492, rfl⟩
abbrev main_v419 : Ref sig .tc := ⟨.hbm, 493, rfl⟩

abbrev nD : Nat := 1
abbrev τ : Topo := Topo.v7x

variable {F : FTy → Type} [FloatOps F]

class Facts₀ : Prop where
  bcast_S192_S192x192x192_0 : S192.BroadcastsInDim S192x192x192 (![0] : Fin 1 → Fin S192x192x192.rank)
  bcast_S192_S192x192x192_1 : S192.BroadcastsInDim S192x192x192 (![1] : Fin 1 → Fin S192x192x192.rank)
  bcast_S192_S192x192x192_2 : S192.BroadcastsInDim S192x192x192 (![2] : Fin 1 → Fin S192x192x192.rank)
  bcast_S192x192x192_S1x192x192x192_1_2_3 : S192x192x192.BroadcastsInDim S1x192x192x192 (![1, 2, 3] : Fin 3 → Fin S1x192x192x192.rank)
  concatenates_S1x192x192x192_S1x192x192x192_S1x192x192x192_S3x192x192x192_d0 : Shape.Concatenates [S1x192x192x192, S1x192x192x192, S1x192x192x192] S3x192x192x192 0
  bcast_S3x192x192x192_S1x3x192x192x192_1_2_3_4 : S3x192x192x192.BroadcastsInDim S1x3x192x192x192 (![1, 2, 3, 4] : Fin 4 → Fin S1x3x192x192x192.rank)
  bcast_S_S1x3x192x192x192 : S_.BroadcastsInDim S1x3x192x192x192 (![] : Fin 0 → Fin S1x3x192x192x192.rank)
  shapeCasts_S1x3x192x192x192_S3x7077888 : S1x3x192x192x192.ShapeCasts S3x7077888
  bcast_S3_S3x1_0 : S3.BroadcastsInDim S3x1 (![0] : Fin 1 → Fin S3x1.rank)
  bcast_S3x1_S3x7077888_0_1 : S3x1.BroadcastsInDim S3x7077888 (![0, 1] : Fin 2 → Fin S3x7077888.rank)
  shapeCasts_S1x1x192x192x192_S7077888 : S1x1x192x192x192.ShapeCasts S7077888
  bcast_S_S7077888 : S_.BroadcastsInDim S7077888 (![] : Fin 0 → Fin S7077888.rank)
  slices_S3x7077888_S1x7077888_0_0 : S3x7077888.Slices ![0, 0] S1x7077888
  shapeCasts_S1x7077888_S7077888 : S1x7077888.ShapeCasts S7077888
  slices_S3_S1_0 : S3.Slices ![0] S1
  shapeCasts_S1_S_ : S1.ShapeCasts S_
  slices_S3x7077888_S1x7077888_1_0 : S3x7077888.Slices ![1, 0] S1x7077888
  slices_S3_S1_1 : S3.Slices ![1] S1
  slices_S3x7077888_S1x7077888_2_0 : S3x7077888.Slices ![2, 0] S1x7077888
  slices_S3_S1_2 : S3.Slices ![2] S1
  bcast_S7077888_S7077888x1_0 : S7077888.BroadcastsInDim S7077888x1 (![0] : Fin 1 → Fin S7077888x1.rank)
  shapeCasts_S7077888_S1x1x192x192x192 : S7077888.ShapeCasts S1x1x192x192x192
  scatter_S7077888_S7077888x1_S7077888_n_0_0_1_wf : ScatterDims.WF S7077888 S7077888x1 S7077888 [] [0] [0] 1

variable [Facts₀]

def scatter_S7077888_S7077888x1_S7077888_n_0_0_1 : ScatterDims S7077888 S7077888x1 S7077888 where
  updateWindowDims := []
  insertedWindowDims := [0]
  scatterDimsToOperandDims := [0]
  indexVectorDim := 1
  wf := scatter_S7077888_S7077888x1_S7077888_n_0_0_1_wf

class Facts : Prop extends Facts₀ where

variable [Facts]
-- ==== Proof.KernelTail.lean ====
/-
  The kernel's program after its one pallas_call: the two arrays the kernel wrote — the corner index words and the
  corner values, both of shape [8, 192, 192, 192] — are flattened to 8 * 192^3 entries, a negative index word is moved
  up by 192^3, and the values are scatter-added into a zero volume of 192^3 entries, which is reshaped to the result.
  Here the program's result buffer after the run is read back as that function of the two arrays.
-/
import proofs.«146513_j73220602462351_1_alg».proof.Proof.KernelIdealFrame
import Idealize.ShloMosaic.Lib.StableHlo.Run
import Idealize.ShloMosaic.PureOps.Ideal

noncomputable section

namespace Cert.KernelTail

open Idealize.ShloMosaic Idealize.ShloMosaic.TcCoe Idealize.SL.Sem Idealize.ShloMosaic.StableHlo
open Cert.KernelIdeal Cert.KernelIdeal.Gen Cert.KernelIdeal.GenP

/-- The host operations after the region, as one function of the two arrays the region wrote. -/
def tail (A2 : S8x192x192x192.Idx → BitVec 32) (A3 : S8x192x192x192.Idx → Ideal .f32) :
    S1x1x192x192x192.Idx → Ideal .f32 :=
  shapeCast S1x1x192x192x192
    (Host.scatterAdd (F := Ideal) scatter_S7077888_S56623104x1_S56623104_n_0_0_1
      (broadcastInDim S7077888 ![] bcast_S_S7077888 (constant (F := Ideal) S_ .f32 0x00000000#32))
      (broadcastInDim S56623104x1 ![0] bcast_S56623104_S56623104x1_0
        (select
          (cmpi .slt (shapeCast S56623104 A2 shapeCasts_S8x192x192x192_S56623104)
            (broadcastInDim S56623104 ![] bcast_S_S56623104 (constantI S_ 32 0#32)))
          (addi (shapeCast S56623104 A2 shapeCasts_S8x192x192x192_S56623104)
            (broadcastInDim S56623104 ![] bcast_S_S56623104 (constantI S_ 32 7077888#32)))
          (shapeCast S56623104 A2 shapeCasts_S8x192x192x192_S56623104)))
      (shapeCast S56623104 A3 shapeCasts_S8x192x192x192_S56623104))
    shapeCasts_S7077888_S1x1x192x192x192

variable (m : (ℓ : Loc nD τ sig) → Buf (Elt Ideal) ℓ) (ρ : Dev nD → PrngReg)

/-- The result buffer after the lines that follow the region. -/
theorem tail_eq (c : Dev nD) :
    Pipeline.afterTail₀ cfgs (GenP.dats (F := Ideal) m) 0 (GenP.V0 m) [hostOps1] c main_v13
      = tail ((GenP.dats (F := Ideal) m 0 c).arrAt 2 cfg0.N) ((GenP.dats (F := Ideal) m 0 c).arrAt 3 cfg0.N) := by
  unfold Pipeline.afterTail₀
  show StableHlo.after hostOps1 _ (Proc.devRef .tc main_v13) = _
  after_results
  have e2 : Pipeline.withArrays (cfgs 0).spec c (V0 m c) (fun w => (dats (F := Ideal) m 0 c).arrAt w (cfgs 0).N)
      (Proc.tc.devRef main_v2_0) = (dats (F := Ideal) m 0 c).arrAt 2 cfg0.N :=
    Pipeline.withArrays_arr spec0 launch0.win.arr_inj c (V0 m c) (fun w => (dats (F := Ideal) m 0 c).arrAt w cfg0.N) 2
  have e3 : Pipeline.withArrays (cfgs 0).spec c (V0 m c) (fun w => (dats (F := Ideal) m 0 c).arrAt w (cfgs 0).N)
      (Proc.tc.devRef main_v2_1) = (dats (F := Ideal) m 0 c).arrAt 3 cfg0.N :=
    Pipeline.withArrays_arr spec0 launch0.win.arr_inj c (V0 m c) (fun w => (dats (F := Ideal) m 0 c).arrAt w cfg0.N) 3
  rw [e2, e3]
  rfl

/-- The kernel program's run, with its result named: every weakly fair execution ends with the result buffer at
    `tail` of the two arrays the region wrote, and the argument arrays as launched. -/
theorem run : θ_run defs (onTc (τ := τ) (main (F := Ideal))) ⟨m, fun _ => 0, ρ⟩ (fun r => ∀ c : Dev nD,
      r.2.mem ((c.tc : Thread nD τ).loc main_v13)
        = tail ((GenP.dats (F := Ideal) m 0 c).arrAt 2 cfg0.N) ((GenP.dats (F := Ideal) m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (GenP.dats m) c),
      ((h c).2 main_arg1 (Pipeline.mem_restRefs_of main_arg1 (by decide) (by decide))).trans (W_main_arg1 m (GenP.dats m) c)⟩)
    (GenP.run_main m ρ)

end Cert.KernelTail

end
-- ==== Proof.Spec.lean ====
/-
  The forward splat of one voxel, as scalar functions on the extended reals.

  A voxel (h, w, d) of the 192 x 192 x 192 volume is displaced by the flow: on axis a its location is
  loc = max-with-zero (coordinate + flow_a), read as "the sum if it is positive, else zero".  With fl = floor loc and
  delta = loc - fl, the voxel's source value is shared among the 8 corners of the unit cell at base = min (int fl) 191:
  corner (o0, o1, o2) has the clamped integer coordinates min (base_a + o_a) 191, the flat index
  (i0 * 36864 + i1 * 192) + i2 (32-bit words, wrapping), and the weight  w0 * w1 * w2  with  w_a = delta_a  if  o_a
  else  1 - delta_a;  the corner receives  src * weight.  The output volume is the sum, at each flat index, of what
  lands there.  Both programs compute exactly these words and these products, voxel by voxel; they differ only in
  how the 8 x 192^3 contributions are laid out and in which order they are added up.
-/
import Idealize.ShloMosaic.PureOps.Ideal
import Idealize.ShloMosaic.Lib.ValueIdx

noncomputable section

namespace Cert.Spec

open Idealize.ShloMosaic Idealize.ShloMosaic.ValueIdx

/-- A float at the ideal instance: an extended real. -/
abbrev E : Type := Ideal .f32

/-- The float words 0.0 and 1.0. -/
def zeroW : E := FloatOps.ofBits (F := Ideal) .f32 0x00000000#32
def oneW : E := FloatOps.ofBits (F := Ideal) .f32 0x3F800000#32

/-- The displaced coordinate, kept only where it is positive: `g` the integer grid coordinate, `f` the flow. -/
def loc (g : BitVec 32) (f : E) : E :=
  Scalar.select (FloatOps.cmpf .ogt (FloatOps.addf (FloatOps.sitofp (F := Ideal) .f32 g) f) zeroW)
    (FloatOps.addf (FloatOps.sitofp (F := Ideal) .f32 g) f) zeroW

/-- Its integer part, as a float. -/
def fl (g : BitVec 32) (f : E) : E := FloatOps.floor (loc g f)

/-- Its fractional part. -/
def delta (g : BitVec 32) (f : E) : E := FloatOps.subf (loc g f) (fl g f)

/-- The cell's base coordinate on one axis: the integer part as a 32-bit word, at most 191. -/
def base (g : BitVec 32) (f : E) : BitVec 32 := IntOp.minsi (FloatOps.fptosi 32 (fl g f)) 191#32

/-- A corner's offset on one axis, as a word. -/
def off : Bool → BitVec 32
  | false => 0#32
  | true => 1#32

/-- A corner's coordinate on one axis: base plus offset, at most 191. -/
def cidx (o : Bool) (g : BitVec 32) (f : E) : BitVec 32 := IntOp.minsi (IntOp.addi (base g f) (off o)) 191#32

/-- A corner's weight on one axis: the fractional part on the far side, one minus it on the near side. -/
def wgt : Bool → BitVec 32 → E → E
  | false, g, f => FloatOps.subf oneW (delta g f)
  | true, g, f => delta g f

/-- The flat index word of integer coordinates (i0, i1, i2) in the 192 x 192 x 192 volume. -/
def flat (i0 i1 i2 : BitVec 32) : BitVec 32 :=
  IntOp.addi (IntOp.addi (IntOp.muli i0 36864#32) (IntOp.muli i1 192#32)) i2

/-- An index word as the scatter reads it: a negative word is first moved up by the volume's size. -/
def wrap (x : BitVec 32) : BitVec 32 := Scalar.select (IntOp.cmpi .slt x 0#32) (IntOp.addi x 7077888#32) x

/-- Corner (o0, o1, o2) of voxel (h, w, d): its flat index word, from the flow `x1`. -/
def idxAt (x1 : (⟨5, ![1, 3, 192, 192, 192]⟩ : Shape).Idx → E) (o0 o1 o2 : Bool) (h w d : Fin 192) : BitVec 32 :=
  flat (cidx o0 (BitVec.ofNat 32 h.val) (x1 (ix5 (0 : Fin 1) (0 : Fin 3) h w d)))
    (cidx o1 (BitVec.ofNat 32 w.val) (x1 (ix5 (0 : Fin 1) (1 : Fin 3) h w d)))
    (cidx o2 (BitVec.ofNat 32 d.val) (x1 (ix5 (0 : Fin 1) (2 : Fin 3) h w d)))

/-- Corner (o0, o1, o2) of voxel (h, w, d): what it receives, from the source `x0` and the flow `x1`. -/
def valAt (x0 : (⟨5, ![1, 1, 192, 192, 192]⟩ : Shape).Idx → E) (x1 : (⟨5, ![1, 3, 192, 192, 192]⟩ : Shape).Idx → E)
    (o0 o1 o2 : Bool) (h w d : Fin 192) : E :=
  FloatOps.mulf (x0 (ix5 (0 : Fin 1) (0 : Fin 1) h w d))
    (FloatOps.mulf
      (FloatOps.mulf (wgt o0 (BitVec.ofNat 32 h.val) (x1 (ix5 (0 : Fin 1) (0 : Fin 3) h w d)))
        (wgt o1 (BitVec.ofNat 32 w.val) (x1 (ix5 (0 : Fin 1) (1 : Fin 3) h w d))))
      (wgt o2 (BitVec.ofNat 32 d.val) (x1 (ix5 (0 : Fin 1) (2 : Fin 3) h w d))))

/-- The three offsets of corner number `c`, most significant first: c = 4 o0 + 2 o1 + o2. -/
def b0 (c : Fin 8) : Bool := c.val / 4 % 2 = 1
def b1 (c : Fin 8) : Bool := c.val / 2 % 2 = 1
def b2 (c : Fin 8) : Bool := c.val % 2 = 1

/-- The coordinates of the voxel with flat (row-major) number `v`. -/
def vh (v : Fin 7077888) : Fin 192 := ⟨v.val / 36864 % 192, Nat.mod_lt _ (by decide)⟩
def vw (v : Fin 7077888) : Fin 192 := ⟨v.val / 192 % 192, Nat.mod_lt _ (by decide)⟩
def vd (v : Fin 7077888) : Fin 192 := ⟨v.val % 192, Nat.mod_lt _ (by decide)⟩

/-- Corner `c` of voxel number `v`: the index word the scatter reads (moved up if negative), -/
def idxW (x1 : (⟨5, ![1, 3, 192, 192, 192]⟩ : Shape).Idx → E) (c : Fin 8) (v : Fin 7077888) : BitVec 32 :=
  wrap (idxAt x1 (b0 c) (b1 c) (b2 c) (vh v) (vw v) (vd v))

/-- and the value added there. -/
def valV (x0 : (⟨5, ![1, 1, 192, 192, 192]⟩ : Shape).Idx → E) (x1 : (⟨5, ![1, 3, 192, 192, 192]⟩ : Shape).Idx → E)
    (c : Fin 8) (v : Fin 7077888) : E :=
  valAt x0 x1 (b0 c) (b1 c) (b2 c) (vh v) (vw v) (vd v)

end Cert.Spec

end
-- ==== Proof.KernelWords.lean ====
/-
  Three small facts the kernel's body meets at one element of a block, over variables.

  The body numbers the rows of its block of two by  iota + 2 t  in 32-bit words (t the grid point): for row y of the
  block this is the word of the natural number 2 t + y, the row's number in the whole volume.  And it moves values
  between the shapes [2, 192, 192] and [1, 2, 192, 192], which hold the same elements in the same order: element
  (0, y1, y2, y3) of one is element (y1, y2, y3) of the other.
-/
import Idealize.ShloMosaic.Lib.Pipeline.Value
import Idealize.ShloMosaic.Lib.ValueIdx

noncomputable section

namespace Cert.KernelWords

open Idealize.ShloMosaic Idealize.ShloMosaic.ValueIdx

/-- The grid word of row 2 t + y: the row's number inside the block plus twice the block's number, added as 32-bit
    words, is the word of the sum (word addition and multiplication are those of the naturals, reduced mod 2^32). -/
theorem gridWord (t y : Nat) :
    IntOp.addi (BitVec.ofNat 32 y) (Scalar.muli (BitVec.ofNat 32 t) 2#32) = BitVec.ofNat 32 (2 * t + y) := by
  show BitVec.ofNat 32 y + BitVec.ofNat 32 t * 2#32 = _
  rw [show (2#32 : BitVec 32) = BitVec.ofNat 32 2 from rfl, ← BitVec.ofNat_mul, ← BitVec.ofNat_add]
  congr 1
  omega

variable {α : Type}

/-- A [2, 192, 192] value stored as a [1, 2, 192, 192] block: element (0, y1, y2, y3) is element (y1, y2, y3). -/
theorem cast_up (v : (⟨3, ![2, 192, 192]⟩ : Shape).Idx → α)
    (h : (⟨3, ![2, 192, 192]⟩ : Shape).ShapeCasts ⟨4, ![1, 2, 192, 192]⟩) (y1 : Fin 2) (y2 y3 : Fin 192) :
    shapeCast ⟨4, ![1, 2, 192, 192]⟩ v h (ix4 (0 : Fin 1) y1 y2 y3) = v (ix3 y1 y2 y3) := by
  refine (shapeCast_addUnit_apply ![2, 192, 192] v h _).trans (congrArg v ?_)
  funext a
  match a with
  | ⟨0, _⟩ => rfl
  | ⟨1, _⟩ => rfl
  | ⟨2, _⟩ => rfl

/-- A [1, 2, 192, 192] block read as a [2, 192, 192] value: element (y1, y2, y3) is element (0, y1, y2, y3). -/
theorem cast_down (v : (⟨4, ![1, 2, 192, 192]⟩ : Shape).Idx → α)
    (h : (⟨4, ![1, 2, 192, 192]⟩ : Shape).ShapeCasts ⟨3, ![2, 192, 192]⟩) (y1 : Fin 2) (y2 y3 : Fin 192) :
    shapeCast ⟨3, ![2, 192, 192]⟩ v h (ix3 y1 y2 y3) = v (ix4 (0 : Fin 1) y1 y2 y3) := by
  refine (shapeCast_dropUnit_apply ![2, 192, 192] v h _).trans (congrArg v ?_)
  funext a
  match a with
  | ⟨0, _⟩ => rfl
  | ⟨1, _⟩ => rfl
  | ⟨2, _⟩ => rfl
  | ⟨3, _⟩ => rfl

/-- Every index of a [1, 2, 192, 192] block is (0, y1, y2, y3): the leading axis has one position. -/
theorem split_block (x : (⟨4, ![1, 2, 192, 192]⟩ : Shape).Idx) :
    ∃ (y1 : Fin 2) (y2 y3 : Fin 192), x = ix4 (0 : Fin 1) y1 y2 y3 := by
  refine ⟨x 1, x 2, x 3, funext fun a => ?_⟩
  match a with
  | ⟨0, _⟩ => exact Fin.ext (by have h : (x 0).val < 1 := (x 0).isLt; show (x 0).val = 0; omega)
  | ⟨1, _⟩ => rfl
  | ⟨2, _⟩ => rfl
  | ⟨3, _⟩ => rfl

end Cert.KernelWords

end
-- ==== Proof.KernelPieces2.lean ====
/-
  The index block: what the kernel's body leaves in the buffer of its first output at one grid point.

  At grid point t the body holds a block of two rows of the volume: rows 2 t and 2 t + 1, all 192 x 192 columns and depths.
  For the element (y1, y2, y3) of the block it computes, on each axis, the displaced location (the element's own grid
  coordinate, as a float, plus the flow component there, kept where positive), its integer part and the cell's base
  coordinate, exactly as the scalar functions of the specification do; the element's grid coordinate on axis 0 is the row
  number 2 t + y1 and on axes 1 and 2 the coordinates y2 and y3 themselves.  Then, for each of the eight corners
  (o0, o1, o2) in the order 4 o0 + 2 o1 + o2, it stores the corner's flat index word at rectangle [corner, :, :, :] of
  the output buffer.  The eight rectangles tile the buffer, so the buffer is ONE function of its index:
  at (cr, y1, y2, y3) the flat index word of corner cr of the voxel in row 2 t + y1, column y2, depth y3.
-/
import proofs.«146513_j73220602462351_1_alg».proof.Proof.KernelIdealFrame
import proofs.«146513_j73220602462351_1_alg».proof.Proof.Spec
import proofs.«146513_j73220602462351_1_alg».proof.Proof.KernelWords
import Idealize.ShloMosaic.Lib.Pipeline.Value
import Idealize.ShloMosaic.Lib.ValueIdx

noncomputable section

namespace Cert.KernelPieces2

open Cert.KernelIdeal Cert.KernelIdeal.Gen Cert.KernelIdeal.GenP
open Idealize.ShloMosaic Idealize.ShloMosaic.ValueIdx

/-! ## The words of one voxel, as the body computes them -/

/-- A cell's base coordinate from the displaced location: its integer part as a word, at most 191. -/
def baseW (l : Spec.E) : BitVec 32 := IntOp.minsi (FloatOps.fptosi 32 (FloatOps.floor l)) 191#32

/-- A corner's coordinate from the base: base plus offset, at most 191. -/
def cornerW (o : Bool) (b : BitVec 32) : BitVec 32 := IntOp.minsi (IntOp.addi b (Spec.off o)) 191#32

/-- The flat index word of corner (o0, o1, o2) from the three bases. -/
def flatW (o0 o1 o2 : Bool) (a b c : BitVec 32) : BitVec 32 := Spec.flat (cornerW o0 a) (cornerW o1 b) (cornerW o2 c)

theorem base_eq (g : BitVec 32) (f : Spec.E) : Spec.base g f = baseW (Spec.loc g f) := rfl

theorem cidx_eq (o : Bool) (g : BitVec 32) (f : Spec.E) : Spec.cidx o g f = cornerW o (Spec.base g f) := rfl

variable (i : grid0.Coords) (x1 : Vec Ideal S3x2x192x192 .f32)
variable (v9 v11 v13 : Vec Ideal S1x2x192x192 .f32) (y1 : Fin 2) (y2 y3 : Fin 192)

/-! ## The displaced locations and the bases, element by element

Each is a pointwise expression of an iota (the element's own coordinate), the grid point and one loaded flow component;
as whole vectors they ARE the specification's scalar functions applied at every index (by unfolding). -/

theorem loc0_fun : k0_pay4 (F := Ideal) i v9 = fun y => Spec.loc (IntOp.addi (iota .tc S2x192x192 32 [0] iota_S2x192x192_d0_w32 y)
    (Scalar.muli (BitVec.ofNat 32 (i 0).val) 2#32)) (shapeCast S2x192x192 v9 shapeCasts_S1x2x192x192_S2x192x192 y) := rfl

theorem loc1_fun : k0_pay5 (F := Ideal) v11 = fun y => Spec.loc (iota .tc S2x192x192 32 [1] iota_S2x192x192_d1_w32 y)
    (shapeCast S2x192x192 v11 shapeCasts_S1x2x192x192_S2x192x192 y) := rfl

theorem loc2_fun : k0_pay6 (F := Ideal) v13 = fun y => Spec.loc (iota .tc S2x192x192 32 [2] iota_S2x192x192_d2_w32 y)
    (shapeCast S2x192x192 v13 shapeCasts_S1x2x192x192_S2x192x192 y) := rfl

/-- Axis 0: the location of row 2 t + y1 under the first flow component. -/
theorem loc0 : k0_pay4 (F := Ideal) i v9 (ix3 y1 y2 y3)
    = Spec.loc (BitVec.ofNat 32 (2 * (i 0).val + y1.val)) (v9 (ix4 (0 : Fin 1) y1 y2 y3)) := by
  refine (congrFun (loc0_fun i v9) (ix3 y1 y2 y3)).trans ?_
  show Spec.loc (IntOp.addi (iota .tc S2x192x192 32 [0] iota_S2x192x192_d0_w32 (ix3 y1 y2 y3))
    (Scalar.muli (BitVec.ofNat 32 (i 0).val) 2#32)) (shapeCast S2x192x192 v9 shapeCasts_S1x2x192x192_S2x192x192 (ix3 y1 y2 y3)) = _
  rw [iota_single_apply, KernelWords.cast_down, KernelWords.gridWord]

/-- Axis 1: the location of column y2 under the second flow component. -/
theorem loc1 : k0_pay5 (F := Ideal) v11 (ix3 y1 y2 y3)
    = Spec.loc (BitVec.ofNat 32 y2.val) (v11 (ix4 (0 : Fin 1) y1 y2 y3)) := by
  refine (congrFun (loc1_fun v11) (ix3 y1 y2 y3)).trans ?_
  show Spec.loc (iota .tc S2x192x192 32 [1] iota_S2x192x192_d1_w32 (ix3 y1 y2 y3))
    (shapeCast S2x192x192 v11 shapeCasts_S1x2x192x192_S2x192x192 (ix3 y1 y2 y3)) = _
  rw [iota_single_apply, KernelWords.cast_down]

/-- Axis 2: the location of depth y3 under the third flow component. -/
theorem loc2 : k0_pay6 (F := Ideal) v13 (ix3 y1 y2 y3)
    = Spec.loc (BitVec.ofNat 32 y3.val) (v13 (ix4 (0 : Fin 1) y1 y2 y3)) := by
  refine (congrFun (loc2_fun v13) (ix3 y1 y2 y3)).trans ?_
  show Spec.loc (iota .tc S2x192x192 32 [2] iota_S2x192x192_d2_w32 (ix3 y1 y2 y3))
    (shapeCast S2x192x192 v13 shapeCasts_S1x2x192x192_S2x192x192 (ix3 y1 y2 y3)) = _
  rw [iota_single_apply, KernelWords.cast_down]

/-- The three bases are `baseW` of the three locations, at every index. -/
theorem base0_fun : k0_pay13 (F := Ideal) i v9 = fun y => baseW (k0_pay4 i v9 y) := rfl
theorem base1_fun : k0_pay14 (F := Ideal) v11 = fun y => baseW (k0_pay5 v11 y) := rfl
theorem base2_fun : k0_pay15 (F := Ideal) (k0_pay9 v13) = fun y => baseW (k0_pay6 v13 y) := rfl

theorem base0 : k0_pay13 (F := Ideal) i v9 (ix3 y1 y2 y3)
    = Spec.base (BitVec.ofNat 32 (2 * (i 0).val + y1.val)) (v9 (ix4 (0 : Fin 1) y1 y2 y3)) := by
  refine (congrFun (base0_fun i v9) (ix3 y1 y2 y3)).trans ?_
  show baseW (k0_pay4 i v9 (ix3 y1 y2 y3)) = _
  rw [loc0, base_eq]

theorem base1 : k0_pay14 (F := Ideal) v11 (ix3 y1 y2 y3)
    = Spec.base (BitVec.ofNat 32 y2.val) (v11 (ix4 (0 : Fin 1) y1 y2 y3)) := by
  refine (congrFun (base1_fun v11) (ix3 y1 y2 y3)).trans ?_
  show baseW (k0_pay5 v11 (ix3 y1 y2 y3)) = _
  rw [loc1, base_eq]

theorem base2 : k0_pay15 (F := Ideal) (k0_pay9 v13) (ix3 y1 y2 y3)
    = Spec.base (BitVec.ofNat 32 y3.val) (v13 (ix4 (0 : Fin 1) y1 y2 y3)) := by
  refine (congrFun (base2_fun v13) (ix3 y1 y2 y3)).trans ?_
  show baseW (k0_pay6 v13 (ix3 y1 y2 y3)) = _
  rw [loc2, base_eq]

/-! ## The three loads: flow component a of the block is rectangle [a, :, :, :] of the staged flow block -/

theorem ld0 : View.ld x1 r0_0 (ix4 (0 : Fin 1) y1 y2 y3) = x1 (ix4 (0 : Fin 3) y1 y2 y3) :=
  congrArg x1 (funext fun a => Fin.ext (by
    match a with
    | ⟨0, _⟩ => rfl
    | ⟨1, _⟩ => show 0 + 1 * y1.val = y1.val; omega
    | ⟨2, _⟩ => show 0 + 1 * y2.val = y2.val; omega
    | ⟨3, _⟩ => show 0 + 1 * y3.val = y3.val; omega))

theorem ld1 : View.ld x1 r0_1 (ix4 (0 : Fin 1) y1 y2 y3) = x1 (ix4 (1 : Fin 3) y1 y2 y3) :=
  congrArg x1 (funext fun a => Fin.ext (by
    match a with
    | ⟨0, _⟩ => rfl
    | ⟨1, _⟩ => show 0 + 1 * y1.val = y1.val; omega
    | ⟨2, _⟩ => show 0 + 1 * y2.val = y2.val; omega
    | ⟨3, _⟩ => show 0 + 1 * y3.val = y3.val; omega))

theorem ld2 : View.ld x1 r0_2 (ix4 (0 : Fin 1) y1 y2 y3) = x1 (ix4 (2 : Fin 3) y1 y2 y3) :=
  congrArg x1 (funext fun a => Fin.ext (by
    match a with
    | ⟨0, _⟩ => rfl
    | ⟨1, _⟩ => show 0 + 1 * y1.val = y1.val; omega
    | ⟨2, _⟩ => show 0 + 1 * y2.val = y2.val; omega
    | ⟨3, _⟩ => show 0 + 1 * y3.val = y3.val; omega))

/-! ## The eight stored index vectors

Each store's payload is, as a whole vector, the [1, 2, 192, 192] cast of the pointwise flat index word of one corner over
the three base vectors (by unfolding the payload: broadcasts of the literals 0, 1, 191, 192, 36864 and pointwise word
operations). -/

variable (b0 b1 b2 : IVec S2x192x192 32)

/-- Corner (o0, o1, o2) over the three base vectors, as the block the body stores. -/
def cornerBlock (o0 o1 o2 : Bool) (b0 b1 b2 : IVec S2x192x192 32) : IVec S1x2x192x192 32 :=
  shapeCast S1x2x192x192 (fun y => flatW o0 o1 o2 (b0 y) (b1 y) (b2 y)) shapeCasts_S2x192x192_S1x2x192x192

theorem pay_c0 (v30 : FVec Ideal S2x192x192 .f32) : k0_pay17 (F := Ideal) v30 b0 b1 = cornerBlock false false false b0 b1 (k0_pay15 v30) := rfl
theorem pay_c1 : k0_pay20 b0 b1 b2 = cornerBlock false false true b0 b1 b2 := rfl
theorem pay_c2 : k0_pay23 b1 b2 (k0_pay22 b0) = cornerBlock false true false b0 b1 b2 := rfl
theorem pay_c3 : k0_pay28 (k0_pay25 b0) (k0_pay26 b1) (k0_pay27 b2) = cornerBlock false true true b0 b1 b2 := rfl
theorem pay_c4 : k0_pay34 (k0_pay30 b0) (k0_pay31 b1) (k0_pay32 b2) 36864#32 = cornerBlock true false false b0 b1 b2 := rfl
theorem pay_c5 : k0_pay38 (k0_pay37 b0 b1 b2) = cornerBlock true false true b0 b1 b2 := rfl
theorem pay_c6 : k0_pay40 b0 b1 b2 = cornerBlock true true false b0 b1 b2 := rfl
theorem pay_c7 : k0_pay1 b0 b1 b2 = cornerBlock true true true b0 b1 b2 := rfl

/-- What element (cr, y1, y2, y3) of the index block holds at grid point `i`, from the staged flow block `x1`: the flat
    index word of corner cr of the voxel in row 2 t + y1, column y2, depth y3. -/
def blockIdx (i : grid0.Coords) (x1 : Vec Ideal S3x2x192x192 .f32) (cr : Fin 8) (y1 : Fin 2) (y2 y3 : Fin 192) : BitVec 32 :=
  Spec.flat (Spec.cidx (Spec.b0 cr) (BitVec.ofNat 32 (2 * (i 0).val + y1.val)) (x1 (ix4 (0 : Fin 3) y1 y2 y3)))
    (Spec.cidx (Spec.b1 cr) (BitVec.ofNat 32 y2.val) (x1 (ix4 (1 : Fin 3) y1 y2 y3)))
    (Spec.cidx (Spec.b2 cr) (BitVec.ofNat 32 y3.val) (x1 (ix4 (2 : Fin 3) y1 y2 y3)))

/-- A corner block over the body's three base vectors, read at (0, y1, y2, y3). -/
theorem cornerBlock_apply (o0 o1 o2 : Bool) :
    cornerBlock o0 o1 o2 (k0_pay13 (F := Ideal) i (View.ld x1 r0_0)) (k0_pay14 (F := Ideal) (View.ld x1 r0_1))
        (k0_pay15 (F := Ideal) (k0_pay9 (View.ld x1 r0_2))) (ix4 (0 : Fin 1) y1 y2 y3)
      = Spec.flat (Spec.cidx o0 (BitVec.ofNat 32 (2 * (i 0).val + y1.val)) (x1 (ix4 (0 : Fin 3) y1 y2 y3)))
          (Spec.cidx o1 (BitVec.ofNat 32 y2.val) (x1 (ix4 (1 : Fin 3) y1 y2 y3)))
          (Spec.cidx o2 (BitVec.ofNat 32 y3.val) (x1 (ix4 (2 : Fin 3) y1 y2 y3))) := by
  unfold cornerBlock
  rw [KernelWords.cast_up]
  show flatW o0 o1 o2 (k0_pay13 (F := Ideal) i (View.ld x1 r0_0) (ix3 y1 y2 y3)) (k0_pay14 (F := Ideal) (View.ld x1 r0_1) (ix3 y1 y2 y3))
    (k0_pay15 (F := Ideal) (k0_pay9 (View.ld x1 r0_2)) (ix3 y1 y2 y3)) = _
  rw [base0, base1, base2, ld0, ld1, ld2]
  rfl

/-! ## The eight stores tile the block: store number k fills rectangle [k, :, :, :] -/

/-- Element (0, y1, y2, y3) of store k's rectangle is element (k, y1, y2, y3) of the block. -/
theorem emb_store (k : Nat) (hk : k < 8) (inb : ∀ a, (![k, 0, 0, 0] : Fin 4 → Nat) a + S1x2x192x192.size a ≤ S8x2x192x192.size a) :
    (Rect.unit (s := S8x2x192x192) ![k, 0, 0, 0] S1x2x192x192.size inb).emb (ix4 (0 : Fin 1) y1 y2 y3)
      = ix4 (⟨k, hk⟩ : Fin 8) y1 y2 y3 := by
  funext a
  apply Fin.ext
  match a with
  | ⟨0, _⟩ => show k + 1 * 0 = k; omega
  | ⟨1, _⟩ => show 0 + 1 * y1.val = y1.val; omega
  | ⟨2, _⟩ => show 0 + 1 * y2.val = y2.val; omega
  | ⟨3, _⟩ => show 0 + 1 * y3.val = y3.val; omega

/-- The block's contents as one function of its index. -/
def blockIdxV (i : grid0.Coords) (x1 : Vec Ideal S3x2x192x192 .f32) : S8x2x192x192.Idx → BitVec 32 :=
  fun y => blockIdx i x1 (y 0) (y 1) (y 2) (y 3)

/-- Store k's payload, at every element of its rectangle, is the block function there (k's three offset bits being
    o0, o1, o2). -/
theorem piece (k : Nat) (hk : k < 8) (inb : ∀ a, (![k, 0, 0, 0] : Fin 4 → Nat) a + S1x2x192x192.size a ≤ S8x2x192x192.size a)
    (o0 o1 o2 : Bool) (h0 : Spec.b0 ⟨k, hk⟩ = o0) (h1 : Spec.b1 ⟨k, hk⟩ = o1) (h2 : Spec.b2 ⟨k, hk⟩ = o2)
    (x : S1x2x192x192.Idx) :
    cornerBlock o0 o1 o2 (k0_pay13 (F := Ideal) i (View.ld x1 r0_0)) (k0_pay14 (F := Ideal) (View.ld x1 r0_1))
        (k0_pay15 (F := Ideal) (k0_pay9 (View.ld x1 r0_2))) x
      = blockIdxV i x1 ((Rect.unit (s := S8x2x192x192) ![k, 0, 0, 0] S1x2x192x192.size inb).emb x) := by
  obtain ⟨z1, z2, z3, rfl⟩ := KernelWords.split_block x
  rw [emb_store z1 z2 z3 k hk inb, cornerBlock_apply]
  show _ = blockIdx i x1 ⟨k, hk⟩ z1 z2 z3
  unfold blockIdx
  rw [h0, h1, h2]

/-- THE INDEX BLOCK: what the body leaves in window 2's buffer at grid point `i`, read at element (cr, y1, y2, y3). -/
theorem out2_apply (x0 : Vec Ideal S2x192x192 .f32) (cr : Fin 8) :
    out0_2 (F := Ideal) i x0 x1 (ix4 cr y1 y2 y3) = blockIdx i x1 cr y1 y2 y3 := by
  unfold out0_2
  refine View.canon_apply_of_pieces (blockIdxV i x1) _ ?_ (ix4 cr y1 y2 y3) (cover0_2 (F := Ideal) _ _ _ _ _ _ _ _ _)
  intro p hp x
  simp only [List.mem_cons, List.mem_nil_iff, or_false] at hp
  rcases hp with rfl | rfl | rfl | rfl | rfl | rfl | rfl | rfl
  · exact (congrFun (pay_c7 _ _ _) x).trans (piece i x1 7 (by decide) inb_S8x2x192x192_S1x2x192x192_7_0_0_0 true true true (by decide) (by decide) (by decide) x)
  · exact (congrFun (pay_c6 _ _ _) x).trans (piece i x1 6 (by decide) inb_S8x2x192x192_S1x2x192x192_6_0_0_0 true true false (by decide) (by decide) (by decide) x)
  · exact (congrFun (pay_c5 _ _ _) x).trans (piece i x1 5 (by decide) inb_S8x2x192x192_S1x2x192x192_5_0_0_0 true false true (by decide) (by decide) (by decide) x)
  · exact (congrFun (pay_c4 _ _ _) x).trans (piece i x1 4 (by decide) inb_S8x2x192x192_S1x2x192x192_4_0_0_0 true false false (by decide) (by decide) (by decide) x)
  · exact (congrFun (pay_c3 _ _ _) x).trans (piece i x1 3 (by decide) inb_S8x2x192x192_S1x2x192x192_3_0_0_0 false true true (by decide) (by decide) (by decide) x)
  · exact (congrFun (pay_c2 _ _ _) x).trans (piece i x1 2 (by decide) inb_S8x2x192x192_S1x2x192x192_2_0_0_0 false true false (by decide) (by decide) (by decide) x)
  · exact (congrFun (pay_c1 _ _ _) x).trans (piece i x1 1 (by decide) inb_S8x2x192x192_S1x2x192x192_1_0_0_0 false false true (by decide) (by decide) (by decide) x)
  · exact (congrFun (pay_c0 _ _ _) x).trans (piece i x1 0 (by decide) inb_S8x2x192x192_S1x2x192x192_0_0_0_0 false false false (by decide) (by decide) (by decide) x)

end Cert.KernelPieces2

end
-- ==== Proof.KernelReads.lean ====
/-
  The kernel's input blocks read at an element, and where a block's element sits in its array.

  Before the region the two arguments lose their unit axes: the source [1, 1, 192, 192, 192] is staged as [192, 192, 192]
  and the flow [1, 3, 192, 192, 192] as [3, 192, 192, 192], element for element in row-major order.  The grid has 96
  points; at point t every window's block is the pair of rows 2 t, 2 t + 1: the source's block is [2, 192, 192] at
  block index (t, 0, 0), the flow's [3, 2, 192, 192] at (0, t, 0, 0), and each output's [8, 2, 192, 192] at (0, t, 0, 0).
  So element (.., y1, y2, y3) of a block at point t is element (.., 2 t + y1, y2, y3) of its array, and what the body
  loads at (y1, y2, y3) is the argument at voxel (2 t + y1, y2, y3).
-/
import proofs.«146513_j73220602462351_1_alg».proof.Proof.KernelIdealFrame
import Idealize.ShloMosaic.Lib.Pipeline.Value
import Idealize.ShloMosaic.Lib.ValueIdx
import Idealize.ShloMosaic.Lib.Tactic

noncomputable section

namespace Cert.KernelReads

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ)

/-! ## The grid and the windows' index maps, decided over the 96 points

The grid has one axis; point t has coordinate t.  Every window's block index is t on the axis that is cut in blocks of two
rows (axis 0 of the source, axis 1 of the flow and of the two outputs) and 0 on the others. -/

theorem coord0 : ∀ t : Fin cfg0.N, ((grid0.coords t) 0).val = t.val :=
  (by decide +kernel : ∀ t : Fin grid0.N, ((grid0.coords t) 0).val = t.val)

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)

theorem index1 : ∀ t : Fin cfg0.N, win0_1.index t (0 : Fin 4) = 0 ∧ win0_1.index t (1 : Fin 4) = t.val
    ∧ win0_1.index t (2 : Fin 4) = 0 ∧ win0_1.index t (3 : Fin 4) = 0 :=
  (by decide +kernel : ∀ t : Fin grid0.N, _)

theorem index2 : ∀ t : Fin cfg0.N, win0_2.index t (0 : Fin 4) = 0 ∧ win0_2.index t (1 : Fin 4) = t.val
    ∧ win0_2.index t (2 : Fin 4) = 0 ∧ win0_2.index t (3 : Fin 4) = 0 :=
  (by decide +kernel : ∀ t : Fin grid0.N, _)

theorem index3 : ∀ t : Fin cfg0.N, win0_3.index t (0 : Fin 4) = 0 ∧ win0_3.index t (1 : Fin 4) = t.val
    ∧ win0_3.index t (2 : Fin 4) = 0 ∧ win0_3.index t (3 : Fin 4) = 0 :=
  (by decide +kernel : ∀ t : Fin grid0.N, _)

/-- A point's number is below 96. -/
theorem lt96 (t : Fin cfg0.N) : t.val < 96 := by
  exact lt_of_lt_of_eq t.isLt N_0

/-- Row y1 of block t is a row of the volume. -/
theorem row_lt (t : Fin cfg0.N) (y1 : Fin 2) : 2 * t.val + y1.val < 192 := by
  have := lt96 t
  have := y1.isLt
  omega

/-! ## Where a block's element sits in its array: block index times block size plus the coordinate inside the block -/

variable (t : Fin cfg0.N) (y1 : Fin 2) (y2 y3 : Fin 192)

/-- The source window: element (y1, y2, y3) of block t is element (2 t + y1, y2, y3) of the [192, 192, 192] source. -/
theorem emb0 : ((cfg0.win 0).blk t).view.emb (ix3 y1 y2 y3)
    = (ix3 (⟨2 * t.val + y1.val, row_lt t y1⟩ : Fin 192) y2 y3 : S192x192x192.Idx) := by
  obtain ⟨e0, e1, e2⟩ := index0 t
  funext k
  apply Fin.ext
  match k with
  | ⟨0, _⟩ => show win0_0.index t (0 : Fin 3) * 2 + 1 * y1.val = 2 * t.val + y1.val; rw [e0]; omega
  | ⟨1, _⟩ => show win0_0.index t (1 : Fin 3) * 192 + 1 * y2.val = y2.val; rw [e1]; omega
  | ⟨2, _⟩ => show win0_0.index t (2 : Fin 3) * 192 + 1 * y3.val = y3.val; rw [e2]; omega

/-- The flow window: element (a, y1, y2, y3) of block t is element (a, 2 t + y1, y2, y3) of the [3, 192, 192, 192] flow. -/
theorem emb1 (a : Fin 3) : ((cfg0.win 1).blk t).view.emb (ix4 a y1 y2 y3)
    = (ix4 a (⟨2 * t.val + y1.val, row_lt t y1⟩ : Fin 192) y2 y3 : S3x192x192x192.Idx) := by
  obtain ⟨e0, e1, e2, e3⟩ := index1 t
  funext k
  apply Fin.ext
  match k with
  | ⟨0, _⟩ => show win0_1.index t (0 : Fin 4) * 3 + 1 * a.val = a.val; rw [e0]; omega
  | ⟨1, _⟩ => show win0_1.index t (1 : Fin 4) * 2 + 1 * y1.val = 2 * t.val + y1.val; rw [e1]; omega
  | ⟨2, _⟩ => show win0_1.index t (2 : Fin 4) * 192 + 1 * y2.val = y2.val; rw [e2]; omega
  | ⟨3, _⟩ => show win0_1.index t (3 : Fin 4) * 192 + 1 * y3.val = y3.val; rw [e3]; omega

/-- The index output: element (cr, y1, y2, y3) of block t is element (cr, 2 t + y1, y2, y3) of the [8, 192, 192, 192] array. -/
theorem emb2 (cr : Fin 8) : ((cfg0.win 2).blk t).view.emb (ix4 cr y1 y2 y3)
    = (ix4 cr (⟨2 * t.val + y1.val, row_lt t y1⟩ : Fin 192) y2 y3 : S8x192x192x192.Idx) := by
  obtain ⟨e0, e1, e2, e3⟩ := index2 t
  funext k
  apply Fin.ext
  match k with
  | ⟨0, _⟩ => show win0_2.index t (0 : Fin 4) * 8 + 1 * cr.val = cr.val; rw [e0]; omega
  | ⟨1, _⟩ => show win0_2.index t (1 : Fin 4) * 2 + 1 * y1.val = 2 * t.val + y1.val; rw [e1]; omega
  | ⟨2, _⟩ => show win0_2.index t (2 : Fin 4) * 192 + 1 * y2.val = y2.val; rw [e2]; omega
  | ⟨3, _⟩ => show win0_2.index t (3 : Fin 4) * 192 + 1 * y3.val = y3.val; rw [e3]; omega

/-- The value output: the same placement. -/
theorem emb3 (cr : Fin 8) : ((cfg0.win 3).blk t).view.emb (ix4 cr y1 y2 y3)
    = (ix4 cr (⟨2 * t.val + y1.val, row_lt t y1⟩ : Fin 192) y2 y3 : S8x192x192x192.Idx) := by
  obtain ⟨e0, e1, e2, e3⟩ := index3 t
  funext k
  apply Fin.ext
  match k with
  | ⟨0, _⟩ => show win0_3.index t (0 : Fin 4) * 8 + 1 * cr.val = cr.val; rw [e0]; omega
  | ⟨1, _⟩ => show win0_3.index t (1 : Fin 4) * 2 + 1 * y1.val = 2 * t.val + y1.val; rw [e1]; omega
  | ⟨2, _⟩ => show win0_3.index t (2 : Fin 4) * 192 + 1 * y2.val = y2.val; rw [e2]; omega
  | ⟨3, _⟩ => show win0_3.index t (3 : Fin 4) * 192 + 1 * y3.val = y3.val; rw [e3]; omega

/-! ## The staged arrays as the region finds them: the two arguments with their unit axes dropped -/

/-- The source as staged: the [1, 1, 192, 192, 192] argument in the shape [192, 192, 192]. -/
theorem V_v0 (c : Dev nD) : (V m c main_v0 : S192x192x192.Idx → Ideal .f32)
    = shapeCast S192x192x192 (m ((c.tc : Thread nD τ).loc main_arg0) : S1x1x192x192x192.Idx → Ideal .f32)
        shapeCasts_S1x1x192x192x192_S192x192x192 := by
  show StableHlo.after hostOps0 (fun b => m (c, b)) (Proc.devRef .tc main_v0) = _
  after_results
  rfl

/-- The flow as staged: the [1, 3, 192, 192, 192] argument in the shape [3, 192, 192, 192]. -/
theorem V_v1 (c : Dev nD) : (V m c main_v1 : S3x192x192x192.Idx → Ideal .f32)
    = shapeCast S3x192x192x192 (m ((c.tc : Thread nD τ).loc main_arg1) : S1x3x192x192x192.Idx → Ideal .f32)
        shapeCasts_S1x3x192x192x192_S3x192x192x192 := by
  show StableHlo.after hostOps0 (fun b => m (c, b)) (Proc.devRef .tc main_v1) = _
  after_results
  rfl

/-! ## The two input blocks at a point, read at an element -/

/-- Element (y1, y2, y3) of the source block at point t is the source argument at voxel (2 t + y1, y2, y3). -/
theorem iblk0_apply (c : Dev nD) :
    (iblk m c 0 t : Vec Ideal S2x192x192 .f32) (ix3 y1 y2 y3)
      = (m ((c.tc : Thread nD τ).loc main_arg0) : S1x1x192x192x192.Idx → Ideal .f32)
          (ix5 (0 : Fin 1) (0 : Fin 1) (⟨2 * t.val + y1.val, row_lt t y1⟩ : Fin 192) y2 y3) := by
  unfold iblk
  rw [View.read_apply]
  show V m c main_v0 (((cfg0.win 0).blk t).view.emb (ix3 y1 y2 y3)) = _
  rw [emb0, V_v0]
  refine shapeCast_apply (s := S1x1x192x192x192) (t := S192x192x192) _ _ _ _ ?_
  rw [Shape.rowMajor_val_five, Shape.rowMajor_val_three]
  show ((((0 : Nat) * 1 + 0) * 192 + (2 * t.val + y1.val)) * 192 + y2.val) * 192 + y3.val
    = ((2 * t.val + y1.val) * 192 + y2.val) * 192 + y3.val
  omega

/-- Element (a, y1, y2, y3) of the flow block at point t is flow component a at voxel (2 t + y1, y2, y3). -/
theorem iblk1_apply (c : Dev nD) (a : Fin 3) :
    (iblk m c 1 t : Vec Ideal S3x2x192x192 .f32) (ix4 a y1 y2 y3)
      = (m ((c.tc : Thread nD τ).loc main_arg1) : S1x3x192x192x192.Idx → Ideal .f32)
          (ix5 (0 : Fin 1) a (⟨2 * t.val + y1.val, row_lt t y1⟩ : Fin 192) y2 y3) := by
  unfold iblk
  rw [View.read_apply]
  show V m c main_v1 (((cfg0.win 1).blk t).view.emb (ix4 a y1 y2 y3)) = _
  rw [emb1, V_v1]
  refine shapeCast_apply (s := S1x3x192x192x192) (t := S3x192x192x192) _ _ _ _ ?_
  rw [Shape.rowMajor_val_five, Shape.rowMajor_val_four]
  show ((((0 : Nat) * 3 + a.val) * 192 + (2 * t.val + y1.val)) * 192 + y2.val) * 192 + y3.val
    = ((a.val * 192 + (2 * t.val + y1.val)) * 192 + y2.val) * 192 + y3.val
  omega

end Cert.KernelReads

end
-- ==== Proof.KernelArrayIdx.lean ====
/-
  The kernel's first output array after its region: the flat index words of all corners.

  At (cr, h, w, d) it holds the flat index word of corner cr (offsets: the three binary digits of cr) of voxel
  (h, w, d), as the specification computes it from the flow.  Each grid point writes back its block of two rows, which
  is the restriction of that one function to rows 2 t, 2 t + 1; the 96 blocks cover the array; so the array IS the function.
-/
import proofs.«146513_j73220602462351_1_alg».proof.Proof.KernelIdealFrame
import proofs.«146513_j73220602462351_1_alg».proof.Proof.Spec
import proofs.«146513_j73220602462351_1_alg».proof.Proof.KernelPieces2
import proofs.«146513_j73220602462351_1_alg».proof.Proof.KernelReads
import Idealize.ShloMosaic.Lib.Pipeline.Value
import Idealize.ShloMosaic.Lib.ValueIdx

noncomputable section

namespace Cert.KernelArrays

open Cert.KernelIdeal Cert.KernelIdeal.Gen Cert.KernelIdeal.GenP
open Idealize.ShloMosaic Idealize.ShloMosaic.TcCoe Idealize.ShloMosaic.ValueIdx
open Idealize.ShloMosaic.Pipeline (Dat)

variable (m : (ℓ : Loc nD τ sig) → Buf (Elt Ideal) ℓ)

/-! ## The index array as a whole-array function of the flow -/

/-- The index array: at (cr, h, w, d), the flat index word of corner cr of voxel (h, w, d). -/
def idxArr (c : Dev nD) : S8x192x192x192.Idx → BitVec 32 := fun i =>
  Spec.idxAt (m ((c.tc : Thread nD τ).loc main_arg1)) (Spec.b0 (i 0)) (Spec.b1 (i 0)) (Spec.b2 (i 0)) (i 1) (i 2) (i 3)

/-! ## What point t writes back is block t of that function

The block at point t holds, at (cr, y1, y2, y3), the corner's word computed from the staged flow block at (·, y1, y2, y3)
and the row number 2 t + y1; the staged block is the flow at voxel (2 t + y1, y2, y3); and the block's element sits at
(cr, 2 t + y1, y2, y3) of the array. -/

theorem flushed_idx (c : Dev nD) (t : Fin cfg0.N) :
    (dats (F := Ideal) m 0 c).flushed 2 t = ((cfg0.win 2).blk t).view.read (Elt Ideal) (idxArr m c) := by
  show (cfg0.win 2).cut (grid0.coords t) ((dats (F := Ideal) m 0 c).after 2 t) = _
  rw [after0_2]
  funext y
  obtain ⟨cr, y1, y2, y3, rfl⟩ : ∃ (cr : Fin 8) (y1 : Fin 2) (y2 y3 : Fin 192), y = ix4 cr y1 y2 y3 :=
    ⟨y 0, y 1, y 2, y 3, eq_ix4 y⟩
  rw [View.read_apply]
  show out0_2 (F := Ideal) (grid0.coords t) (iblk m c 0 t) (iblk m c 1 t) (ix4 cr y1 y2 y3)
    = idxArr m c (((cfg0.win 2).blk t).view.emb (ix4 cr y1 y2 y3))
  rw [KernelReads.emb2]
  refine (KernelPieces2.out2_apply (grid0.coords t) (iblk m c 1 t) y1 y2 y3 (iblk m c 0 t) cr).trans ?_
  unfold KernelPieces2.blockIdx
  rw [KernelReads.iblk1_apply m t y1 y2 y3 c 0, KernelReads.iblk1_apply m t y1 y2 y3 c 1,
    KernelReads.iblk1_apply m t y1 y2 y3 c 2, KernelReads.coord0 t]
  rfl

/-! ## Every index of the array is in some point's block: row h is in the block of point h / 2 -/

theorem mem_blk2 (t : Fin cfg0.N) (i : S8x192x192x192.Idx) :
    i ∈ ((cfg0.win 2).blk t).view.set ↔ ∀ a : Fin 4, win0_2.index t a * S8x2x192x192.size a ≤ (i a).val
      ∧ (i a).val < win0_2.index t a * S8x2x192x192.size a + S8x2x192x192.size a := by
  show i ∈ ((View.whole main_v2_0).slice (win0_2.rect t)).set ↔ _
  rw [View.set_slice_whole, Rect.mem_set_unit]
  exact Iff.rfl

theorem cover_idx (i : S8x192x192x192.Idx) :
    ∃ t : Fin cfg0.N, (cfg0.win 2).flush t = true ∧ i ∈ ((cfg0.win 2).blk t).view.set := by
  have h0 : (i 0).val < 8 := (i 0).isLt
  have h1 : (i 1).val < 192 := (i 1).isLt
  have h2 : (i 2).val < 192 := (i 2).isLt
  have h3 : (i 3).val < 192 := (i 3).isLt
  obtain ⟨t, ht⟩ : ∃ t : Fin cfg0.N, t.val = (i 1).val / 2 :=
    ⟨⟨(i 1).val / 2, by rw [show cfg0.N = 96 from N_0]; omega⟩, rfl⟩
  obtain ⟨e0, e1, e2, e3⟩ := KernelReads.index2 t
  refine ⟨t, flush0_2 t, ?_⟩
  rw [mem_blk2]
  intro a
  match a with
  | ⟨0, _⟩ => show win0_2.index t (0 : Fin 4) * 8 ≤ (i 0).val ∧ (i 0).val < win0_2.index t (0 : Fin 4) * 8 + 8; rw [e0]; omega
  | ⟨1, _⟩ => show win0_2.index t (1 : Fin 4) * 2 ≤ (i 1).val ∧ (i 1).val < win0_2.index t (1 : Fin 4) * 2 + 2; rw [e1]; omega
  | ⟨2, _⟩ => show win0_2.index t (2 : Fin 4) * 192 ≤ (i 2).val ∧ (i 2).val < win0_2.index t (2 : Fin 4) * 192 + 192; rw [e2]; omega
  | ⟨3, _⟩ => show win0_2.index t (3 : Fin 4) * 192 ≤ (i 3).val ∧ (i 3).val < win0_2.index t (3 : Fin 4) * 192 + 192; rw [e3]; omega

/-- THE INDEX ARRAY after the run. -/
theorem final_idx (c : Dev nD) : (dats (F := Ideal) m 0 c).arrAt 2 cfg0.N = idxArr m c :=
  (dats (F := Ideal) m 0 c).arrAt_eq_of_cover 2 (idxArr m c) (fun t _ => flushed_idx m c t) (cover_idx)

theorem arr_idx (c : Dev nD) (cr : Fin 8) (h w d : Fin 192) :
    (dats (F := Ideal) m 0 c).arrAt 2 cfg0.N (ix4 cr h w d)
      = Spec.idxAt (m ((c.tc : Thread nD τ).loc main_arg1)) (Spec.b0 cr) (Spec.b1 cr) (Spec.b2 cr) h w d :=
  congrFun (final_idx m c) (ix4 cr h w d)

end Cert.KernelArrays

end
-- ==== Proof.KernelPieces3.lean ====
/-
  THE VALUE BUFFER OF ONE GRID STEP, READ AT AN INDEX.

  At grid step i the kernel body fills a buffer of shape [8, 2, 192, 192]: plane c (c = 0 … 7, corner number
  c = 4 o0 + 2 o1 + o2) holds, at (y1, y2, y3), the source value of the voxel (2 i + y1, y2, y3) times the trilinear
  weight w0 · w1 · w2 of corner (o0, o1, o2), where on axis a the weight is the fractional part delta_a of the
  displaced, clamped-below coordinate if o_a = 1 and 1 − delta_a if o_a = 0.  The body computes the three fractional
  parts once, from the grid coordinate words (a counter along the axis, plus 2 i on axis 0) and the three planes of
  the flow block, and stores the eight products plane by plane.

  The proof reads the stored planes back as ONE function of the buffer index: each plane's payload, read at
  (0, y1, y2, y3) of its own [1, 2, 192, 192] block, is the product above for that plane's corner (everything is
  computed element by element, so this is unfolding, once the two layout steps — a load of one plane of a block, and
  the change of shape between [1, 2, 192, 192] and [2, 192, 192] — are read at an index), and the eight planes tile
  the buffer.
-/
import proofs.«146513_j73220602462351_1_alg».proof.Proof.KernelIdealFrame
import proofs.«146513_j73220602462351_1_alg».proof.Proof.Spec
import Idealize.ShloMosaic.Lib.ValueLayout

noncomputable section

namespace Cert.KernelPieces3

open Idealize.ShloMosaic Idealize.ShloMosaic.ValueIdx Cert.KernelIdeal Cert.KernelIdeal.Gen Cert.KernelIdeal.GenP

/-! ## The two layout steps at an index -/

/-- Plane k of the flow block, loaded as a [1, 2, 192, 192] block, reads at (0, y1, y2, y3) the block's element
    (k, y1, y2, y3): the load's rectangle starts at (k, 0, 0, 0) with unit strides. -/
theorem ld_flow (x1 : Vec Ideal S3x2x192x192 .f32) (k : Nat) (hk : k < 3)
    (inb : ∀ a, (![k, 0, 0, 0] : Fin 4 → Nat) a + S1x2x192x192.size a ≤ S3x2x192x192.size a)
    (y1 : Fin 2) (y2 y3 : Fin 192) :
    View.ld x1 (Rect.unit (s := S3x2x192x192) ![k, 0, 0, 0] S1x2x192x192.size inb) (ix4 (0 : Fin 1) y1 y2 y3)
      = x1 (ix4 (⟨k, hk⟩ : Fin 3) y1 y2 y3) := by
  show x1 _ = x1 _
  refine congrArg x1 (funext fun a => Fin.ext ?_)
  match a with
  | ⟨0, _⟩ => show k + 1 * 0 = k; omega
  | ⟨1, _⟩ => show 0 + 1 * y1.val = y1.val; omega
  | ⟨2, _⟩ => show 0 + 1 * y2.val = y2.val; omega
  | ⟨3, _⟩ => show 0 + 1 * y3.val = y3.val; omega

/-- The same plane viewed as [2, 192, 192] reads at (y1, y2, y3) the block's element (k, y1, y2, y3): dropping the
    leading unit axis keeps the row-major position. -/
theorem flow_apply (x1 : Vec Ideal S3x2x192x192 .f32) (k : Nat) (hk : k < 3)
    (inb : ∀ a, (![k, 0, 0, 0] : Fin 4 → Nat) a + S1x2x192x192.size a ≤ S3x2x192x192.size a)
    (h : S1x2x192x192.ShapeCasts S2x192x192) (y1 : Fin 2) (y2 y3 : Fin 192) :
    shapeCast S2x192x192 (View.ld x1 (Rect.unit (s := S3x2x192x192) ![k, 0, 0, 0] S1x2x192x192.size inb)) h (ix3 y1 y2 y3)
      = x1 (ix4 (⟨k, hk⟩ : Fin 3) y1 y2 y3) :=
  (shapeCast_1abc_abc_apply _ h y1 y2 y3).trans (ld_flow x1 k hk inb y1 y2 y3)

/-- The source block is loaded whole and its change of shape is to the same shape: it reads the block itself. -/
theorem pay16_apply (x0 : Vec Ideal S2x192x192 .f32) (y1 : Fin 2) (y2 y3 : Fin 192) :
    k0_pay16 (F := Ideal) (View.ld x0 r0_3) (ix3 y1 y2 y3) = x0 (ix3 y1 y2 y3) := by
  have h0 : (![0, 0, 0] : Fin 3 → Nat) = fun _ => 0 :=
    funext fun a => match a with | ⟨0, _⟩ => rfl | ⟨1, _⟩ => rfl | ⟨2, _⟩ => rfl
  unfold k0_pay16
  exact (congrFun (shapeCast_self _ _) _).trans (congrFun (View.ld_unit_zero h0 _ x0) _)

/-! ## The grid coordinate words -/

/-- On axis 0 the coordinate word is the counter along the axis plus twice the grid step: the word of 2 i + y1
    (words add and multiply as the numbers do, modulo 2^32). -/
theorem gridword0 (i : grid0.Coords) (h : S2x192x192.Iotas .tc 32 [0]) (y1 : Fin 2) (y2 y3 : Fin 192) :
    addi (iota .tc S2x192x192 32 [0] h) (broadcast S2x192x192 (Scalar.muli (BitVec.ofNat 32 (i 0).val) 2#32)) (ix3 y1 y2 y3)
      = BitVec.ofNat 32 (2 * (i 0).val + y1.val) := by
  show BitVec.ofNat 32 (0 * 2 + y1.val) + BitVec.ofNat 32 (i 0).val * BitVec.ofNat 32 2 = _
  rw [BitVec.ofNat_mul_ofNat, BitVec.ofNat_add_ofNat]
  congr 1; omega

/-- On axis 1 it is the counter along the axis. -/
theorem gridword1 (h : S2x192x192.Iotas .tc 32 [1]) (y1 : Fin 2) (y2 y3 : Fin 192) :
    iota .tc S2x192x192 32 [1] h (ix3 y1 y2 y3) = BitVec.ofNat 32 y2.val := by
  show BitVec.ofNat 32 (0 * 192 + y2.val) = _
  rw [Nat.zero_mul, Nat.zero_add]

/-- On axis 2 likewise. -/
theorem gridword2 (h : S2x192x192.Iotas .tc 32 [2]) (y1 : Fin 2) (y2 y3 : Fin 192) :
    iota .tc S2x192x192 32 [2] h (ix3 y1 y2 y3) = BitVec.ofNat 32 y3.val := by
  show BitVec.ofNat 32 (0 * 192 + y3.val) = _
  rw [Nat.zero_mul, Nat.zero_add]

/-! ## The displaced coordinates and their fractional parts -/

/-- Axis 0: the displaced coordinate kept where positive, at (y1, y2, y3), is that of the voxel's row 2 i + y1 and
    plane 0 of the flow. The vector operations act element by element, so only the coordinate word and the flow
    element have to be read. -/
theorem pay4_apply (i : grid0.Coords) (x1 : Vec Ideal S3x2x192x192 .f32) (y1 : Fin 2) (y2 y3 : Fin 192) :
    k0_pay4 (F := Ideal) i (View.ld x1 r0_0) (ix3 y1 y2 y3)
      = Spec.loc (BitVec.ofNat 32 (2 * (i 0).val + y1.val)) (x1 (ix4 (0 : Fin 3) y1 y2 y3)) :=
  (show k0_pay4 (F := Ideal) i (View.ld x1 r0_0) (ix3 y1 y2 y3)
      = Spec.loc (addi (iota .tc S2x192x192 32 [0] iota_S2x192x192_d0_w32) (broadcast S2x192x192 (Scalar.muli (BitVec.ofNat 32 (i 0).val) 2#32)) (ix3 y1 y2 y3))
          (shapeCast S2x192x192 (View.ld x1 r0_0) shapeCasts_S1x2x192x192_S2x192x192 (ix3 y1 y2 y3)) from rfl).trans
    (congrArg₂ Spec.loc (gridword0 i _ y1 y2 y3) (flow_apply x1 0 (by omega) _ _ y1 y2 y3))

/-- Axis 1: with the column y2 and plane 1 of the flow. -/
theorem pay5_apply (x1 : Vec Ideal S3x2x192x192 .f32) (y1 : Fin 2) (y2 y3 : Fin 192) :
    k0_pay5 (F := Ideal) (View.ld x1 r0_1) (ix3 y1 y2 y3)
      = Spec.loc (BitVec.ofNat 32 y2.val) (x1 (ix4 (1 : Fin 3) y1 y2 y3)) :=
  (show k0_pay5 (F := Ideal) (View.ld x1 r0_1) (ix3 y1 y2 y3)
      = Spec.loc (iota .tc S2x192x192 32 [1] iota_S2x192x192_d1_w32 (ix3 y1 y2 y3))
          (shapeCast S2x192x192 (View.ld x1 r0_1) shapeCasts_S1x2x192x192_S2x192x192 (ix3 y1 y2 y3)) from rfl).trans
    (congrArg₂ Spec.loc (gridword1 _ y1 y2 y3) (flow_apply x1 1 (by omega) _ _ y1 y2 y3))

/-- Axis 2: with the depth y3 and plane 2 of the flow. -/
theorem pay6_apply (x1 : Vec Ideal S3x2x192x192 .f32) (y1 : Fin 2) (y2 y3 : Fin 192) :
    k0_pay6 (F := Ideal) (View.ld x1 r0_2) (ix3 y1 y2 y3)
      = Spec.loc (BitVec.ofNat 32 y3.val) (x1 (ix4 (2 : Fin 3) y1 y2 y3)) :=
  (show k0_pay6 (F := Ideal) (View.ld x1 r0_2) (ix3 y1 y2 y3)
      = Spec.loc (iota .tc S2x192x192 32 [2] iota_S2x192x192_d2_w32 (ix3 y1 y2 y3))
          (shapeCast S2x192x192 (View.ld x1 r0_2) shapeCasts_S1x2x192x192_S2x192x192 (ix3 y1 y2 y3)) from rfl).trans
    (congrArg₂ Spec.loc (gridword2 _ y1 y2 y3) (flow_apply x1 2 (by omega) _ _ y1 y2 y3))

/-- The fractional part is the coordinate minus its floor. -/
theorem delta_of_loc (L : Spec.E) (g : BitVec 32) (f : Spec.E) (h : L = Spec.loc g f) :
    FloatOps.subf L (FloatOps.floor L) = Spec.delta g f := by
  subst h; rfl

/-- The three fractional parts at (y1, y2, y3). -/
theorem pay10_apply (i : grid0.Coords) (x1 : Vec Ideal S3x2x192x192 .f32) (y1 : Fin 2) (y2 y3 : Fin 192) :
    k0_pay10 (F := Ideal) i (View.ld x1 r0_0) (ix3 y1 y2 y3)
      = Spec.delta (BitVec.ofNat 32 (2 * (i 0).val + y1.val)) (x1 (ix4 (0 : Fin 3) y1 y2 y3)) :=
  delta_of_loc (k0_pay4 (F := Ideal) i (View.ld x1 r0_0) (ix3 y1 y2 y3)) _ _ (pay4_apply i x1 y1 y2 y3)
theorem pay11_apply (x1 : Vec Ideal S3x2x192x192 .f32) (y1 : Fin 2) (y2 y3 : Fin 192) :
    k0_pay11 (F := Ideal) (View.ld x1 r0_1) (ix3 y1 y2 y3)
      = Spec.delta (BitVec.ofNat 32 y2.val) (x1 (ix4 (1 : Fin 3) y1 y2 y3)) :=
  delta_of_loc (k0_pay5 (F := Ideal) (View.ld x1 r0_1) (ix3 y1 y2 y3)) _ _ (pay5_apply x1 y1 y2 y3)
theorem pay12_apply (x1 : Vec Ideal S3x2x192x192 .f32) (y1 : Fin 2) (y2 y3 : Fin 192) :
    k0_pay12 (F := Ideal) (View.ld x1 r0_2) (ix3 y1 y2 y3)
      = Spec.delta (BitVec.ofNat 32 y3.val) (x1 (ix4 (2 : Fin 3) y1 y2 y3)) :=
  delta_of_loc (k0_pay6 (F := Ideal) (View.ld x1 r0_2) (ix3 y1 y2 y3)) _ _ (pay6_apply x1 y1 y2 y3)

/-! ## The eight stored planes at an index

Each stored plane is a product, element by element, of the source with three factors d or 1 − d, given a leading unit
axis: for ANY three vectors d0 d1 d2 and source s it reads, at (u, y1, y2, y3), the product of the four elements at
(y1, y2, y3). -/

section Planes
variable (d0 d1 d2 s : FVec Ideal S2x192x192 .f32) (u : Fin 1) (y1 : Fin 2) (y2 y3 : Fin 192)

/-- Corner 7 = (1, 1, 1): s · ((d0 · d1) · d2). -/
theorem plane7 : k0_pay2 (F := Ideal) d0 d1 d2 s (ix4 u y1 y2 y3)
    = FloatOps.mulf (s (ix3 y1 y2 y3)) (FloatOps.mulf (FloatOps.mulf (d0 (ix3 y1 y2 y3)) (d1 (ix3 y1 y2 y3))) (d2 (ix3 y1 y2 y3))) :=
  shapeCast_abc_1abc_apply (mulf s (mulf (mulf d0 d1) d2)) shapeCasts_S2x192x192_S1x2x192x192 u y1 y2 y3
/-- Corner 6 = (1, 1, 0): s · ((d0 · d1) · (1 − d2)). -/
theorem plane6 : k0_pay41 (F := Ideal) d0 d1 d2 s (ix4 u y1 y2 y3)
    = FloatOps.mulf (s (ix3 y1 y2 y3)) (FloatOps.mulf (FloatOps.mulf (d0 (ix3 y1 y2 y3)) (d1 (ix3 y1 y2 y3)))
        (FloatOps.subf Spec.oneW (d2 (ix3 y1 y2 y3)))) :=
  shapeCast_abc_1abc_apply (mulf s (mulf (mulf d0 d1) (subf (broadcast S2x192x192 Spec.oneW) d2))) shapeCasts_S2x192x192_S1x2x192x192 u y1 y2 y3
/-- Corner 5 = (1, 0, 1): s · ((d0 · (1 − d1)) · d2). -/
theorem plane5 : k0_pay39 (F := Ideal) s (k0_pay36 (F := Ideal) d0 d1 d2) (ix4 u y1 y2 y3)
    = FloatOps.mulf (s (ix3 y1 y2 y3)) (FloatOps.mulf (FloatOps.mulf (d0 (ix3 y1 y2 y3)) (FloatOps.subf Spec.oneW (d1 (ix3 y1 y2 y3))))
        (d2 (ix3 y1 y2 y3))) :=
  shapeCast_abc_1abc_apply (mulf s (k0_pay36 (F := Ideal) d0 d1 d2)) shapeCasts_S2x192x192_S1x2x192x192 u y1 y2 y3
/-- Corner 4 = (1, 0, 0): s · ((d0 · (1 − d1)) · (1 − d2)). -/
theorem plane4 : k0_pay35 (F := Ideal) s (k0_pay33 (F := Ideal) d0 d1 d2) (ix4 u y1 y2 y3)
    = FloatOps.mulf (s (ix3 y1 y2 y3)) (FloatOps.mulf (FloatOps.mulf (d0 (ix3 y1 y2 y3)) (FloatOps.subf Spec.oneW (d1 (ix3 y1 y2 y3))))
        (FloatOps.subf Spec.oneW (d2 (ix3 y1 y2 y3)))) :=
  shapeCast_abc_1abc_apply (mulf s (k0_pay33 (F := Ideal) d0 d1 d2)) shapeCasts_S2x192x192_S1x2x192x192 u y1 y2 y3
/-- Corner 3 = (0, 1, 1): s · (((1 − d0) · d1) · d2). -/
theorem plane3 : k0_pay29 (F := Ideal) d0 d1 d2 s (ix4 u y1 y2 y3)
    = FloatOps.mulf (s (ix3 y1 y2 y3)) (FloatOps.mulf (FloatOps.mulf (FloatOps.subf Spec.oneW (d0 (ix3 y1 y2 y3))) (d1 (ix3 y1 y2 y3)))
        (d2 (ix3 y1 y2 y3))) :=
  shapeCast_abc_1abc_apply (mulf s (mulf (mulf (subf (broadcast S2x192x192 Spec.oneW) d0) d1) d2)) shapeCasts_S2x192x192_S1x2x192x192 u y1 y2 y3
/-- Corner 2 = (0, 1, 0): s · (((1 − d0) · d1) · (1 − d2)). -/
theorem plane2 : k0_pay24 (F := Ideal) d0 d1 d2 s (ix4 u y1 y2 y3)
    = FloatOps.mulf (s (ix3 y1 y2 y3)) (FloatOps.mulf (FloatOps.mulf (FloatOps.subf Spec.oneW (d0 (ix3 y1 y2 y3))) (d1 (ix3 y1 y2 y3)))
        (FloatOps.subf Spec.oneW (d2 (ix3 y1 y2 y3)))) :=
  shapeCast_abc_1abc_apply (mulf s (mulf (mulf (subf (broadcast S2x192x192 Spec.oneW) d0) d1) (subf (broadcast S2x192x192 Spec.oneW) d2))) shapeCasts_S2x192x192_S1x2x192x192 u y1 y2 y3
/-- Corner 1 = (0, 0, 1): s · (((1 − d0) · (1 − d1)) · d2). -/
theorem plane1 : k0_pay21 (F := Ideal) d0 d1 d2 s (ix4 u y1 y2 y3)
    = FloatOps.mulf (s (ix3 y1 y2 y3)) (FloatOps.mulf (FloatOps.mulf (FloatOps.subf Spec.oneW (d0 (ix3 y1 y2 y3)))
        (FloatOps.subf Spec.oneW (d1 (ix3 y1 y2 y3)))) (d2 (ix3 y1 y2 y3))) :=
  shapeCast_abc_1abc_apply (mulf s (mulf (mulf (subf (broadcast S2x192x192 Spec.oneW) d0) (subf (broadcast S2x192x192 Spec.oneW) d1)) d2)) shapeCasts_S2x192x192_S1x2x192x192 u y1 y2 y3
/-- Corner 0 = (0, 0, 0): the source, here still as loaded (v) and passed through its own change of shape,
    times (((1 − d0) · (1 − d1)) · (1 − d2)). -/
theorem plane0 (v : Vec Ideal S2x192x192 .f32) :
    k0_pay19 (F := Ideal) (k0_pay18 (F := Ideal) d0 d1 d2 v) (ix4 u y1 y2 y3)
    = FloatOps.mulf (k0_pay16 (F := Ideal) v (ix3 y1 y2 y3)) (FloatOps.mulf (FloatOps.mulf (FloatOps.subf Spec.oneW (d0 (ix3 y1 y2 y3)))
        (FloatOps.subf Spec.oneW (d1 (ix3 y1 y2 y3)))) (FloatOps.subf Spec.oneW (d2 (ix3 y1 y2 y3)))) :=
  shapeCast_abc_1abc_apply (k0_pay18 (F := Ideal) d0 d1 d2 v) shapeCasts_S2x192x192_S1x2x192x192 u y1 y2 y3

end Planes

/-! ## The buffer as one function of its index -/

/-- What the buffer holds at (cr, y1, y2, y3): the source times the three weights of corner cr. -/
def val (i : grid0.Coords) (x0 : Vec Ideal S2x192x192 .f32) (x1 : Vec Ideal S3x2x192x192 .f32)
    (cr : Fin 8) (y1 : Fin 2) (y2 y3 : Fin 192) : Ideal .f32 :=
  FloatOps.mulf (x0 (ix3 y1 y2 y3)) (FloatOps.mulf (FloatOps.mulf
    (Spec.wgt (Spec.b0 cr) (BitVec.ofNat 32 (2 * (i 0).val + y1.val)) (x1 (ix4 (0 : Fin 3) y1 y2 y3)))
    (Spec.wgt (Spec.b1 cr) (BitVec.ofNat 32 y2.val) (x1 (ix4 (1 : Fin 3) y1 y2 y3))))
    (Spec.wgt (Spec.b2 cr) (BitVec.ofNat 32 y3.val) (x1 (ix4 (2 : Fin 3) y1 y2 y3))))

/-- The same as a function of the buffer index. -/
def G (i : grid0.Coords) (x0 : Vec Ideal S2x192x192 .f32) (x1 : Vec Ideal S3x2x192x192 .f32) :
    S8x2x192x192.Idx → Ideal .f32 := fun y => val i x0 x1 (y 0) (y 1) (y 2) (y 3)

/-- Plane k's rectangle places its own index (0, y1, y2, y3) at the buffer index (k, y1, y2, y3). -/
theorem emb_plane (k : Nat) (hk : k < 8)
    (inb : ∀ a, (![k, 0, 0, 0] : Fin 4 → Nat) a + S1x2x192x192.size a ≤ S8x2x192x192.size a)
    (y1 : Fin 2) (y2 y3 : Fin 192) :
    (Rect.unit (s := S8x2x192x192) ![k, 0, 0, 0] S1x2x192x192.size inb).emb (ix4 (0 : Fin 1) y1 y2 y3)
      = ix4 (⟨k, hk⟩ : Fin 8) y1 y2 y3 := by
  funext a; refine Fin.ext ?_
  match a with
  | ⟨0, _⟩ => show k + 1 * 0 = k; omega
  | ⟨1, _⟩ => show 0 + 1 * y1.val = y1.val; omega
  | ⟨2, _⟩ => show 0 + 1 * y2.val = y2.val; omega
  | ⟨3, _⟩ => show 0 + 1 * y3.val = y3.val; omega

/-- A payload stored through plane k's rectangle that reads val at corner k is a block of G. -/
theorem piece_of_plane (i : grid0.Coords) (x0 : Vec Ideal S2x192x192 .f32) (x1 : Vec Ideal S3x2x192x192 .f32)
    (k : Nat) (hk : k < 8)
    (inb : ∀ a, (![k, 0, 0, 0] : Fin 4 → Nat) a + S1x2x192x192.size a ≤ S8x2x192x192.size a)
    (w : (Rect.unit (s := S8x2x192x192) ![k, 0, 0, 0] S1x2x192x192.size inb).shape.Idx → Ideal .f32)
    (hw : ∀ (y1 : Fin 2) (y2 y3 : Fin 192), w (ix4 (0 : Fin 1) y1 y2 y3) = val i x0 x1 ⟨k, hk⟩ y1 y2 y3)
    (x : (Rect.unit (s := S8x2x192x192) ![k, 0, 0, 0] S1x2x192x192.size inb).shape.Idx) :
    w x = G i x0 x1 ((Rect.unit (s := S8x2x192x192) ![k, 0, 0, 0] S1x2x192x192.size inb).emb x) := by
  obtain ⟨u, a, b, c, rfl⟩ : ∃ (u : Fin 1) (a : Fin 2) (b c : Fin 192), x = ix4 u a b c :=
    ⟨x 0, x 1, x 2, x 3, eq_ix4 x⟩
  obtain rfl : u = 0 := Subsingleton.elim _ _
  exact (hw a b c).trans (congrArg (G i x0 x1) (emb_plane k hk inb a b c).symm)

/-- THE VALUE BUFFER AT AN INDEX. -/
theorem out3_apply (i : grid0.Coords) (x0 : Vec Ideal S2x192x192 .f32) (x1 : Vec Ideal S3x2x192x192 .f32) (cr : Fin 8) (y1 : Fin 2) (y2 y3 : Fin 192) :
    GenP.out0_3 (F := Ideal) i x0 x1 (ix4 cr y1 y2 y3)
      = FloatOps.mulf (x0 (ix3 y1 y2 y3)) (FloatOps.mulf (FloatOps.mulf
          (Spec.wgt (Spec.b0 cr) (BitVec.ofNat 32 (2 * (i 0).val + y1.val)) (x1 (ix4 (0 : Fin 3) y1 y2 y3)))
          (Spec.wgt (Spec.b1 cr) (BitVec.ofNat 32 y2.val) (x1 (ix4 (1 : Fin 3) y1 y2 y3))))
          (Spec.wgt (Spec.b2 cr) (BitVec.ofNat 32 y3.val) (x1 (ix4 (2 : Fin 3) y1 y2 y3)))) := by
  unfold GenP.out0_3
  refine (View.canon_apply_of_pieces (Val := Elt Ideal) (S := S8x2x192x192) (e := .f32) (G i x0 x1) _ ?_ (ix4 cr y1 y2 y3) (GenP.cover0_3 _ _ _ _ _ _ _ _ _)).trans rfl
  -- each of the eight stored planes is the block of G its rectangle names
  refine List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, List.forall_mem_cons.2 ⟨?_,
    fun _ h => absurd h List.not_mem_nil⟩⟩⟩⟩⟩⟩⟩⟩
  · refine piece_of_plane i x0 x1 7 (by omega) inb_S8x2x192x192_S1x2x192x192_7_0_0_0 _ fun a b c => ?_
    refine (plane7 _ _ _ _ 0 a b c).trans ?_
    rw [pay10_apply, pay11_apply, pay12_apply, pay16_apply]; rfl
  · refine piece_of_plane i x0 x1 6 (by omega) inb_S8x2x192x192_S1x2x192x192_6_0_0_0 _ fun a b c => ?_
    refine (plane6 _ _ _ _ 0 a b c).trans ?_
    rw [pay10_apply, pay11_apply, pay12_apply, pay16_apply]; rfl
  · refine piece_of_plane i x0 x1 5 (by omega) inb_S8x2x192x192_S1x2x192x192_5_0_0_0 _ fun a b c => ?_
    refine (plane5 _ _ _ _ 0 a b c).trans ?_
    rw [pay10_apply, pay11_apply, pay12_apply, pay16_apply]; rfl
  · refine piece_of_plane i x0 x1 4 (by omega) inb_S8x2x192x192_S1x2x192x192_4_0_0_0 _ fun a b c => ?_
    refine (plane4 _ _ _ _ 0 a b c).trans ?_
    rw [pay10_apply, pay11_apply, pay12_apply, pay16_apply]; rfl
  · refine piece_of_plane i x0 x1 3 (by omega) inb_S8x2x192x192_S1x2x192x192_3_0_0_0 _ fun a b c => ?_
    refine (plane3 _ _ _ _ 0 a b c).trans ?_
    rw [pay10_apply, pay11_apply, pay12_apply, pay16_apply]; rfl
  · refine piece_of_plane i x0 x1 2 (by omega) inb_S8x2x192x192_S1x2x192x192_2_0_0_0 _ fun a b c => ?_
    refine (plane2 _ _ _ _ 0 a b c).trans ?_
    rw [pay10_apply, pay11_apply, pay12_apply, pay16_apply]; rfl
  · refine piece_of_plane i x0 x1 1 (by omega) inb_S8x2x192x192_S1x2x192x192_1_0_0_0 _ fun a b c => ?_
    refine (plane1 _ _ _ _ 0 a b c).trans ?_
    rw [pay10_apply, pay11_apply, pay12_apply, pay16_apply]; rfl
  · refine piece_of_plane i x0 x1 0 (by omega) inb_S8x2x192x192_S1x2x192x192_0_0_0_0 _ fun a b c => ?_
    refine (plane0 _ _ _ 0 a b c _).trans ?_
    rw [pay10_apply, pay11_apply, pay12_apply, pay16_apply]; rfl

end Cert.KernelPieces3
-- ==== Proof.KernelArrayVal.lean ====
/-
  The kernel's second output array after its region: what every corner receives.

  At (cr, h, w, d) it holds the source value of voxel (h, w, d) times the weight of corner cr, as the specification
  computes it from the source and the flow.  As for the index array: each grid point writes back the restriction of that one
  function to its two rows, and the 96 blocks cover the array.
-/
import proofs.«146513_j73220602462351_1_alg».proof.Proof.KernelIdealFrame
import proofs.«146513_j73220602462351_1_alg».proof.Proof.Spec
import proofs.«146513_j73220602462351_1_alg».proof.Proof.KernelPieces3
import proofs.«146513_j73220602462351_1_alg».proof.Proof.KernelReads
import Idealize.ShloMosaic.Lib.Pipeline.Value
import Idealize.ShloMosaic.Lib.ValueIdx

noncomputable section

namespace Cert.KernelArrays

open Cert.KernelIdeal Cert.KernelIdeal.Gen Cert.KernelIdeal.GenP
open Idealize.ShloMosaic Idealize.ShloMosaic.TcCoe Idealize.ShloMosaic.ValueIdx
open Idealize.ShloMosaic.Pipeline (Dat)

variable (m : (ℓ : Loc nD τ sig) → Buf (Elt Ideal) ℓ)

/-! ## The value array as a whole-array function of the arguments -/

/-- The value array: at (cr, h, w, d), what corner cr of voxel (h, w, d) receives. -/
def valArr (c : Dev nD) : S8x192x192x192.Idx → Ideal .f32 := fun i =>
  Spec.valAt (m ((c.tc : Thread nD τ).loc main_arg0)) (m ((c.tc : Thread nD τ).loc main_arg1))
    (Spec.b0 (i 0)) (Spec.b1 (i 0)) (Spec.b2 (i 0)) (i 1) (i 2) (i 3)

/-! ## What point t writes back is block t of that function

The block at point t holds, at (cr, y1, y2, y3), the source value times the corner's weight, computed from the staged
input blocks at (·, y1, y2, y3) and the row number 2 t + y1; the staged blocks are the arguments at voxel
(2 t + y1, y2, y3); and the block's element sits at (cr, 2 t + y1, y2, y3) of the array. -/

theorem flushed_val (c : Dev nD) (t : Fin cfg0.N) :
    (dats (F := Ideal) m 0 c).flushed 3 t = ((cfg0.win 3).blk t).view.read (Elt Ideal) (valArr m c) := by
  show (cfg0.win 3).cut (grid0.coords t) ((dats (F := Ideal) m 0 c).after 3 t) = _
  rw [after0_3]
  funext y
  obtain ⟨cr, y1, y2, y3, rfl⟩ : ∃ (cr : Fin 8) (y1 : Fin 2) (y2 y3 : Fin 192), y = ix4 cr y1 y2 y3 :=
    ⟨y 0, y 1, y 2, y 3, eq_ix4 y⟩
  rw [View.read_apply]
  show out0_3 (F := Ideal) (grid0.coords t) (iblk m c 0 t) (iblk m c 1 t) (ix4 cr y1 y2 y3)
    = valArr m c (((cfg0.win 3).blk t).view.emb (ix4 cr y1 y2 y3))
  rw [KernelReads.emb3]
  refine (KernelPieces3.out3_apply (grid0.coords t) (iblk m c 0 t) (iblk m c 1 t) cr y1 y2 y3).trans ?_
  rw [KernelReads.iblk0_apply m t y1 y2 y3 c, KernelReads.iblk1_apply m t y1 y2 y3 c 0,
    KernelReads.iblk1_apply m t y1 y2 y3 c 1, KernelReads.iblk1_apply m t y1 y2 y3 c 2, KernelReads.coord0 t]
  rfl

/-! ## Every index of the array is in some point's block: row h is in the block of point h / 2 -/

theorem mem_blk3 (t : Fin cfg0.N) (i : S8x192x192x192.Idx) :
    i ∈ ((cfg0.win 3).blk t).view.set ↔ ∀ a : Fin 4, win0_3.index t a * S8x2x192x192.size a ≤ (i a).val
      ∧ (i a).val < win0_3.index t a * S8x2x192x192.size a + S8x2x192x192.size a := by
  show i ∈ ((View.whole main_v2_1).slice (win0_3.rect t)).set ↔ _
  rw [View.set_slice_whole, Rect.mem_set_unit]
  exact Iff.rfl

theorem cover_val (i : S8x192x192x192.Idx) :
    ∃ t : Fin cfg0.N, (cfg0.win 3).flush t = true ∧ i ∈ ((cfg0.win 3).blk t).view.set := by
  have h0 : (i 0).val < 8 := (i 0).isLt
  have h1 : (i 1).val < 192 := (i 1).isLt
  have h2 : (i 2).val < 192 := (i 2).isLt
  have h3 : (i 3).val < 192 := (i 3).isLt
  obtain ⟨t, ht⟩ : ∃ t : Fin cfg0.N, t.val = (i 1).val / 2 :=
    ⟨⟨(i 1).val / 2, by rw [show cfg0.N = 96 from N_0]; omega⟩, rfl⟩
  obtain ⟨e0, e1, e2, e3⟩ := KernelReads.index3 t
  refine ⟨t, flush0_3 t, ?_⟩
  rw [mem_blk3]
  intro a
  match a with
  | ⟨0, _⟩ => show win0_3.index t (0 : Fin 4) * 8 ≤ (i 0).val ∧ (i 0).val < win0_3.index t (0 : Fin 4) * 8 + 8; rw [e0]; omega
  | ⟨1, _⟩ => show win0_3.index t (1 : Fin 4) * 2 ≤ (i 1).val ∧ (i 1).val < win0_3.index t (1 : Fin 4) * 2 + 2; rw [e1]; omega
  | ⟨2, _⟩ => show win0_3.index t (2 : Fin 4) * 192 ≤ (i 2).val ∧ (i 2).val < win0_3.index t (2 : Fin 4) * 192 + 192; rw [e2]; omega
  | ⟨3, _⟩ => show win0_3.index t (3 : Fin 4) * 192 ≤ (i 3).val ∧ (i 3).val < win0_3.index t (3 : Fin 4) * 192 + 192; rw [e3]; omega

/-- THE VALUE ARRAY after the run. -/
theorem final_val (c : Dev nD) : (dats (F := Ideal) m 0 c).arrAt 3 cfg0.N = valArr m c :=
  (dats (F := Ideal) m 0 c).arrAt_eq_of_cover 3 (valArr m c) (fun t _ => flushed_val m c t) (cover_val)

theorem arr_val (c : Dev nD) (cr : Fin 8) (h w d : Fin 192) :
    (dats (F := Ideal) m 0 c).arrAt 3 cfg0.N (ix4 cr h w d)
      = Spec.valAt (m ((c.tc : Thread nD τ).loc main_arg0)) (m ((c.tc : Thread nD τ).loc main_arg1))
          (Spec.b0 cr) (Spec.b1 cr) (Spec.b2 cr) h w d :=
  congrFun (final_val m c) (ix4 cr h w d)

end Cert.KernelArrays

end
-- ==== Proof.KernelArrays.lean ====
/-
  The kernel's two output arrays after its region, as whole-array functions of the arguments, read at an index:
  `Cert.KernelArrays.arr_idx` (the corners' flat index words) and `Cert.KernelArrays.arr_val` (what each corner receives).
-/
import proofs.«146513_j73220602462351_1_alg».proof.Proof.KernelArrayIdx
import proofs.«146513_j73220602462351_1_alg».proof.Proof.KernelArrayVal
-- ==== Proof.LibScatterStack.lean ====
/-
  THE FLAT SCATTER-ADD AT THE IDEAL INSTANCE, AND EIGHT STACKED BLOCKS IN ONE SCATTER.

  A flat scatter-add takes an operand x of N extended reals, M index words and M updates, and adds update j to
  the operand element that index word j names (read as a signed integer); an update whose word names no element
  (negative, or N and above) is dropped. At the ideal instance floats are extended reals and the host's
  accumulating scatter is the exact sum, so element i of the result is

      x i + ∑ j < M, (if word j = i then update j else 0).

  This file proves that reading (scatterAdd_flat_apply) from the scatter's dimension numbers, and from it the
  regrouping fact: if M = 8·N and the M words and updates are 8 blocks of N laid end to end (position c·N + v
  holds entry v of block c), then ONE scatter-add of all M updates is the 8 successive scatter-adds of the blocks,

      x i + ∑ j < 8·N, t j  =  (((x i + ∑ v, t (0·N + v)) + ∑ v, t (1·N + v)) + … ) + ∑ v, t (7·N + v),

  which is only the splitting of a finite sum over {0, …, 8·N − 1} along j = c·N + v and associativity of the
  addition of extended reals (a commutative monoid: nothing has to be finite).
-/
import Idealize.ShloMosaic.PureOps.Ideal
import Idealize.ShloMosaic.Lib.ValueIdx

noncomputable section

open scoped BigOperators

namespace Cert.LibScatterStack

open Idealize.ShloMosaic Idealize.ShloMosaic.ValueIdx

/-- The dimension numbers of a flat scatter: operand [N], scatter indices [M, 1], updates [M]; update j goes to
    the operand element its one index word names. (No update window axes; the operand's one axis is an inserted
    window axis and the one the index vector's single component addresses; the index vector lies along axis 1 of
    the scatter indices.) -/
def flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- Update j reads its start index at position (j, 0) of the scatter indices: on axis 0 (not the index vector's)
    the coordinate is j's own, on axis 1 (the index vector's) it is the component number, and there is only
    component 0. -/
private theorem siIdx_flat (j : Fin M) (c : Fin (flatDims N M wf).scatterDimsToOperandDims.length) :
    (flatDims N M wf).siIdx (ix1 j) c = ix2 j (0 : Fin 1) := by
  funext b; refine Fin.ext ?_
  match b with
  | ⟨0, _⟩ => rfl
  | ⟨1, _⟩ =>
    -- the component number c is below the number of components, which is 1
    show c.val = 0
    have := c.isLt
    have hl : (flatDims N M wf).scatterDimsToOperandDims.length = 1 := rfl
    omega

/-- The window of update j starts, on the operand's one axis, at index word (j, 0) read signed: the axis is the
    one the index vector's component 0 addresses. -/
private theorem start_flat (j : Fin M) (idx : IVec ⟨2, ![M, 1]⟩ w) (a : Fin 1) :
    (flatDims N M wf).start (ix1 j) idx a = (idx (ix2 j (0 : Fin 1))).toInt := by
  obtain rfl : a = 0 := Subsingleton.elim _ _
  unfold ScatterDims.start
  rw [dif_pos (show (0 : Fin 1) ∈ (flatDims N M wf).scatterDimsToOperandDims from List.mem_singleton.mpr rfl)]
  rw [siIdx_flat]

/-- The window coordinate on the operand's one axis is 0: that axis is an inserted window axis, so it is not
    among the kept axes a window coordinate would come from. -/
private theorem window_flat (j : Fin M) (a : Fin 1) :
    (flatDims N M wf).window (ix1 j) a = 0 := by
  obtain rfl : a = 0 := Subsingleton.elim _ _
  unfold ScatterDims.window
  rw [dif_neg]
  -- axis 0 kept would mean 0 ∉ [0]
  intro h
  exact (of_decide_eq_true (List.mem_filter.1 h).2) (List.mem_singleton.mpr rfl)

/-- Update j lands at operand element i exactly when its index word, read as a signed integer, is i: the result
    index is start + window coordinate = word + 0 on the one axis, and it is an element of the operand when
    0 ≤ word < N. -/
theorem resultIdx?_flat (j : Fin M) (idx : IVec ⟨2, ![M, 1]⟩ w) (i : Fin N) :
    (flatDims N M wf).resultIdx? (ix1 j) idx = some (ix1 i) ↔ (idx (ix2 j (0 : Fin 1))).toInt = (i.val : Int) := by
  unfold ScatterDims.resultIdx?
  constructor
  · -- landing at i: the index is in range and its natural-number value is i, so the word is i
    intro h
    split at h
    · rename_i hr
      have h0 := congrFun (Option.some.inj h) (0 : Fin 1)
      have h1 : ((flatDims N M wf).start (ix1 j) idx (0 : Fin 1) + ((flatDims N M wf).window (ix1 j) (0 : Fin 1) : Int)).toNat = i.val :=
        congrArg Fin.val h0
      have h2 := (hr (0 : Fin 1)).1
      rw [start_flat, window_flat] at h1 h2
      omega
    · cases h
  · -- the word is i: then 0 ≤ i + 0 < N on the one axis, and the element it names is i
    intro h
    have hr : ∀ a : Fin (⟨1, ![N]⟩ : Shape).rank,
        0 ≤ (flatDims N M wf).start (ix1 j) idx a + ((flatDims N M wf).window (ix1 j) a : Int) ∧
        (flatDims N M wf).start (ix1 j) idx a + ((flatDims N M wf).window (ix1 j) a : Int) < ((⟨1, ![N]⟩ : Shape).size a : Int) := by
      intro a
      obtain rfl : a = (0 : Fin 1) := Subsingleton.elim _ _
      rw [start_flat, window_flat, h]
      show (0 : Int) ≤ (i.val : Int) + ((0 : Nat) : Int) ∧ (i.val : Int) + ((0 : Nat) : Int) < (N : Int)
      have := i.isLt
      omega
    rw [dif_pos hr]
    refine congrArg some ?_
    funext a
    obtain rfl : a = 0 := Subsingleton.elim _ _
    refine Fin.ext ?_
    show ((flatDims N M wf).start (ix1 j) idx (0 : Fin 1) + ((flatDims N M wf).window (ix1 j) (0 : Fin 1) : Int)).toNat = i.val
    rw [start_flat, window_flat, h]
    omega

/-- A rank-1 index set is its one coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- THE FLAT SCATTER-ADD READ AT ELEMENT i: x i plus the sum, over all M updates, of the updates whose index
    word is i. (The instance's sum runs over the set of updates that land at i; a sum over a subset is the sum
    over everything of "the term if in the subset, else 0", and landing at i is "word = i".) -/
theorem scatterAdd_flat_apply (x : (⟨1, ![N]⟩ : Shape).Idx → Ideal .f32) (idx : IVec ⟨2, ![M, 1]⟩ w)
    (upd : (⟨1, ![M]⟩ : Shape).Idx → Ideal .f32) (i : Fin N) :
    Host.scatterAdd (F := Ideal) (flatDims N M wf) x idx upd (ix1 i) =
      x (ix1 i) + ∑ j : Fin M, if (idx (ix2 j (0 : Fin 1))).toInt = (i.val : Int) then upd (ix1 j) else 0 := by
  show x (ix1 i) + ∑ j ∈ Finset.univ.filter (fun j => (flatDims N M wf).resultIdx? j idx = some (ix1 i)), upd j = _
  rw [Finset.sum_filter, sum_idx1]
  refine congrArg (x (ix1 i) + ·) (Finset.sum_congr rfl fun j _ => ?_)
  exact if_congr (resultIdx?_flat wf j idx i) rfl rfl

end Flat

/-- Position v of block c when 8 blocks of N are laid end to end: c·N + v, below M = 8·N because c ≤ 7 and
    v < N. -/
def stackIdx {N M : Nat} (hM : M = 8 * N) (c : Fin 8) (v : Fin N) : Fin M :=
  ⟨c.val * N + v.val, by
    have hc : c.val * N ≤ 7 * N := Nat.mul_le_mul_right N (by have := c.isLt; omega)
    have := v.isLt
    omega⟩

/-- A sum over the 8·N positions is the sum over the 8 blocks of the sums over each block's N positions: every
    j < 8·N is c·N + v for exactly one pair (c, v) with c < 8, v < N. -/
private theorem sum_stack8 {A : Type*} [AddCommMonoid A] {N M : Nat} (hM : M = 8 * N) (f : Fin M → A) :
    ∑ j, f j = ∑ c : Fin 8, ∑ v : Fin N, f (stackIdx hM c v) := by
  subst hM
  -- (c, v) ↦ v + N·c is a bijection from pairs onto positions; a sum over pairs is the double sum
  rw [← Equiv.sum_comp finProdFinEquiv f, Fintype.sum_prod_type]
  refine Finset.sum_congr rfl fun c _ => Finset.sum_congr rfl fun v _ => congrArg f (Fin.ext ?_)
  show v.val + N * c.val = c.val * N + v.val
  rw [Nat.mul_comm, Nat.add_comm]

/-- One scatter-add of the 8 stacked blocks is the 8 successive scatter-adds of the blocks. At element i both
    sides are x i plus the updates whose word is i: on the left summed over all 8·N positions at once, on the
    right block after block; the sum over positions splits into the 8 block sums, and the rest is associativity. -/
theorem scatterAdd_stack8 {N M w : Nat} (hM : M = 8 * N)
    (wfN : ScatterDims.WF ⟨1, ![N]⟩ ⟨2, ![N, 1]⟩ ⟨1, ![N]⟩ [] [0] [0] 1)
    (wfM : ScatterDims.WF ⟨1, ![N]⟩ ⟨2, ![M, 1]⟩ ⟨1, ![M]⟩ [] [0] [0] 1)
    (x : (⟨1, ![N]⟩ : Shape).Idx → Ideal .f32)
    (I : Fin 8 → IVec ⟨2, ![N, 1]⟩ w) (U : Fin 8 → (⟨1, ![N]⟩ : Shape).Idx → Ideal .f32)
    (IK : IVec ⟨2, ![M, 1]⟩ w) (UK : (⟨1, ![M]⟩ : Shape).Idx → Ideal .f32)
    (hI : ∀ (c : Fin 8) (v : Fin N), IK (ix2 (stackIdx hM c v) (0 : Fin 1)) = I c (ix2 v (0 : Fin 1)))
    (hU : ∀ (c : Fin 8) (v : Fin N), UK (ix1 (stackIdx hM c v)) = U c (ix1 v)) :
    Host.scatterAdd (F := Ideal) (flatDims N M wfM) x IK UK =
      Host.scatterAdd (F := Ideal) (flatDims N N wfN) (Host.scatterAdd (F := Ideal) (flatDims N N wfN) (Host.scatterAdd (F := Ideal) (flatDims N N wfN) (Host.scatterAdd (F := Ideal) (flatDims N N wfN)
        (Host.scatterAdd (F := Ideal) (flatDims N N wfN) (Host.scatterAdd (F := Ideal) (flatDims N N wfN) (Host.scatterAdd (F := Ideal) (flatDims N N wfN) (Host.scatterAdd (F := Ideal) (flatDims N N wfN)
          x (I 0) (U 0)) (I 1) (U 1)) (I 2) (U 2)) (I 3) (U 3)) (I 4) (U 4)) (I 5) (U 5)) (I 6) (U 6)) (I 7) (U 7) := by
  funext k
  obtain ⟨i, rfl⟩ : ∃ i : Fin N, k = ix1 i := ⟨k 0, eq_ix1 k⟩
  -- the left side at i: x i + ∑ over all M positions, split into the 8 blocks
  refine (scatterAdd_flat_apply wfM x IK UK i).trans ?_
  rw [sum_stack8 hM]
  -- inside block c the stacked words and updates are block c's own
  have hsum : ∀ c : Fin 8,
      (∑ v : Fin N, if (IK (ix2 (stackIdx hM c v) (0 : Fin 1))).toInt = (i.val : Int) then UK (ix1 (stackIdx hM c v)) else 0) =
        ∑ v : Fin N, if (I c (ix2 v (0 : Fin 1))).toInt = (i.val : Int) then U c (ix1 v) else 0 := by
    intro c
    refine Finset.sum_congr rfl fun v _ => ?_
    rw [hI c v, hU c v]
  rw [Finset.sum_congr rfl fun c _ => hsum c, Fin.sum_univ_eight]
  -- the right side at i, scatter by scatter: ((x i + S₀) + S₁) + … + S₇; both sides are x i + (S₀ + (S₁ + …))
  simp only [scatterAdd_flat_apply, add_assoc]

/-- The same with the two stacking hypotheses stated for any position j whose value is c·N + v. -/
theorem scatterAdd_stack8_of_val {N M w : Nat} (hM : M = 8 * N)
    (wfN : ScatterDims.WF ⟨1, ![N]⟩ ⟨2, ![N, 1]⟩ ⟨1, ![N]⟩ [] [0] [0] 1)
    (wfM : ScatterDims.WF ⟨1, ![N]⟩ ⟨2, ![M, 1]⟩ ⟨1, ![M]⟩ [] [0] [0] 1)
    (x : (⟨1, ![N]⟩ : Shape).Idx → Ideal .f32)
    (I : Fin 8 → IVec ⟨2, ![N, 1]⟩ w) (U : Fin 8 → (⟨1, ![N]⟩ : Shape).Idx → Ideal .f32)
    (IK : IVec ⟨2, ![M, 1]⟩ w) (UK : (⟨1, ![M]⟩ : Shape).Idx → Ideal .f32)
    (hI : ∀ (c : Fin 8) (v : Fin N) (j : Fin M), j.val = c.val * N + v.val →
      IK (ix2 j (0 : Fin 1)) = I c (ix2 v (0 : Fin 1)))
    (hU : ∀ (c : Fin 8) (v : Fin N) (j : Fin M), j.val = c.val * N + v.val → UK (ix1 j) = U c (ix1 v)) :
    Host.scatterAdd (F := Ideal) (flatDims N M wfM) x IK UK =
      Host.scatterAdd (F := Ideal) (flatDims N N wfN) (Host.scatterAdd (F := Ideal) (flatDims N N wfN) (Host.scatterAdd (F := Ideal) (flatDims N N wfN) (Host.scatterAdd (F := Ideal) (flatDims N N wfN)
        (Host.scatterAdd (F := Ideal) (flatDims N N wfN) (Host.scatterAdd (F := Ideal) (flatDims N N wfN) (Host.scatterAdd (F := Ideal) (flatDims N N wfN) (Host.scatterAdd (F := Ideal) (flatDims N N wfN)
          x (I 0) (U 0)) (I 1) (U 1)) (I 2) (U 2)) (I 3) (U 3)) (I 4) (U 4)) (I 5) (U 5)) (I 6) (U 6)) (I 7) (U 7) :=
  scatterAdd_stack8 hM wfN wfM x I U IK UK (fun c v => hI c v (stackIdx hM c v) rfl) (fun c v => hU c v (stackIdx hM c v) rfl)

/-- A record of scatter dimension numbers whose four fields are the flat scatter's literals IS flatDims. -/
theorem flatDims_eq {N M : Nat} (wf : ScatterDims.WF ⟨1, ![N]⟩ ⟨2, ![M, 1]⟩ ⟨1, ![M]⟩ [] [0] [0] 1) :
    (⟨[], [0], [0], 1, wf⟩ : ScatterDims ⟨1, ![N]⟩ ⟨2, ![M, 1]⟩ ⟨1, ![M]⟩) = flatDims N M wf := rfl

/-- Any scatter dimension numbers for these three shapes whose four fields equal the flat scatter's are flatDims
    (the conditions on them are a proposition, so which proof of them the record carries does not matter). -/
theorem flatDims_eq_of_fields {N M : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (wf : ScatterDims.WF ⟨1, ![N]⟩ ⟨2, ![M, 1]⟩ ⟨1, ![M]⟩ [] [0] [0] 1) :
    d = flatDims N M wf := by
  obtain ⟨a, b, c, e, wf'⟩ := d
  dsimp only at h1 h2 h3 h4
  subst h1 h2 h3 h4
  rfl

end Cert.LibScatterStack
-- ==== Proof.RefLoc.lean ====
/-
  The reference's displaced, clamped location of a voxel, read at an index.

  The reference builds the integer grid by stacking three broadcast iotas (one per axis), converts it to float, adds the
  flow and keeps the sum where it is positive.  Read at voxel (h, w, d) and axis a this is `Spec.loc` of the voxel's
  a-th coordinate (as a 32-bit word) and the a-th flow component there.
-/
import proofs.«146513_j73220602462351_1_alg».proof.Proof.RefRead
import proofs.«146513_j73220602462351_1_alg».proof.Proof.Spec
import Idealize.ShloMosaic.Lib.Pipeline.Value
import Idealize.ShloMosaic.Lib.ValueIdx

noncomputable section

namespace Cert.RefLoc

open Idealize.ShloMosaic Idealize.ShloMosaic.ValueIdx Cert.ReferenceIdeal Cert.ReferenceIdeal.Gen Cert.ReferenceIdeal.Read

/-- The stacked grid at (a, h, w, d), a = 0: the iota along axis 0, that is h. -/
theorem grid0 (h w d : Fin 192) :
    val_main_v9 (F := Ideal) (ix4 (0 : Fin 3) h w d) = BitVec.ofNat 32 h.val := by
  have key := concatenate_apply_piece (α := BitVec 32) (t := S3x192x192x192) (0 : Fin 4)
    [⟨S1x192x192x192, val_main_v6 (F := Ideal)⟩, ⟨S1x192x192x192, val_main_v7 (F := Ideal)⟩,
      ⟨S1x192x192x192, val_main_v8 (F := Ideal)⟩]
    concatenates_S1x192x192x192_S1x192x192x192_S1x192x192x192_S3x192x192x192_d0
    (ix4 (0 : Fin 3) h w d) 0 (by decide) S1x192x192x192 (val_main_v6 (F := Ideal)) rfl rfl 0 rfl
    (ix4 (0 : Fin 1) h w d)
    (fun b hb => match b with
      | ⟨0, _⟩ => absurd rfl hb
      | ⟨1, _⟩ => rfl
      | ⟨2, _⟩ => rfl
      | ⟨3, _⟩ => rfl)
    rfl
  refine key.trans ?_
  rw [val_main_v6_apply, val_main_v3_apply, val_main_v0_apply]

/-- a = 1: the iota along axis 1, that is w. -/
theorem grid1 (h w d : Fin 192) :
    val_main_v9 (F := Ideal) (ix4 (1 : Fin 3) h w d) = BitVec.ofNat 32 w.val := by
  have key := concatenate_apply_piece (α := BitVec 32) (t := S3x192x192x192) (0 : Fin 4)
    [⟨S1x192x192x192, val_main_v6 (F := Ideal)⟩, ⟨S1x192x192x192, val_main_v7 (F := Ideal)⟩,
      ⟨S1x192x192x192, val_main_v8 (F := Ideal)⟩]
    concatenates_S1x192x192x192_S1x192x192x192_S1x192x192x192_S3x192x192x192_d0
    (ix4 (1 : Fin 3) h w d) 1 (by decide) S1x192x192x192 (val_main_v7 (F := Ideal)) rfl rfl 1 rfl
    (ix4 (0 : Fin 1) h w d)
    (fun b hb => match b with
      | ⟨0, _⟩ => absurd rfl hb
      | ⟨1, _⟩ => rfl
      | ⟨2, _⟩ => rfl
      | ⟨3, _⟩ => rfl)
    rfl
  refine key.trans ?_
  rw [val_main_v7_apply, val_main_v4_apply, val_main_v1_apply]

/-- a = 2: the iota along axis 2, that is d. -/
theorem grid2 (h w d : Fin 192) :
    val_main_v9 (F := Ideal) (ix4 (2 : Fin 3) h w d) = BitVec.ofNat 32 d.val := by
  have key := concatenate_apply_piece (α := BitVec 32) (t := S3x192x192x192) (0 : Fin 4)
    [⟨S1x192x192x192, val_main_v6 (F := Ideal)⟩, ⟨S1x192x192x192, val_main_v7 (F := Ideal)⟩,
      ⟨S1x192x192x192, val_main_v8 (F := Ideal)⟩]
    concatenates_S1x192x192x192_S1x192x192x192_S1x192x192x192_S3x192x192x192_d0
    (ix4 (2 : Fin 3) h w d) 2 (by decide) S1x192x192x192 (val_main_v8 (F := Ideal)) rfl rfl 2 rfl
    (ix4 (0 : Fin 1) h w d)
    (fun b hb => match b with
      | ⟨0, _⟩ => absurd rfl hb
      | ⟨1, _⟩ => rfl
      | ⟨2, _⟩ => rfl
      | ⟨3, _⟩ => rfl)
    rfl
  refine key.trans ?_
  rw [val_main_v8_apply, val_main_v5_apply, val_main_v2_apply]

/-- The batch axis of the broadcast grid is dropped: (0, a, h, w, d) reads the stack at (a, h, w, d). -/
theorem idx10 (a : Fin 3) (h w d : Fin 192) : idx_main_v10 (ix5 (0 : Fin 1) a h w d) = ix4 a h w d :=
  funext fun b => match b with
    | ⟨0, _⟩ => rfl
    | ⟨1, _⟩ => rfl
    | ⟨2, _⟩ => rfl
    | ⟨3, _⟩ => rfl

/-- The location on axis 0 at voxel (h, w, d). -/
theorem loc0 (x1 : S1x3x192x192x192.Idx → Spec.E) (h w d : Fin 192) :
    val_main_v16 (F := Ideal) x1 (ix5 (0 : Fin 1) (0 : Fin 3) h w d)
      = Spec.loc (BitVec.ofNat 32 h.val) (x1 (ix5 (0 : Fin 1) (0 : Fin 3) h w d)) := by
  rw [val_main_v16_apply, val_main_v14_apply, val_main_v12_apply, val_main_v11_apply, val_main_v10_apply,
    val_main_v13_apply, val_main_v15_apply, val_main_cst_apply, val_main_cst_0_apply, idx10, grid0]
  rfl

/-- The location on axis 1. -/
theorem loc1 (x1 : S1x3x192x192x192.Idx → Spec.E) (h w d : Fin 192) :
    val_main_v16 (F := Ideal) x1 (ix5 (0 : Fin 1) (1 : Fin 3) h w d)
      = Spec.loc (BitVec.ofNat 32 w.val) (x1 (ix5 (0 : Fin 1) (1 : Fin 3) h w d)) := by
  rw [val_main_v16_apply, val_main_v14_apply, val_main_v12_apply, val_main_v11_apply, val_main_v10_apply,
    val_main_v13_apply, val_main_v15_apply, val_main_cst_apply, val_main_cst_0_apply, idx10, grid1]
  rfl

/-- The location on axis 2. -/
theorem loc2 (x1 : S1x3x192x192x192.Idx → Spec.E) (h w d : Fin 192) :
    val_main_v16 (F := Ideal) x1 (ix5 (0 : Fin 1) (2 : Fin 3) h w d)
      = Spec.loc (BitVec.ofNat 32 d.val) (x1 (ix5 (0 : Fin 1) (2 : Fin 3) h w d)) := by
  rw [val_main_v16_apply, val_main_v14_apply, val_main_v12_apply, val_main_v11_apply, val_main_v10_apply,
    val_main_v13_apply, val_main_v15_apply, val_main_cst_apply, val_main_cst_0_apply, idx10, grid2]
  rfl

end Cert.RefLoc

end
-- ==== Proof.RefIndex.lean ====
/-
  The reference's index words, read at a voxel number.

  The reference takes the floor of the location array, converts it to 32-bit integers, lays the result out as 3 rows of
  7077888 = 192 * 192 * 192 words (row a = axis a, column v = the voxel's row-major number) and takes the minimum with
  191: these are the cell bases.  Column v of row a is the voxel (v / 36864 % 192, v / 192 % 192, v % 192) of the a-th
  component, so the word there is `Spec.base` of that voxel's a-th coordinate and the a-th flow component.

  Then, once per corner (o0, o1, o2), it slices out each row, adds the offset o_a, caps at 191, combines the three
  coordinates into the flat index (i0 * 36864 + i1 * 192) + i2, moves a negative word up by 7077888, and writes the
  result as a one-column array.  Every step is elementwise in the voxel number v, so row v of corner c's index array
  is `Spec.idxW x1 c v`.  The eight corners are the same computation with different offsets; each is read below
  coordinate by coordinate, then the flat index, then the final word.
-/
import proofs.«146513_j73220602462351_1_alg».proof.Proof.RefRead
import proofs.«146513_j73220602462351_1_alg».proof.Proof.Spec
import proofs.«146513_j73220602462351_1_alg».proof.Proof.RefLoc
import Idealize.ShloMosaic.Lib.ValueIdx

noncomputable section

namespace Cert.RefIndex

open Idealize.ShloMosaic Idealize.ShloMosaic.ValueIdx Cert.ReferenceIdeal Cert.ReferenceIdeal.Read

/-! ## The cell bases -/

/-- Row a, column v of the 3 x 7077888 layout is element (0, a, v / 36864 % 192, v / 192 % 192, v % 192) of the
    1 x 3 x 192 x 192 x 192 array: the flat number a * 7077888 + v, divided out again (7077888 = 192 * 36864). -/
theorem idx21 (a : Fin 3) (v : Fin 7077888) :
    idx_main_v21 (ix2 a v) = ix5 (0 : Fin 1) a (Spec.vh v) (Spec.vw v) (Spec.vd v) := by
  have ha : a.val < 3 := a.isLt
  have hv : v.val < 7077888 := v.isLt
  funext b
  match b with
  | ⟨0, _⟩ => rfl
  | ⟨1, _⟩ => exact Fin.ext (by show (a.val * 7077888 + v.val) / 7077888 % 3 = a.val; omega)
  | ⟨2, _⟩ => exact Fin.ext (by show (a.val * 7077888 + v.val) / 36864 % 192 = v.val / 36864 % 192; omega)
  | ⟨3, _⟩ => exact Fin.ext (by show (a.val * 7077888 + v.val) / 192 % 192 = v.val / 192 % 192; omega)
  | ⟨4, _⟩ => exact Fin.ext (by show (a.val * 7077888 + v.val) % 192 = v.val % 192; omega)

/-- The rows of 191s: the constant 191, broadcast twice, reads 191 everywhere. -/
theorem cap23 (i : S3x7077888.Idx) : val_main_v23 (F := Ideal) i = 191#32 := by
  rw [val_main_v23_apply, val_main_v22_apply, val_main_c_apply]

/-- The base on axis 0 at voxel number v: the floor of the location, as an integer word, at most 191. -/
theorem base0 (x1 : S1x3x192x192x192.Idx → Spec.E) (v : Fin 7077888) :
    val_main_v24 (F := Ideal) x1 (ix2 (0 : Fin 3) v)
      = Spec.base (BitVec.ofNat 32 (Spec.vh v).val) (x1 (ix5 (0 : Fin 1) (0 : Fin 3) (Spec.vh v) (Spec.vw v) (Spec.vd v))) := by
  rw [val_main_v24_apply, cap23, val_main_v21_apply, val_main_v20_apply, val_main_v17_apply, idx21, RefLoc.loc0]
  rfl

/-- The base on axis 1. -/
theorem base1 (x1 : S1x3x192x192x192.Idx → Spec.E) (v : Fin 7077888) :
    val_main_v24 (F := Ideal) x1 (ix2 (1 : Fin 3) v)
      = Spec.base (BitVec.ofNat 32 (Spec.vw v).val) (x1 (ix5 (0 : Fin 1) (1 : Fin 3) (Spec.vh v) (Spec.vw v) (Spec.vd v))) := by
  rw [val_main_v24_apply, cap23, val_main_v21_apply, val_main_v20_apply, val_main_v17_apply, idx21, RefLoc.loc1]
  rfl

/-- The base on axis 2. -/
theorem base2 (x1 : S1x3x192x192x192.Idx → Spec.E) (v : Fin 7077888) :
    val_main_v24 (F := Ideal) x1 (ix2 (2 : Fin 3) v)
      = Spec.base (BitVec.ofNat 32 (Spec.vd v).val) (x1 (ix5 (0 : Fin 1) (2 : Fin 3) (Spec.vh v) (Spec.vw v) (Spec.vd v))) := by
  rw [val_main_v24_apply, cap23, val_main_v21_apply, val_main_v20_apply, val_main_v17_apply, idx21, RefLoc.loc2]
  rfl

/-- An index of the 3 x 7077888 layout whose coordinates are a and v is (a, v). -/
theorem row_eq (a : Fin 3) (v : Fin 7077888) (j : S3x7077888.Idx) (h0 : (j 0).val = a.val) (h1 : (j 1).val = v.val) :
    j = ix2 a v := by
  funext b
  match b with
  | ⟨0, _⟩ => exact Fin.ext h0
  | ⟨1, _⟩ => exact Fin.ext h1

/-! ## Corner 0: offsets (0, 0, 0) -/

/-- Corner 0, axis 0: row 0 of the bases at column v, plus the offset 0, at most 191. -/
theorem c0_ax0 (x1 : S1x3x192x192x192.Idx → Spec.E) (v : Fin 7077888) :
    val_main_v34 (F := Ideal) x1 (ix1 v)
      = Spec.cidx false (BitVec.ofNat 32 (Spec.vh v).val) (x1 (ix5 (0 : Fin 1) (0 : Fin 3) (Spec.vh v) (Spec.vw v) (Spec.vd v))) := by
  -- the offset and the cap are broadcast constants
  have hoff : val_main_v29 (F := Ideal) (ix1 v) = Spec.off false := rfl
  have hcap : val_main_v33 (F := Ideal) (ix1 v) = 191#32 := rfl
  -- the slice [0:1, :] reshaped to one row reads row 0, column v
  have hrow : idx_main_v27 (idx_main_v28 (ix1 v)) = ix2 (0 : Fin 3) v :=
    row_eq (0 : Fin 3) v _ rfl (Nat.mod_eq_of_lt v.isLt)
  rw [val_main_v34_apply, val_main_v30_apply, val_main_v28_apply, val_main_v27_apply, hoff, hcap, hrow, base0]
  rfl

/-- Corner 0, axis 1: row 1 of the bases at column v, plus the offset 0, at most 191. -/
theorem c0_ax1 (x1 : S1x3x192x192x192.Idx → Spec.E) (v : Fin 7077888) :
    val_main_v42 (F := Ideal) x1 (ix1 v)
      = Spec.cidx false (BitVec.ofNat 32 (Spec.vw v).val) (x1 (ix5 (0 : Fin 1) (1 : Fin 3) (Spec.vh v) (Spec.vw v) (Spec.vd v))) := by
  -- the offset and the cap are broadcast constants
  have hoff : val_main_v37 (F := Ideal) (ix1 v) = Spec.off false := rfl
  have hcap : val_main_v41 (F := Ideal) (ix1 v) = 191#32 := rfl
  -- the slice [1:2, :] reshaped to one row reads row 1, column v
  have hrow : idx_main_v35 (idx_main_v36 (ix1 v)) = ix2 (1 : Fin 3) v :=
    row_eq (1 : Fin 3) v _ rfl (Nat.mod_eq_of_lt v.isLt)
  rw [val_main_v42_apply, val_main_v38_apply, val_main_v36_apply, val_main_v35_apply, hoff, hcap, hrow, base1]
  rfl

/-- Corner 0, axis 2: row 2 of the bases at column v, plus the offset 0, at most 191. -/
theorem c0_ax2 (x1 : S1x3x192x192x192.Idx → Spec.E) (v : Fin 7077888) :
    val_main_v50 (F := Ideal) x1 (ix1 v)
      = Spec.cidx false (BitVec.ofNat 32 (Spec.vd v).val) (x1 (ix5 (0 : Fin 1) (2 : Fin 3) (Spec.vh v) (Spec.vw v) (Spec.vd v))) := by
  -- the offset and the cap are broadcast constants
  have hoff : val_main_v45 (F := Ideal) (ix1 v) = Spec.off false := rfl
  have hcap : val_main_v49 (F := Ideal) (ix1 v) = 191#32 := rfl
  -- the slice [2:3, :] reshaped to one row reads row 2, column v
  have hrow : idx_main_v43 (idx_main_v44 (ix1 v)) = ix2 (2 : Fin 3) v :=
    row_eq (2 : Fin 3) v _ rfl (Nat.mod_eq_of_lt v.isLt)
  rw [val_main_v50_apply, val_main_v46_apply, val_main_v44_apply, val_main_v43_apply, hoff, hcap, hrow, base2]
  rfl

/-- Corner 0: the flat index word (i0 * 36864 + i1 * 192) + i2 of its three coordinates. -/
theorem c0_flat (x1 : S1x3x192x192x192.Idx → Spec.E) (v : Fin 7077888) :
    val_main_v70 (F := Ideal) x1 (ix1 v) = Spec.idxAt x1 false false false (Spec.vh v) (Spec.vw v) (Spec.vd v) := by
  -- the two strides are broadcast constants
  have hs0 : val_main_v65 (F := Ideal) (ix1 v) = 36864#32 := rfl
  have hs1 : val_main_v67 (F := Ideal) (ix1 v) = 192#32 := rfl
  rw [val_main_v70_apply, val_main_v69_apply, val_main_v66_apply, val_main_v68_apply, hs0, hs1, c0_ax0, c0_ax1, c0_ax2]
  rfl

/-- Corner 0: the index word the scatter reads: the flat index, moved up by 7077888 if it is negative. -/
theorem idx_c0 (x1 : S1x3x192x192x192.Idx → Spec.E) (v : Fin 7077888) :
    val_main_v77 (F := Ideal) x1 (ix2 v (0 : Fin 1)) = Spec.idxW x1 (0 : Fin 8) v := by
  -- the index array has one column: row v reads element v
  have hcol : idx_main_v77 (ix2 v (0 : Fin 1)) = ix1 v := funext fun a => match a with | ⟨0, _⟩ => rfl
  -- zero and the volume's size are broadcast constants
  have hz : val_main_v72 (F := Ideal) (ix1 v) = 0#32 := rfl
  have hn : val_main_v74 (F := Ideal) (ix1 v) = 7077888#32 := rfl
  rw [val_main_v77_apply, hcol, val_main_v76_apply, val_main_v73_apply, val_main_v75_apply, hz, hn, c0_flat]
  -- corner number 0 has the offsets (false, false, false): 0 = 4 * 0 + 2 * 0 + 0
  rfl

/-! ## Corner 1: offsets (0, 0, 1) -/

/-- Corner 1, axis 0: row 0 of the bases at column v, plus the offset 0, at most 191. -/
theorem c1_ax0 (x1 : S1x3x192x192x192.Idx → Spec.E) (v : Fin 7077888) :
    val_main_v86 (F := Ideal) x1 (ix1 v)
      = Spec.cidx false (BitVec.ofNat 32 (Spec.vh v).val) (x1 (ix5 (0 : Fin 1) (0 : Fin 3) (Spec.vh v) (Spec.vw v) (Spec.vd v))) := by
  -- the offset and the cap are broadcast constants
  have hoff : val_main_v81 (F := Ideal) (ix1 v) = Spec.off false := rfl
  have hcap : val_main_v85 (F := Ideal) (ix1 v) = 191#32 := rfl
  -- the slice [0:1, :] reshaped to one row reads row 0, column v
  have hrow : idx_main_v79 (idx_main_v80 (ix1 v)) = ix2 (0 : Fin 3) v :=
    row_eq (0 : Fin 3) v _ rfl (Nat.mod_eq_of_lt v.isLt)
  rw [val_main_v86_apply, val_main_v82_apply, val_main_v80_apply, val_main_v79_apply, hoff, hcap, hrow, base0]
  rfl

/-- Corner 1, axis 1: row 1 of the bases at column v, plus the offset 0, at most 191. -/
theorem c1_ax1 (x1 : S1x3x192x192x192.Idx → Spec.E) (v : Fin 7077888) :
    val_main_v94 (F := Ideal) x1 (ix1 v)
      = Spec.cidx false (BitVec.ofNat 32 (Spec.vw v).val) (x1 (ix5 (0 : Fin 1) (1 : Fin 3) (Spec.vh v) (Spec.vw v) (Spec.vd v))) := by
  -- the offset and the cap are broadcast constants
  have hoff : val_main_v89 (F := Ideal) (ix1 v) = Spec.off false := rfl
  have hcap : val_main_v93 (F := Ideal) (ix1 v) = 191#32 := rfl
  -- the slice [1:2, :] reshaped to one row reads row 1, column v
  have hrow : idx_main_v87 (idx_main_v88 (ix1 v)) = ix2 (1 : Fin 3) v :=
    row_eq (1 : Fin 3) v _ rfl (Nat.mod_eq_of_lt v.isLt)
  rw [val_main_v94_apply, val_main_v90_apply, val_main_v88_apply, val_main_v87_apply, hoff, hcap, hrow, base1]
  rfl

/-- Corner 1, axis 2: row 2 of the bases at column v, plus the offset 1, at most 191. -/
theorem c1_ax2 (x1 : S1x3x192x192x192.Idx → Spec.E) (v : Fin 7077888) :
    val_main_v102 (F := Ideal) x1 (ix1 v)
      = Spec.cidx true (BitVec.ofNat 32 (Spec.vd v).val) (x1 (ix5 (0 : Fin 1) (2 : Fin 3) (Spec.vh v) (Spec.vw v) (Spec.vd v))) := by
  -- the offset and the cap are broadcast constants
  have hoff : val_main_v97 (F := Ideal) (ix1 v) = Spec.off true := rfl
  have hcap : val_main_v101 (F := Ideal) (ix1 v) = 191#32 := rfl
  -- the slice [2:3, :] reshaped to one row reads row 2, column v
  have hrow : idx_main_v95 (idx_main_v96 (ix1 v)) = ix2 (2 : Fin 3) v :=
    row_eq (2 : Fin 3) v _ rfl (Nat.mod_eq_of_lt v.isLt)
  rw [val_main_v102_apply, val_main_v98_apply, val_main_v96_apply, val_main_v95_apply, hoff, hcap, hrow, base2]
  rfl

/-- Corner 1: the flat index word (i0 * 36864 + i1 * 192) + i2 of its three coordinates. -/
theorem c1_flat (x1 : S1x3x192x192x192.Idx → Spec.E) (v : Fin 7077888) :
    val_main_v120 (F := Ideal) x1 (ix1 v) = Spec.idxAt x1 false false true (Spec.vh v) (Spec.vw v) (Spec.vd v) := by
  -- the two strides are broadcast constants
  have hs0 : val_main_v115 (F := Ideal) (ix1 v) = 36864#32 := rfl
  have hs1 : val_main_v117 (F := Ideal) (ix1 v) = 192#32 := rfl
  rw [val_main_v120_apply, val_main_v119_apply, val_main_v116_apply, val_main_v118_apply, hs0, hs1, c1_ax0, c1_ax1, c1_ax2]
  rfl

/-- Corner 1: the index word the scatter reads: the flat index, moved up by 7077888 if it is negative. -/
theorem idx_c1 (x1 : S1x3x192x192x192.Idx → Spec.E) (v : Fin 7077888) :
    val_main_v127 (F := Ideal) x1 (ix2 v (0 : Fin 1)) = Spec.idxW x1 (1 : Fin 8) v := by
  -- the index array has one column: row v reads element v
  have hcol : idx_main_v127 (ix2 v (0 : Fin 1)) = ix1 v := funext fun a => match a with | ⟨0, _⟩ => rfl
  -- zero and the volume's size are broadcast constants
  have hz : val_main_v122 (F := Ideal) (ix1 v) = 0#32 := rfl
  have hn : val_main_v124 (F := Ideal) (ix1 v) = 7077888#32 := rfl
  rw [val_main_v127_apply, hcol, val_main_v126_apply, val_main_v123_apply, val_main_v125_apply, hz, hn, c1_flat]
  -- corner number 1 has the offsets (false, false, true): 1 = 4 * 0 + 2 * 0 + 1
  rfl

/-! ## Corner 2: offsets (0, 1, 0) -/

/-- Corner 2, axis 0: row 0 of the bases at column v, plus the offset 0, at most 191. -/
theorem c2_ax0 (x1 : S1x3x192x192x192.Idx → Spec.E) (v : Fin 7077888) :
    val_main_v136 (F := Ideal) x1 (ix1 v)
      = Spec.cidx false (BitVec.ofNat 32 (Spec.vh v).val) (x1 (ix5 (0 : Fin 1) (0 : Fin 3) (Spec.vh v) (Spec.vw v) (Spec.vd v))) := by
  -- the offset and the cap are broadcast constants
  have hoff : val_main_v131 (F := Ideal) (ix1 v) = Spec.off false := rfl
  have hcap : val_main_v135 (F := Ideal) (ix1 v) = 191#32 := rfl
  -- the slice [0:1, :] reshaped to one row reads row 0, column v
  have hrow : idx_main_v129 (idx_main_v130 (ix1 v)) = ix2 (0 : Fin 3) v :=
    row_eq (0 : Fin 3) v _ rfl (Nat.mod_eq_of_lt v.isLt)
  rw [val_main_v136_apply, val_main_v132_apply, val_main_v130_apply, val_main_v129_apply, hoff, hcap, hrow, base0]
  rfl

/-- Corner 2, axis 1: row 1 of the bases at column v, plus the offset 1, at most 191. -/
theorem c2_ax1 (x1 : S1x3x192x192x192.Idx → Spec.E) (v : Fin 7077888) :
    val_main_v144 (F := Ideal) x1 (ix1 v)
      = Spec.cidx true (BitVec.ofNat 32 (Spec.vw v).val) (x1 (ix5 (0 : Fin 1) (1 : Fin 3) (Spec.vh v) (Spec.vw v) (Spec.vd v))) := by
  -- the offset and the cap are broadcast constants
  have hoff : val_main_v139 (F := Ideal) (ix1 v) = Spec.off true := rfl
  have hcap : val_main_v143 (F := Ideal) (ix1 v) = 191#32 := rfl
  -- the slice [1:2, :] reshaped to one row reads row 1, column v
  have hrow : idx_main_v137 (idx_main_v138 (ix1 v)) = ix2 (1 : Fin 3) v :=
    row_eq (1 : Fin 3) v _ rfl (Nat.mod_eq_of_lt v.isLt)
  rw [val_main_v144_apply, val_main_v140_apply, val_main_v138_apply, val_main_v137_apply, hoff, hcap, hrow, base1]
  rfl

/-- Corner 2, axis 2: row 2 of the bases at column v, plus the offset 0, at most 191. -/
theorem c2_ax2 (x1 : S1x3x192x192x192.Idx → Spec.E) (v : Fin 7077888) :
    val_main_v152 (F := Ideal) x1 (ix1 v)
      = Spec.cidx false (BitVec.ofNat 32 (Spec.vd v).val) (x1 (ix5 (0 : Fin 1) (2 : Fin 3) (Spec.vh v) (Spec.vw v) (Spec.vd v))) := by
  -- the offset and the cap are broadcast constants
  have hoff : val_main_v147 (F := Ideal) (ix1 v) = Spec.off false := rfl
  have hcap : val_main_v151 (F := Ideal) (ix1 v) = 191#32 := rfl
  -- the slice [2:3, :] reshaped to one row reads row 2, column v
  have hrow : idx_main_v145 (idx_main_v146 (ix1 v)) = ix2 (2 : Fin 3) v :=
    row_eq (2 : Fin 3) v _ rfl (Nat.mod_eq_of_lt v.isLt)
  rw [val_main_v152_apply, val_main_v148_apply, val_main_v146_apply, val_main_v145_apply, hoff, hcap, hrow, base2]
  rfl

/-- Corner 2: the flat index word (i0 * 36864 + i1 * 192) + i2 of its three coordinates. -/
theorem c2_flat (x1 : S1x3x192x192x192.Idx → Spec.E) (v : Fin 7077888) :
    val_main_v170 (F := Ideal) x1 (ix1 v) = Spec.idxAt x1 false true false (Spec.vh v) (Spec.vw v) (Spec.vd v) := by
  -- the two strides are broadcast constants
  have hs0 : val_main_v165 (F := Ideal) (ix1 v) = 36864#32 := rfl
  have hs1 : val_main_v167 (F := Ideal) (ix1 v) = 192#32 := rfl
  rw [val_main_v170_apply, val_main_v169_apply, val_main_v166_apply, val_main_v168_apply, hs0, hs1, c2_ax0, c2_ax1, c2_ax2]
  rfl

/-- Corner 2: the index word the scatter reads: the flat index, moved up by 7077888 if it is negative. -/
theorem idx_c2 (x1 : S1x3x192x192x192.Idx → Spec.E) (v : Fin 7077888) :
    val_main_v177 (F := Ideal) x1 (ix2 v (0 : Fin 1)) = Spec.idxW x1 (2 : Fin 8) v := by
  -- the index array has one column: row v reads element v
  have hcol : idx_main_v177 (ix2 v (0 : Fin 1)) = ix1 v := funext fun a => match a with | ⟨0, _⟩ => rfl
  -- zero and the volume's size are broadcast constants
  have hz : val_main_v172 (F := Ideal) (ix1 v) = 0#32 := rfl
  have hn : val_main_v174 (F := Ideal) (ix1 v) = 7077888#32 := rfl
  rw [val_main_v177_apply, hcol, val_main_v176_apply, val_main_v173_apply, val_main_v175_apply, hz, hn, c2_flat]
  -- corner number 2 has the offsets (false, true, false): 2 = 4 * 0 + 2 * 1 + 0
  rfl

/-! ## Corner 3: offsets (0, 1, 1) -/

/-- Corner 3, axis 0: row 0 of the bases at column v, plus the offset 0, at most 191. -/
theorem c3_ax0 (x1 : S1x3x192x192x192.Idx → Spec.E) (v : Fin 7077888) :
    val_main_v186 (F := Ideal) x1 (ix1 v)
      = Spec.cidx false (BitVec.ofNat 32 (Spec.vh v).val) (x1 (ix5 (0 : Fin 1) (0 : Fin 3) (Spec.vh v) (Spec.vw v) (Spec.vd v))) := by
  -- the offset and the cap are broadcast constants
  have hoff : val_main_v181 (F := Ideal) (ix1 v) = Spec.off false := rfl
  have hcap : val_main_v185 (F := Ideal) (ix1 v) = 191#32 := rfl
  -- the slice [0:1, :] reshaped to one row reads row 0, column v
  have hrow : idx_main_v179 (idx_main_v180 (ix1 v)) = ix2 (0 : Fin 3) v :=
    row_eq (0 : Fin 3) v _ rfl (Nat.mod_eq_of_lt v.isLt)
  rw [val_main_v186_apply, val_main_v182_apply, val_main_v180_apply, val_main_v179_apply, hoff, hcap, hrow, base0]
  rfl

/-- Corner 3, axis 1: row 1 of the bases at column v, plus the offset 1, at most 191. -/
theorem c3_ax1 (x1 : S1x3x192x192x192.Idx → Spec.E) (v : Fin 7077888) :
    val_main_v194 (F := Ideal) x1 (ix1 v)
      = Spec.cidx true (BitVec.ofNat 32 (Spec.vw v).val) (x1 (ix5 (0 : Fin 1) (1 : Fin 3) (Spec.vh v) (Spec.vw v) (Spec.vd v))) := by
  -- the offset and the cap are broadcast constants
  have hoff : val_main_v189 (F := Ideal) (ix1 v) = Spec.off true := rfl
  have hcap : val_main_v193 (F := Ideal) (ix1 v) = 191#32 := rfl
  -- the slice [1:2, :] reshaped to one row reads row 1, column v
  have hrow : idx_main_v187 (idx_main_v188 (ix1 v)) = ix2 (1 : Fin 3) v :=
    row_eq (1 : Fin 3) v _ rfl (Nat.mod_eq_of_lt v.isLt)
  rw [val_main_v194_apply, val_main_v190_apply, val_main_v188_apply, val_main_v187_apply, hoff, hcap, hrow, base1]
  rfl

/-- Corner 3, axis 2: row 2 of the bases at column v, plus the offset 1, at most 191. -/
theorem c3_ax2 (x1 : S1x3x192x192x192.Idx → Spec.E) (v : Fin 7077888) :
    val_main_v202 (F := Ideal) x1 (ix1 v)
      = Spec.cidx true (BitVec.ofNat 32 (Spec.vd v).val) (x1 (ix5 (0 : Fin 1) (2 : Fin 3) (Spec.vh v) (Spec.vw v) (Spec.vd v))) := by
  -- the offset and the cap are broadcast constants
  have hoff : val_main_v197 (F := Ideal) (ix1 v) = Spec.off true := rfl
  have hcap : val_main_v201 (F := Ideal) (ix1 v) = 191#32 := rfl
  -- the slice [2:3, :] reshaped to one row reads row 2, column v
  have hrow : idx_main_v195 (idx_main_v196 (ix1 v)) = ix2 (2 : Fin 3) v :=
    row_eq (2 : Fin 3) v _ rfl (Nat.mod_eq_of_lt v.isLt)
  rw [val_main_v202_apply, val_main_v198_apply, val_main_v196_apply, val_main_v195_apply, hoff, hcap, hrow, base2]
  rfl

/-- Corner 3: the flat index word (i0 * 36864 + i1 * 192) + i2 of its three coordinates. -/
theorem c3_flat (x1 : S1x3x192x192x192.Idx → Spec.E) (v : Fin 7077888) :
    val_main_v218 (F := Ideal) x1 (ix1 v) = Spec.idxAt x1 false true true (Spec.vh v) (Spec.vw v) (Spec.vd v) := by
  -- the two strides are broadcast constants
  have hs0 : val_main_v213 (F := Ideal) (ix1 v) = 36864#32 := rfl
  have hs1 : val_main_v215 (F := Ideal) (ix1 v) = 192#32 := rfl
  rw [val_main_v218_apply, val_main_v217_apply, val_main_v214_apply, val_main_v216_apply, hs0, hs1, c3_ax0, c3_ax1, c3_ax2]
  rfl

/-- Corner 3: the index word the scatter reads: the flat index, moved up by 7077888 if it is negative. -/
theorem idx_c3 (x1 : S1x3x192x192x192.Idx → Spec.E) (v : Fin 7077888) :
    val_main_v225 (F := Ideal) x1 (ix2 v (0 : Fin 1)) = Spec.idxW x1 (3 : Fin 8) v := by
  -- the index array has one column: row v reads element v
  have hcol : idx_main_v225 (ix2 v (0 : Fin 1)) = ix1 v := funext fun a => match a with | ⟨0, _⟩ => rfl
  -- zero and the volume's size are broadcast constants
  have hz : val_main_v220 (F := Ideal) (ix1 v) = 0#32 := rfl
  have hn : val_main_v222 (F := Ideal) (ix1 v) = 7077888#32 := rfl
  rw [val_main_v225_apply, hcol, val_main_v224_apply, val_main_v221_apply, val_main_v223_apply, hz, hn, c3_flat]
  -- corner number 3 has the offsets (false, true, true): 3 = 4 * 0 + 2 * 1 + 1
  rfl

/-! ## Corner 4: offsets (1, 0, 0) -/

/-- Corner 4, axis 0: row 0 of the bases at column v, plus the offset 1, at most 191. -/
theorem c4_ax0 (x1 : S1x3x192x192x192.Idx → Spec.E) (v : Fin 7077888) :
    val_main_v234 (F := Ideal) x1 (ix1 v)
      = Spec.cidx true (BitVec.ofNat 32 (Spec.vh v).val) (x1 (ix5 (0 : Fin 1) (0 : Fin 3) (Spec.vh v) (Spec.vw v) (Spec.vd v))) := by
  -- the offset and the cap are broadcast constants
  have hoff : val_main_v229 (F := Ideal) (ix1 v) = Spec.off true := rfl
  have hcap : val_main_v233 (F := Ideal) (ix1 v) = 191#32 := rfl
  -- the slice [0:1, :] reshaped to one row reads row 0, column v
  have hrow : idx_main_v227 (idx_main_v228 (ix1 v)) = ix2 (0 : Fin 3) v :=
    row_eq (0 : Fin 3) v _ rfl (Nat.mod_eq_of_lt v.isLt)
  rw [val_main_v234_apply, val_main_v230_apply, val_main_v228_apply, val_main_v227_apply, hoff, hcap, hrow, base0]
  rfl

/-- Corner 4, axis 1: row 1 of the bases at column v, plus the offset 0, at most 191. -/
theorem c4_ax1 (x1 : S1x3x192x192x192.Idx → Spec.E) (v : Fin 7077888) :
    val_main_v242 (F := Ideal) x1 (ix1 v)
      = Spec.cidx false (BitVec.ofNat 32 (Spec.vw v).val) (x1 (ix5 (0 : Fin 1) (1 : Fin 3) (Spec.vh v) (Spec.vw v) (Spec.vd v))) := by
  -- the offset and the cap are broadcast constants
  have hoff : val_main_v237 (F := Ideal) (ix1 v) = Spec.off false := rfl
  have hcap : val_main_v241 (F := Ideal) (ix1 v) = 191#32 := rfl
  -- the slice [1:2, :] reshaped to one row reads row 1, column v
  have hrow : idx_main_v235 (idx_main_v236 (ix1 v)) = ix2 (1 : Fin 3) v :=
    row_eq (1 : Fin 3) v _ rfl (Nat.mod_eq_of_lt v.isLt)
  rw [val_main_v242_apply, val_main_v238_apply, val_main_v236_apply, val_main_v235_apply, hoff, hcap, hrow, base1]
  rfl

/-- Corner 4, axis 2: row 2 of the bases at column v, plus the offset 0, at most 191. -/
theorem c4_ax2 (x1 : S1x3x192x192x192.Idx → Spec.E) (v : Fin 7077888) :
    val_main_v250 (F := Ideal) x1 (ix1 v)
      = Spec.cidx false (BitVec.ofNat 32 (Spec.vd v).val) (x1 (ix5 (0 : Fin 1) (2 : Fin 3) (Spec.vh v) (Spec.vw v) (Spec.vd v))) := by
  -- the offset and the cap are broadcast constants
  have hoff : val_main_v245 (F := Ideal) (ix1 v) = Spec.off false := rfl
  have hcap : val_main_v249 (F := Ideal) (ix1 v) = 191#32 := rfl
  -- the slice [2:3, :] reshaped to one row reads row 2, column v
  have hrow : idx_main_v243 (idx_main_v244 (ix1 v)) = ix2 (2 : Fin 3) v :=
    row_eq (2 : Fin 3) v _ rfl (Nat.mod_eq_of_lt v.isLt)
  rw [val_main_v250_apply, val_main_v246_apply, val_main_v244_apply, val_main_v243_apply, hoff, hcap, hrow, base2]
  rfl

/-- Corner 4: the flat index word (i0 * 36864 + i1 * 192) + i2 of its three coordinates. -/
theorem c4_flat (x1 : S1x3x192x192x192.Idx → Spec.E) (v : Fin 7077888) :
    val_main_v268 (F := Ideal) x1 (ix1 v) = Spec.idxAt x1 true false false (Spec.vh v) (Spec.vw v) (Spec.vd v) := by
  -- the two strides are broadcast constants
  have hs0 : val_main_v263 (F := Ideal) (ix1 v) = 36864#32 := rfl
  have hs1 : val_main_v265 (F := Ideal) (ix1 v) = 192#32 := rfl
  rw [val_main_v268_apply, val_main_v267_apply, val_main_v264_apply, val_main_v266_apply, hs0, hs1, c4_ax0, c4_ax1, c4_ax2]
  rfl

/-- Corner 4: the index word the scatter reads: the flat index, moved up by 7077888 if it is negative. -/
theorem idx_c4 (x1 : S1x3x192x192x192.Idx → Spec.E) (v : Fin 7077888) :
    val_main_v275 (F := Ideal) x1 (ix2 v (0 : Fin 1)) = Spec.idxW x1 (4 : Fin 8) v := by
  -- the index array has one column: row v reads element v
  have hcol : idx_main_v275 (ix2 v (0 : Fin 1)) = ix1 v := funext fun a => match a with | ⟨0, _⟩ => rfl
  -- zero and the volume's size are broadcast constants
  have hz : val_main_v270 (F := Ideal) (ix1 v) = 0#32 := rfl
  have hn : val_main_v272 (F := Ideal) (ix1 v) = 7077888#32 := rfl
  rw [val_main_v275_apply, hcol, val_main_v274_apply, val_main_v271_apply, val_main_v273_apply, hz, hn, c4_flat]
  -- corner number 4 has the offsets (true, false, false): 4 = 4 * 1 + 2 * 0 + 0
  rfl

/-! ## Corner 5: offsets (1, 0, 1) -/

/-- Corner 5, axis 0: row 0 of the bases at column v, plus the offset 1, at most 191. -/
theorem c5_ax0 (x1 : S1x3x192x192x192.Idx → Spec.E) (v : Fin 7077888) :
    val_main_v284 (F := Ideal) x1 (ix1 v)
      = Spec.cidx true (BitVec.ofNat 32 (Spec.vh v).val) (x1 (ix5 (0 : Fin 1) (0 : Fin 3) (Spec.vh v) (Spec.vw v) (Spec.vd v))) := by
  -- the offset and the cap are broadcast constants
  have hoff : val_main_v279 (F := Ideal) (ix1 v) = Spec.off true := rfl
  have hcap : val_main_v283 (F := Ideal) (ix1 v) = 191#32 := rfl
  -- the slice [0:1, :] reshaped to one row reads row 0, column v
  have hrow : idx_main_v277 (idx_main_v278 (ix1 v)) = ix2 (0 : Fin 3) v :=
    row_eq (0 : Fin 3) v _ rfl (Nat.mod_eq_of_lt v.isLt)
  rw [val_main_v284_apply, val_main_v280_apply, val_main_v278_apply, val_main_v277_apply, hoff, hcap, hrow, base0]
  rfl

/-- Corner 5, axis 1: row 1 of the bases at column v, plus the offset 0, at most 191. -/
theorem c5_ax1 (x1 : S1x3x192x192x192.Idx → Spec.E) (v : Fin 7077888) :
    val_main_v292 (F := Ideal) x1 (ix1 v)
      = Spec.cidx false (BitVec.ofNat 32 (Spec.vw v).val) (x1 (ix5 (0 : Fin 1) (1 : Fin 3) (Spec.vh v) (Spec.vw v) (Spec.vd v))) := by
  -- the offset and the cap are broadcast constants
  have hoff : val_main_v287 (F := Ideal) (ix1 v) = Spec.off false := rfl
  have hcap : val_main_v291 (F := Ideal) (ix1 v) = 191#32 := rfl
  -- the slice [1:2, :] reshaped to one row reads row 1, column v
  have hrow : idx_main_v285 (idx_main_v286 (ix1 v)) = ix2 (1 : Fin 3) v :=
    row_eq (1 : Fin 3) v _ rfl (Nat.mod_eq_of_lt v.isLt)
  rw [val_main_v292_apply, val_main_v288_apply, val_main_v286_apply, val_main_v285_apply, hoff, hcap, hrow, base1]
  rfl

/-- Corner 5, axis 2: row 2 of the bases at column v, plus the offset 1, at most 191. -/
theorem c5_ax2 (x1 : S1x3x192x192x192.Idx → Spec.E) (v : Fin 7077888) :
    val_main_v300 (F := Ideal) x1 (ix1 v)
      = Spec.cidx true (BitVec.ofNat 32 (Spec.vd v).val) (x1 (ix5 (0 : Fin 1) (2 : Fin 3) (Spec.vh v) (Spec.vw v) (Spec.vd v))) := by
  -- the offset and the cap are broadcast constants
  have hoff : val_main_v295 (F := Ideal) (ix1 v) = Spec.off true := rfl
  have hcap : val_main_v299 (F := Ideal) (ix1 v) = 191#32 := rfl
  -- the slice [2:3, :] reshaped to one row reads row 2, column v
  have hrow : idx_main_v293 (idx_main_v294 (ix1 v)) = ix2 (2 : Fin 3) v :=
    row_eq (2 : Fin 3) v _ rfl (Nat.mod_eq_of_lt v.isLt)
  rw [val_main_v300_apply, val_main_v296_apply, val_main_v294_apply, val_main_v293_apply, hoff, hcap, hrow, base2]
  rfl

/-- Corner 5: the flat index word (i0 * 36864 + i1 * 192) + i2 of its three coordinates. -/
theorem c5_flat (x1 : S1x3x192x192x192.Idx → Spec.E) (v : Fin 7077888) :
    val_main_v316 (F := Ideal) x1 (ix1 v) = Spec.idxAt x1 true false true (Spec.vh v) (Spec.vw v) (Spec.vd v) := by
  -- the two strides are broadcast constants
  have hs0 : val_main_v311 (F := Ideal) (ix1 v) = 36864#32 := rfl
  have hs1 : val_main_v313 (F := Ideal) (ix1 v) = 192#32 := rfl
  rw [val_main_v316_apply, val_main_v315_apply, val_main_v312_apply, val_main_v314_apply, hs0, hs1, c5_ax0, c5_ax1, c5_ax2]
  rfl

/-- Corner 5: the index word the scatter reads: the flat index, moved up by 7077888 if it is negative. -/
theorem idx_c5 (x1 : S1x3x192x192x192.Idx → Spec.E) (v : Fin 7077888) :
    val_main_v323 (F := Ideal) x1 (ix2 v (0 : Fin 1)) = Spec.idxW x1 (5 : Fin 8) v := by
  -- the index array has one column: row v reads element v
  have hcol : idx_main_v323 (ix2 v (0 : Fin 1)) = ix1 v := funext fun a => match a with | ⟨0, _⟩ => rfl
  -- zero and the volume's size are broadcast constants
  have hz : val_main_v318 (F := Ideal) (ix1 v) = 0#32 := rfl
  have hn : val_main_v320 (F := Ideal) (ix1 v) = 7077888#32 := rfl
  rw [val_main_v323_apply, hcol, val_main_v322_apply, val_main_v319_apply, val_main_v321_apply, hz, hn, c5_flat]
  -- corner number 5 has the offsets (true, false, true): 5 = 4 * 1 + 2 * 0 + 1
  rfl

/-! ## Corner 6: offsets (1, 1, 0) -/

/-- Corner 6, axis 0: row 0 of the bases at column v, plus the offset 1, at most 191. -/
theorem c6_ax0 (x1 : S1x3x192x192x192.Idx → Spec.E) (v : Fin 7077888) :
    val_main_v332 (F := Ideal) x1 (ix1 v)
      = Spec.cidx true (BitVec.ofNat 32 (Spec.vh v).val) (x1 (ix5 (0 : Fin 1) (0 : Fin 3) (Spec.vh v) (Spec.vw v) (Spec.vd v))) := by
  -- the offset and the cap are broadcast constants
  have hoff : val_main_v327 (F := Ideal) (ix1 v) = Spec.off true := rfl
  have hcap : val_main_v331 (F := Ideal) (ix1 v) = 191#32 := rfl
  -- the slice [0:1, :] reshaped to one row reads row 0, column v
  have hrow : idx_main_v325 (idx_main_v326 (ix1 v)) = ix2 (0 : Fin 3) v :=
    row_eq (0 : Fin 3) v _ rfl (Nat.mod_eq_of_lt v.isLt)
  rw [val_main_v332_apply, val_main_v328_apply, val_main_v326_apply, val_main_v325_apply, hoff, hcap, hrow, base0]
  rfl

/-- Corner 6, axis 1: row 1 of the bases at column v, plus the offset 1, at most 191. -/
theorem c6_ax1 (x1 : S1x3x192x192x192.Idx → Spec.E) (v : Fin 7077888) :
    val_main_v340 (F := Ideal) x1 (ix1 v)
      = Spec.cidx true (BitVec.ofNat 32 (Spec.vw v).val) (x1 (ix5 (0 : Fin 1) (1 : Fin 3) (Spec.vh v) (Spec.vw v) (Spec.vd v))) := by
  -- the offset and the cap are broadcast constants
  have hoff : val_main_v335 (F := Ideal) (ix1 v) = Spec.off true := rfl
  have hcap : val_main_v339 (F := Ideal) (ix1 v) = 191#32 := rfl
  -- the slice [1:2, :] reshaped to one row reads row 1, column v
  have hrow : idx_main_v333 (idx_main_v334 (ix1 v)) = ix2 (1 : Fin 3) v :=
    row_eq (1 : Fin 3) v _ rfl (Nat.mod_eq_of_lt v.isLt)
  rw [val_main_v340_apply, val_main_v336_apply, val_main_v334_apply, val_main_v333_apply, hoff, hcap, hrow, base1]
  rfl

/-- Corner 6, axis 2: row 2 of the bases at column v, plus the offset 0, at most 191. -/
theorem c6_ax2 (x1 : S1x3x192x192x192.Idx → Spec.E) (v : Fin 7077888) :
    val_main_v348 (F := Ideal) x1 (ix1 v)
      = Spec.cidx false (BitVec.ofNat 32 (Spec.vd v).val) (x1 (ix5 (0 : Fin 1) (2 : Fin 3) (Spec.vh v) (Spec.vw v) (Spec.vd v))) := by
  -- the offset and the cap are broadcast constants
  have hoff : val_main_v343 (F := Ideal) (ix1 v) = Spec.off false := rfl
  have hcap : val_main_v347 (F := Ideal) (ix1 v) = 191#32 := rfl
  -- the slice [2:3, :] reshaped to one row reads row 2, column v
  have hrow : idx_main_v341 (idx_main_v342 (ix1 v)) = ix2 (2 : Fin 3) v :=
    row_eq (2 : Fin 3) v _ rfl (Nat.mod_eq_of_lt v.isLt)
  rw [val_main_v348_apply, val_main_v344_apply, val_main_v342_apply, val_main_v341_apply, hoff, hcap, hrow, base2]
  rfl

/-- Corner 6: the flat index word (i0 * 36864 + i1 * 192) + i2 of its three coordinates. -/
theorem c6_flat (x1 : S1x3x192x192x192.Idx → Spec.E) (v : Fin 7077888) :
    val_main_v364 (F := Ideal) x1 (ix1 v) = Spec.idxAt x1 true true false (Spec.vh v) (Spec.vw v) (Spec.vd v) := by
  -- the two strides are broadcast constants
  have hs0 : val_main_v359 (F := Ideal) (ix1 v) = 36864#32 := rfl
  have hs1 : val_main_v361 (F := Ideal) (ix1 v) = 192#32 := rfl
  rw [val_main_v364_apply, val_main_v363_apply, val_main_v360_apply, val_main_v362_apply, hs0, hs1, c6_ax0, c6_ax1, c6_ax2]
  rfl

/-- Corner 6: the index word the scatter reads: the flat index, moved up by 7077888 if it is negative. -/
theorem idx_c6 (x1 : S1x3x192x192x192.Idx → Spec.E) (v : Fin 7077888) :
    val_main_v371 (F := Ideal) x1 (ix2 v (0 : Fin 1)) = Spec.idxW x1 (6 : Fin 8) v := by
  -- the index array has one column: row v reads element v
  have hcol : idx_main_v371 (ix2 v (0 : Fin 1)) = ix1 v := funext fun a => match a with | ⟨0, _⟩ => rfl
  -- zero and the volume's size are broadcast constants
  have hz : val_main_v366 (F := Ideal) (ix1 v) = 0#32 := rfl
  have hn : val_main_v368 (F := Ideal) (ix1 v) = 7077888#32 := rfl
  rw [val_main_v371_apply, hcol, val_main_v370_apply, val_main_v367_apply, val_main_v369_apply, hz, hn, c6_flat]
  -- corner number 6 has the offsets (true, true, false): 6 = 4 * 1 + 2 * 1 + 0
  rfl

/-! ## Corner 7: offsets (1, 1, 1) -/

/-- Corner 7, axis 0: row 0 of the bases at column v, plus the offset 1, at most 191. -/
theorem c7_ax0 (x1 : S1x3x192x192x192.Idx → Spec.E) (v : Fin 7077888) :
    val_main_v380 (F := Ideal) x1 (ix1 v)
      = Spec.cidx true (BitVec.ofNat 32 (Spec.vh v).val) (x1 (ix5 (0 : Fin 1) (0 : Fin 3) (Spec.vh v) (Spec.vw v) (Spec.vd v))) := by
  -- the offset and the cap are broadcast constants
  have hoff : val_main_v375 (F := Ideal) (ix1 v) = Spec.off true := rfl
  have hcap : val_main_v379 (F := Ideal) (ix1 v) = 191#32 := rfl
  -- the slice [0:1, :] reshaped to one row reads row 0, column v
  have hrow : idx_main_v373 (idx_main_v374 (ix1 v)) = ix2 (0 : Fin 3) v :=
    row_eq (0 : Fin 3) v _ rfl (Nat.mod_eq_of_lt v.isLt)
  rw [val_main_v380_apply, val_main_v376_apply, val_main_v374_apply, val_main_v373_apply, hoff, hcap, hrow, base0]
  rfl

/-- Corner 7, axis 1: row 1 of the bases at column v, plus the offset 1, at most 191. -/
theorem c7_ax1 (x1 : S1x3x192x192x192.Idx → Spec.E) (v : Fin 7077888) :
    val_main_v388 (F := Ideal) x1 (ix1 v)
      = Spec.cidx true (BitVec.ofNat 32 (Spec.vw v).val) (x1 (ix5 (0 : Fin 1) (1 : Fin 3) (Spec.vh v) (Spec.vw v) (Spec.vd v))) := by
  -- the offset and the cap are broadcast constants
  have hoff : val_main_v383 (F := Ideal) (ix1 v) = Spec.off true := rfl
  have hcap : val_main_v387 (F := Ideal) (ix1 v) = 191#32 := rfl
  -- the slice [1:2, :] reshaped to one row reads row 1, column v
  have hrow : idx_main_v381 (idx_main_v382 (ix1 v)) = ix2 (1 : Fin 3) v :=
    row_eq (1 : Fin 3) v _ rfl (Nat.mod_eq_of_lt v.isLt)
  rw [val_main_v388_apply, val_main_v384_apply, val_main_v382_apply, val_main_v381_apply, hoff, hcap, hrow, base1]
  rfl

/-- Corner 7, axis 2: row 2 of the bases at column v, plus the offset 1, at most 191. -/
theorem c7_ax2 (x1 : S1x3x192x192x192.Idx → Spec.E) (v : Fin 7077888) :
    val_main_v396 (F := Ideal) x1 (ix1 v)
      = Spec.cidx true (BitVec.ofNat 32 (Spec.vd v).val) (x1 (ix5 (0 : Fin 1) (2 : Fin 3) (Spec.vh v) (Spec.vw v) (Spec.vd v))) := by
  -- the offset and the cap are broadcast constants
  have hoff : val_main_v391 (F := Ideal) (ix1 v) = Spec.off true := rfl
  have hcap : val_main_v395 (F := Ideal) (ix1 v) = 191#32 := rfl
  -- the slice [2:3, :] reshaped to one row reads row 2, column v
  have hrow : idx_main_v389 (idx_main_v390 (ix1 v)) = ix2 (2 : Fin 3) v :=
    row_eq (2 : Fin 3) v _ rfl (Nat.mod_eq_of_lt v.isLt)
  rw [val_main_v396_apply, val_main_v392_apply, val_main_v390_apply, val_main_v389_apply, hoff, hcap, hrow, base2]
  rfl

/-- Corner 7: the flat index word (i0 * 36864 + i1 * 192) + i2 of its three coordinates. -/
theorem c7_flat (x1 : S1x3x192x192x192.Idx → Spec.E) (v : Fin 7077888) :
    val_main_v410 (F := Ideal) x1 (ix1 v) = Spec.idxAt x1 true true true (Spec.vh v) (Spec.vw v) (Spec.vd v) := by
  -- the two strides are broadcast constants
  have hs0 : val_main_v405 (F := Ideal) (ix1 v) = 36864#32 := rfl
  have hs1 : val_main_v407 (F := Ideal) (ix1 v) = 192#32 := rfl
  rw [val_main_v410_apply, val_main_v409_apply, val_main_v406_apply, val_main_v408_apply, hs0, hs1, c7_ax0, c7_ax1, c7_ax2]
  rfl

/-- Corner 7: the index word the scatter reads: the flat index, moved up by 7077888 if it is negative. -/
theorem idx_c7 (x1 : S1x3x192x192x192.Idx → Spec.E) (v : Fin 7077888) :
    val_main_v417 (F := Ideal) x1 (ix2 v (0 : Fin 1)) = Spec.idxW x1 (7 : Fin 8) v := by
  -- the index array has one column: row v reads element v
  have hcol : idx_main_v417 (ix2 v (0 : Fin 1)) = ix1 v := funext fun a => match a with | ⟨0, _⟩ => rfl
  -- zero and the volume's size are broadcast constants
  have hz : val_main_v412 (F := Ideal) (ix1 v) = 0#32 := rfl
  have hn : val_main_v414 (F := Ideal) (ix1 v) = 7077888#32 := rfl
  rw [val_main_v417_apply, hcol, val_main_v416_apply, val_main_v413_apply, val_main_v415_apply, hz, hn, c7_flat]
  -- corner number 7 has the offsets (true, true, true): 7 = 4 * 1 + 2 * 1 + 1
  rfl

end Cert.RefIndex

end
-- ==== Proof.RefValue.lean ====
/-
  The reference's eight update arrays, read at a voxel.

  The reference flattens the volume: voxel number v (row-major) is the voxel (v / 36864 % 192, v / 192 % 192, v % 192).
  Its fractional parts delta = loc - floor loc form a 3 x 7077888 array (row a is axis a) and its source a
  7077888-element array.  For corner c = 4 o0 + 2 o1 + o2 it multiplies, element by element, the source by
  (w0 * w1) * w2, where w_a is row a of the fractional parts if o_a = 1 and the constant 1.0 minus that row if o_a = 0.
  Row a is taken as the slice [a:a+1, :] with its unit axis dropped.  Read at voxel number v, the product is
  `Spec.valV x0 x1 c v`: the same words multiplied in the same order.
-/
import proofs.«146513_j73220602462351_1_alg».proof.Proof.RefRead
import proofs.«146513_j73220602462351_1_alg».proof.Proof.Spec
import proofs.«146513_j73220602462351_1_alg».proof.Proof.RefLoc
import Idealize.ShloMosaic.Lib.Pipeline.Value
import Idealize.ShloMosaic.Lib.ValueIdx

noncomputable section

namespace Cert.RefValue

open Idealize.ShloMosaic Idealize.ShloMosaic.ValueIdx Cert.ReferenceIdeal Cert.ReferenceIdeal.Read

/-- Row a, column v of the 3 x 7077888 array is axis a of voxel (vh v, vw v, vd v) in the 1 x 3 x 192 x 192 x 192 array:
    a * 7077888 + v, written in the mixed radix (3, 192, 192, 192), has the digits a, v / 36864 % 192, v / 192 % 192,
    v % 192, because v < 7077888 = 192 * 36864. -/
theorem idx19 (a : Fin 3) (v : Fin 7077888) :
    idx_main_v19 (ix2 a v) = ix5 (0 : Fin 1) a (Spec.vh v) (Spec.vw v) (Spec.vd v) := by
  funext b
  refine Fin.ext ?_
  have ha : a.val < 3 := a.isLt
  have hv : v.val < 7077888 := v.isLt
  match b with
  | ⟨0, _⟩ => rfl
  | ⟨1, _⟩ => show (a.val * 7077888 + v.val) / 7077888 % 3 = a.val; omega
  | ⟨2, _⟩ => show (a.val * 7077888 + v.val) / 36864 % 192 = v.val / 36864 % 192; omega
  | ⟨3, _⟩ => show (a.val * 7077888 + v.val) / 192 % 192 = v.val / 192 % 192; omega
  | ⟨4, _⟩ => show (a.val * 7077888 + v.val) % 192 = v.val % 192; omega

/-- The fractional part on axis 0 at voxel number v: loc - floor loc, with loc the reference's location. -/
theorem delta0 (x1 : S1x3x192x192x192.Idx → Spec.E) (v : Fin 7077888) :
    val_main_v19 (F := Ideal) x1 (ix2 (0 : Fin 3) v)
      = Spec.delta (BitVec.ofNat 32 (Spec.vh v).val)
          (x1 (ix5 (0 : Fin 1) (0 : Fin 3) (Spec.vh v) (Spec.vw v) (Spec.vd v))) := by
  rw [val_main_v19_apply, val_main_v18_apply, val_main_v17_apply, idx19, RefLoc.loc0]
  rfl

/-- On axis 1. -/
theorem delta1 (x1 : S1x3x192x192x192.Idx → Spec.E) (v : Fin 7077888) :
    val_main_v19 (F := Ideal) x1 (ix2 (1 : Fin 3) v)
      = Spec.delta (BitVec.ofNat 32 (Spec.vw v).val)
          (x1 (ix5 (0 : Fin 1) (1 : Fin 3) (Spec.vh v) (Spec.vw v) (Spec.vd v))) := by
  rw [val_main_v19_apply, val_main_v18_apply, val_main_v17_apply, idx19, RefLoc.loc1]
  rfl

/-- On axis 2. -/
theorem delta2 (x1 : S1x3x192x192x192.Idx → Spec.E) (v : Fin 7077888) :
    val_main_v19 (F := Ideal) x1 (ix2 (2 : Fin 3) v)
      = Spec.delta (BitVec.ofNat 32 (Spec.vd v).val)
          (x1 (ix5 (0 : Fin 1) (2 : Fin 3) (Spec.vh v) (Spec.vw v) (Spec.vd v))) := by
  rw [val_main_v19_apply, val_main_v18_apply, val_main_v17_apply, idx19, RefLoc.loc2]
  rfl

/-- The flat number v of the 7077888-element source is voxel (vh v, vw v, vd v): the same digits. -/
theorem idx25 (v : Fin 7077888) :
    idx_main_v25 (ix1 v) = ix5 (0 : Fin 1) (0 : Fin 1) (Spec.vh v) (Spec.vw v) (Spec.vd v) := by
  funext b
  refine Fin.ext ?_
  match b with
  | ⟨0, _⟩ => rfl
  | ⟨1, _⟩ => rfl
  | ⟨2, _⟩ => rfl
  | ⟨3, _⟩ => rfl
  | ⟨4, _⟩ => rfl

/-- The flattened source at v is the source at voxel number v. -/
theorem src_apply (x0 : S1x1x192x192x192.Idx → Spec.E) (v : Fin 7077888) :
    val_main_v25 (F := Ideal) x0 (ix1 v) = x0 (ix5 (0 : Fin 1) (0 : Fin 1) (Spec.vh v) (Spec.vw v) (Spec.vd v)) := by
  rw [val_main_v25_apply, idx25]

/-- An index of the 3 x 7077888 array with row a and column v % 7077888 (= v) is (a, v). -/
theorem row_idx (a : Fin 3) (v : Fin 7077888) (i : S3x7077888.Idx) (h0 : (i 0).val = a.val)
    (h1 : (i 1).val = v.val % 7077888) : i = ix2 a v := by
  funext b
  refine Fin.ext ?_
  have hv : v.val < 7077888 := v.isLt
  match b with
  | ⟨0, _⟩ => exact h0
  | ⟨1, _⟩ => show (i 1).val = v.val; omega

/-- So the fractional parts read at such an index are delta on axis 0 of voxel v, -/
theorem delta_row0 (x1 : S1x3x192x192x192.Idx → Spec.E) (v : Fin 7077888) (i : S3x7077888.Idx)
    (h0 : (i 0).val = (0 : Fin 3).val) (h1 : (i 1).val = v.val % 7077888) :
    val_main_v19 (F := Ideal) x1 i
      = Spec.delta (BitVec.ofNat 32 (Spec.vh v).val)
          (x1 (ix5 (0 : Fin 1) (0 : Fin 3) (Spec.vh v) (Spec.vw v) (Spec.vd v))) :=
  (congrArg (val_main_v19 (F := Ideal) x1) (row_idx 0 v i h0 h1)).trans (delta0 x1 v)

/-- on axis 1, -/
theorem delta_row1 (x1 : S1x3x192x192x192.Idx → Spec.E) (v : Fin 7077888) (i : S3x7077888.Idx)
    (h0 : (i 0).val = (1 : Fin 3).val) (h1 : (i 1).val = v.val % 7077888) :
    val_main_v19 (F := Ideal) x1 i
      = Spec.delta (BitVec.ofNat 32 (Spec.vw v).val)
          (x1 (ix5 (0 : Fin 1) (1 : Fin 3) (Spec.vh v) (Spec.vw v) (Spec.vd v))) :=
  (congrArg (val_main_v19 (F := Ideal) x1) (row_idx 1 v i h0 h1)).trans (delta1 x1 v)

/-- and on axis 2. -/
theorem delta_row2 (x1 : S1x3x192x192x192.Idx → Spec.E) (v : Fin 7077888) (i : S3x7077888.Idx)
    (h0 : (i 0).val = (2 : Fin 3).val) (h1 : (i 1).val = v.val % 7077888) :
    val_main_v19 (F := Ideal) x1 i
      = Spec.delta (BitVec.ofNat 32 (Spec.vd v).val)
          (x1 (ix5 (0 : Fin 1) (2 : Fin 3) (Spec.vh v) (Spec.vw v) (Spec.vd v))) :=
  (congrArg (val_main_v19 (F := Ideal) x1) (row_idx 2 v i h0 h1)).trans (delta2 x1 v)

/-- Corner 0 = (0, 0, 0): the three weights are 1 - delta_0, 1 - delta_1, 1 - delta_2. -/
theorem val_c0 (x0 : S1x1x192x192x192.Idx → Spec.E) (x1 : S1x3x192x192x192.Idx → Spec.E) (v : Fin 7077888) :
    val_main_v71 (F := Ideal) x0 x1 (ix1 v) = Spec.valV x0 x1 (0 : Fin 8) v := by
  -- each slice [a:a+1, :] of the fractional parts, flattened, reads row a at column v
  have e0 := (val_main_v52_apply (F := Ideal) x1 (ix1 v)).trans
    ((val_main_v51_apply (F := Ideal) x1 _).trans (delta_row0 x1 v _ rfl rfl))
  have e1 := (val_main_v56_apply (F := Ideal) x1 (ix1 v)).trans
    ((val_main_v55_apply (F := Ideal) x1 _).trans (delta_row1 x1 v _ rfl rfl))
  have e2 := (val_main_v61_apply (F := Ideal) x1 (ix1 v)).trans
    ((val_main_v60_apply (F := Ideal) x1 _).trans (delta_row2 x1 v _ rfl rfl))
  -- the broadcast constant is the word 1.0
  have u0 : val_main_v53 (F := Ideal) (ix1 v) = Spec.oneW :=
    (val_main_v53_apply (F := Ideal) (ix1 v)).trans (val_main_cst_5_apply (F := Ideal) _)
  have u1 : val_main_v57 (F := Ideal) (ix1 v) = Spec.oneW :=
    (val_main_v57_apply (F := Ideal) (ix1 v)).trans (val_main_cst_6_apply (F := Ideal) _)
  have u2 : val_main_v62 (F := Ideal) (ix1 v) = Spec.oneW :=
    (val_main_v62_apply (F := Ideal) (ix1 v)).trans (val_main_cst_7_apply (F := Ideal) _)
  -- src * ((w0 * w1) * w2), one operation at a time
  rw [val_main_v71_apply, val_main_v64_apply, val_main_v59_apply, val_main_v54_apply, val_main_v58_apply, val_main_v63_apply, u0, u1, u2, e0, e1, e2, src_apply]
  rfl

/-- Corner 1 = (0, 0, 1): the three weights are 1 - delta_0, 1 - delta_1, delta_2. -/
theorem val_c1 (x0 : S1x1x192x192x192.Idx → Spec.E) (x1 : S1x3x192x192x192.Idx → Spec.E) (v : Fin 7077888) :
    val_main_v121 (F := Ideal) x0 x1 (ix1 v) = Spec.valV x0 x1 (1 : Fin 8) v := by
  -- each slice [a:a+1, :] of the fractional parts, flattened, reads row a at column v
  have e0 := (val_main_v104_apply (F := Ideal) x1 (ix1 v)).trans
    ((val_main_v103_apply (F := Ideal) x1 _).trans (delta_row0 x1 v _ rfl rfl))
  have e1 := (val_main_v108_apply (F := Ideal) x1 (ix1 v)).trans
    ((val_main_v107_apply (F := Ideal) x1 _).trans (delta_row1 x1 v _ rfl rfl))
  have e2 := (val_main_v113_apply (F := Ideal) x1 (ix1 v)).trans
    ((val_main_v112_apply (F := Ideal) x1 _).trans (delta_row2 x1 v _ rfl rfl))
  -- the broadcast constant is the word 1.0
  have u0 : val_main_v105 (F := Ideal) (ix1 v) = Spec.oneW :=
    (val_main_v105_apply (F := Ideal) (ix1 v)).trans (val_main_cst_15_apply (F := Ideal) _)
  have u1 : val_main_v109 (F := Ideal) (ix1 v) = Spec.oneW :=
    (val_main_v109_apply (F := Ideal) (ix1 v)).trans (val_main_cst_16_apply (F := Ideal) _)
  -- src * ((w0 * w1) * w2), one operation at a time
  rw [val_main_v121_apply, val_main_v114_apply, val_main_v111_apply, val_main_v106_apply, val_main_v110_apply, u0, u1, e0, e1, e2, src_apply]
  rfl

/-- Corner 2 = (0, 1, 0): the three weights are 1 - delta_0, delta_1, 1 - delta_2. -/
theorem val_c2 (x0 : S1x1x192x192x192.Idx → Spec.E) (x1 : S1x3x192x192x192.Idx → Spec.E) (v : Fin 7077888) :
    val_main_v171 (F := Ideal) x0 x1 (ix1 v) = Spec.valV x0 x1 (2 : Fin 8) v := by
  -- each slice [a:a+1, :] of the fractional parts, flattened, reads row a at column v
  have e0 := (val_main_v154_apply (F := Ideal) x1 (ix1 v)).trans
    ((val_main_v153_apply (F := Ideal) x1 _).trans (delta_row0 x1 v _ rfl rfl))
  have e1 := (val_main_v158_apply (F := Ideal) x1 (ix1 v)).trans
    ((val_main_v157_apply (F := Ideal) x1 _).trans (delta_row1 x1 v _ rfl rfl))
  have e2 := (val_main_v161_apply (F := Ideal) x1 (ix1 v)).trans
    ((val_main_v160_apply (F := Ideal) x1 _).trans (delta_row2 x1 v _ rfl rfl))
  -- the broadcast constant is the word 1.0
  have u0 : val_main_v155 (F := Ideal) (ix1 v) = Spec.oneW :=
    (val_main_v155_apply (F := Ideal) (ix1 v)).trans (val_main_cst_24_apply (F := Ideal) _)
  have u2 : val_main_v162 (F := Ideal) (ix1 v) = Spec.oneW :=
    (val_main_v162_apply (F := Ideal) (ix1 v)).trans (val_main_cst_25_apply (F := Ideal) _)
  -- src * ((w0 * w1) * w2), one operation at a time
  rw [val_main_v171_apply, val_main_v164_apply, val_main_v159_apply, val_main_v156_apply, val_main_v163_apply, u0, u2, e0, e1, e2, src_apply]
  rfl

/-- Corner 3 = (0, 1, 1): the three weights are 1 - delta_0, delta_1, delta_2. -/
theorem val_c3 (x0 : S1x1x192x192x192.Idx → Spec.E) (x1 : S1x3x192x192x192.Idx → Spec.E) (v : Fin 7077888) :
    val_main_v219 (F := Ideal) x0 x1 (ix1 v) = Spec.valV x0 x1 (3 : Fin 8) v := by
  -- each slice [a:a+1, :] of the fractional parts, flattened, reads row a at column v
  have e0 := (val_main_v204_apply (F := Ideal) x1 (ix1 v)).trans
    ((val_main_v203_apply (F := Ideal) x1 _).trans (delta_row0 x1 v _ rfl rfl))
  have e1 := (val_main_v208_apply (F := Ideal) x1 (ix1 v)).trans
    ((val_main_v207_apply (F := Ideal) x1 _).trans (delta_row1 x1 v _ rfl rfl))
  have e2 := (val_main_v211_apply (F := Ideal) x1 (ix1 v)).trans
    ((val_main_v210_apply (F := Ideal) x1 _).trans (delta_row2 x1 v _ rfl rfl))
  -- the broadcast constant is the word 1.0
  have u0 : val_main_v205 (F := Ideal) (ix1 v) = Spec.oneW :=
    (val_main_v205_apply (F := Ideal) (ix1 v)).trans (val_main_cst_33_apply (F := Ideal) _)
  -- src * ((w0 * w1) * w2), one operation at a time
  rw [val_main_v219_apply, val_main_v212_apply, val_main_v209_apply, val_main_v206_apply, u0, e0, e1, e2, src_apply]
  rfl

/-- Corner 4 = (1, 0, 0): the three weights are delta_0, 1 - delta_1, 1 - delta_2. -/
theorem val_c4 (x0 : S1x1x192x192x192.Idx → Spec.E) (x1 : S1x3x192x192x192.Idx → Spec.E) (v : Fin 7077888) :
    val_main_v269 (F := Ideal) x0 x1 (ix1 v) = Spec.valV x0 x1 (4 : Fin 8) v := by
  -- each slice [a:a+1, :] of the fractional parts, flattened, reads row a at column v
  have e0 := (val_main_v252_apply (F := Ideal) x1 (ix1 v)).trans
    ((val_main_v251_apply (F := Ideal) x1 _).trans (delta_row0 x1 v _ rfl rfl))
  have e1 := (val_main_v254_apply (F := Ideal) x1 (ix1 v)).trans
    ((val_main_v253_apply (F := Ideal) x1 _).trans (delta_row1 x1 v _ rfl rfl))
  have e2 := (val_main_v259_apply (F := Ideal) x1 (ix1 v)).trans
    ((val_main_v258_apply (F := Ideal) x1 _).trans (delta_row2 x1 v _ rfl rfl))
  -- the broadcast constant is the word 1.0
  have u1 : val_main_v255 (F := Ideal) (ix1 v) = Spec.oneW :=
    (val_main_v255_apply (F := Ideal) (ix1 v)).trans (val_main_cst_41_apply (F := Ideal) _)
  have u2 : val_main_v260 (F := Ideal) (ix1 v) = Spec.oneW :=
    (val_main_v260_apply (F := Ideal) (ix1 v)).trans (val_main_cst_42_apply (F := Ideal) _)
  -- src * ((w0 * w1) * w2), one operation at a time
  rw [val_main_v269_apply, val_main_v262_apply, val_main_v257_apply, val_main_v256_apply, val_main_v261_apply, u1, u2, e0, e1, e2, src_apply]
  rfl

/-- Corner 5 = (1, 0, 1): the three weights are delta_0, 1 - delta_1, delta_2. -/
theorem val_c5 (x0 : S1x1x192x192x192.Idx → Spec.E) (x1 : S1x3x192x192x192.Idx → Spec.E) (v : Fin 7077888) :
    val_main_v317 (F := Ideal) x0 x1 (ix1 v) = Spec.valV x0 x1 (5 : Fin 8) v := by
  -- each slice [a:a+1, :] of the fractional parts, flattened, reads row a at column v
  have e0 := (val_main_v302_apply (F := Ideal) x1 (ix1 v)).trans
    ((val_main_v301_apply (F := Ideal) x1 _).trans (delta_row0 x1 v _ rfl rfl))
  have e1 := (val_main_v304_apply (F := Ideal) x1 (ix1 v)).trans
    ((val_main_v303_apply (F := Ideal) x1 _).trans (delta_row1 x1 v _ rfl rfl))
  have e2 := (val_main_v309_apply (F := Ideal) x1 (ix1 v)).trans
    ((val_main_v308_apply (F := Ideal) x1 _).trans (delta_row2 x1 v _ rfl rfl))
  -- the broadcast constant is the word 1.0
  have u1 : val_main_v305 (F := Ideal) (ix1 v) = Spec.oneW :=
    (val_main_v305_apply (F := Ideal) (ix1 v)).trans (val_main_cst_50_apply (F := Ideal) _)
  -- src * ((w0 * w1) * w2), one operation at a time
  rw [val_main_v317_apply, val_main_v310_apply, val_main_v307_apply, val_main_v306_apply, u1, e0, e1, e2, src_apply]
  rfl

/-- Corner 6 = (1, 1, 0): the three weights are delta_0, delta_1, 1 - delta_2. -/
theorem val_c6 (x0 : S1x1x192x192x192.Idx → Spec.E) (x1 : S1x3x192x192x192.Idx → Spec.E) (v : Fin 7077888) :
    val_main_v365 (F := Ideal) x0 x1 (ix1 v) = Spec.valV x0 x1 (6 : Fin 8) v := by
  -- each slice [a:a+1, :] of the fractional parts, flattened, reads row a at column v
  have e0 := (val_main_v350_apply (F := Ideal) x1 (ix1 v)).trans
    ((val_main_v349_apply (F := Ideal) x1 _).trans (delta_row0 x1 v _ rfl rfl))
  have e1 := (val_main_v352_apply (F := Ideal) x1 (ix1 v)).trans
    ((val_main_v351_apply (F := Ideal) x1 _).trans (delta_row1 x1 v _ rfl rfl))
  have e2 := (val_main_v355_apply (F := Ideal) x1 (ix1 v)).trans
    ((val_main_v354_apply (F := Ideal) x1 _).trans (delta_row2 x1 v _ rfl rfl))
  -- the broadcast constant is the word 1.0
  have u2 : val_main_v356 (F := Ideal) (ix1 v) = Spec.oneW :=
    (val_main_v356_apply (F := Ideal) (ix1 v)).trans (val_main_cst_58_apply (F := Ideal) _)
  -- src * ((w0 * w1) * w2), one operation at a time
  rw [val_main_v365_apply, val_main_v358_apply, val_main_v353_apply, val_main_v357_apply, u2, e0, e1, e2, src_apply]
  rfl

/-- Corner 7 = (1, 1, 1): the three weights are delta_0, delta_1, delta_2. -/
theorem val_c7 (x0 : S1x1x192x192x192.Idx → Spec.E) (x1 : S1x3x192x192x192.Idx → Spec.E) (v : Fin 7077888) :
    val_main_v411 (F := Ideal) x0 x1 (ix1 v) = Spec.valV x0 x1 (7 : Fin 8) v := by
  -- each slice [a:a+1, :] of the fractional parts, flattened, reads row a at column v
  have e0 := (val_main_v398_apply (F := Ideal) x1 (ix1 v)).trans
    ((val_main_v397_apply (F := Ideal) x1 _).trans (delta_row0 x1 v _ rfl rfl))
  have e1 := (val_main_v400_apply (F := Ideal) x1 (ix1 v)).trans
    ((val_main_v399_apply (F := Ideal) x1 _).trans (delta_row1 x1 v _ rfl rfl))
  have e2 := (val_main_v403_apply (F := Ideal) x1 (ix1 v)).trans
    ((val_main_v402_apply (F := Ideal) x1 _).trans (delta_row2 x1 v _ rfl rfl))
  -- src * ((w0 * w1) * w2), one operation at a time
  rw [val_main_v411_apply, val_main_v404_apply, val_main_v401_apply, e0, e1, e2, src_apply]
  rfl

end Cert.RefValue

end
-- ==== Proof.Bridge.lean ====
/-
  The two programs' results are one function of the arguments.

  The kernel's program scatter-adds, once, the 8 * 192^3 corner values at the 8 * 192^3 corner index words, laid out
  corner by corner; the reference scatter-adds corner 0's 192^3 values, then corner 1's, ... then corner 7's.  Entry
  c * 192^3 + v of the kernel's flattened arrays is corner c of voxel number v, and both programs compute the same index
  word and the same value for it (`Spec.idxW`, `Spec.valV`); so the one scatter-add of the stacked arrays is the eight
  successive ones (sums of extended reals may be regrouped and reordered freely).
-/
import proofs.«146513_j73220602462351_1_alg».proof.Proof.RefRead
import proofs.«146513_j73220602462351_1_alg».proof.Proof.KernelTail
import proofs.«146513_j73220602462351_1_alg».proof.Proof.Spec
import proofs.«146513_j73220602462351_1_alg».proof.Proof.LibScatterStack
import proofs.«146513_j73220602462351_1_alg».proof.Proof.RefIndex
import proofs.«146513_j73220602462351_1_alg».proof.Proof.RefValue
import Idealize.ShloMosaic.Lib.Pipeline.Value
import Idealize.ShloMosaic.Lib.ValueIdx

noncomputable section

namespace Cert.Bridge

open Idealize.ShloMosaic Idealize.ShloMosaic.ValueIdx

/-- Entry c * 192^3 + v of the flattened [8, 192, 192, 192] array is the array at corner c and voxel number v's
    coordinates. -/
theorem flat8_apply {α : Type} (A : Cert.KernelIdeal.S8x192x192x192.Idx → α) (c : Fin 8) (v : Fin 7077888) :
    shapeCast Cert.KernelIdeal.S56623104 A Cert.KernelIdeal.Facts₀.shapeCasts_S8x192x192x192_S56623104
        (ix1 (⟨c.val * 7077888 + v.val, by have := c.isLt; have := v.isLt; omega⟩ : Fin 56623104))
      = A (ix4 c (Spec.vh v) (Spec.vw v) (Spec.vd v)) :=
  shapeCast_apply A Cert.KernelIdeal.Facts₀.shapeCasts_S8x192x192x192_S56623104 _ (ix4 c (Spec.vh v) (Spec.vw v) (Spec.vd v))
    (by
      rewrite [Shape.rowMajor_val_four, Shape.rowMajor_val_one]
      have hc := c.isLt; have hv := v.isLt
      show ((c.val * 192 + v.val / 36864 % 192) * 192 + v.val / 192 % 192) * 192 + v.val % 192 = c.val * 7077888 + v.val
      omega)

section
variable (A2 : Cert.KernelIdeal.S8x192x192x192.Idx → BitVec 32) (A3 : Cert.KernelIdeal.S8x192x192x192.Idx → Ideal .f32)
  (x0 : Cert.ReferenceIdeal.S1x1x192x192x192.Idx → Spec.E) (x1 : Cert.ReferenceIdeal.S1x3x192x192x192.Idx → Spec.E)

/-- The kernel's scatter indices: the flattened index words, a negative one moved up, as a column. -/
def IK : IVec Cert.KernelIdeal.S56623104x1 32 :=
  broadcastInDim Cert.KernelIdeal.S56623104x1 ![0] Cert.KernelIdeal.Facts₀.bcast_S56623104_S56623104x1_0
    (select
      (cmpi .slt (shapeCast Cert.KernelIdeal.S56623104 A2 Cert.KernelIdeal.Facts₀.shapeCasts_S8x192x192x192_S56623104)
        (broadcastInDim Cert.KernelIdeal.S56623104 ![] Cert.KernelIdeal.Facts₀.bcast_S_S56623104 (constantI Cert.KernelIdeal.S_ 32 0#32)))
      (addi (shapeCast Cert.KernelIdeal.S56623104 A2 Cert.KernelIdeal.Facts₀.shapeCasts_S8x192x192x192_S56623104)
        (broadcastInDim Cert.KernelIdeal.S56623104 ![] Cert.KernelIdeal.Facts₀.bcast_S_S56623104 (constantI Cert.KernelIdeal.S_ 32 7077888#32)))
      (shapeCast Cert.KernelIdeal.S56623104 A2 Cert.KernelIdeal.Facts₀.shapeCasts_S8x192x192x192_S56623104))

/-- The kernel's scatter index for corner c of voxel v is the specification's word. -/
theorem IK_apply (h2 : ∀ (cr : Fin 8) (h w d : Fin 192), A2 (ix4 cr h w d) = Spec.idxAt x1 (Spec.b0 cr) (Spec.b1 cr) (Spec.b2 cr) h w d)
    (c : Fin 8) (v : Fin 7077888) :
    IK A2 (ix2 (⟨c.val * 7077888 + v.val, by have := c.isLt; have := v.isLt; omega⟩ : Fin 56623104) (0 : Fin 1))
      = Spec.idxW x1 c v := by
  unfold IK
  refine (broadcastInDim_apply _ Cert.KernelIdeal.Facts₀.bcast_S56623104_S56623104x1_0 _ _
    (ix1 (⟨c.val * 7077888 + v.val, by have := c.isLt; have := v.isLt; omega⟩ : Fin 56623104)) (fun a => match a with
      | ⟨0, _⟩ => by show c.val * 7077888 + v.val = if (56623104 : Nat) = 1 then 0 else c.val * 7077888 + v.val; rw [if_neg (by decide)])).trans ?_
  show Spec.wrap (shapeCast Cert.KernelIdeal.S56623104 A2 Cert.KernelIdeal.Facts₀.shapeCasts_S8x192x192x192_S56623104 _) = _
  rw [flat8_apply, h2]
  rfl

/-- The kernel's updates for corner c of voxel v are the specification's value. -/
theorem UK_apply (h3 : ∀ (cr : Fin 8) (h w d : Fin 192), A3 (ix4 cr h w d) = Spec.valAt x0 x1 (Spec.b0 cr) (Spec.b1 cr) (Spec.b2 cr) h w d)
    (c : Fin 8) (v : Fin 7077888) :
    shapeCast Cert.KernelIdeal.S56623104 A3 Cert.KernelIdeal.Facts₀.shapeCasts_S8x192x192x192_S56623104
        (ix1 (⟨c.val * 7077888 + v.val, by have := c.isLt; have := v.isLt; omega⟩ : Fin 56623104))
      = Spec.valV x0 x1 c v := by
  rw [flat8_apply, h3]
  rfl

/-- The reference's eight scatter index arrays, by corner, -/
def IR : Fin 8 → IVec Cert.ReferenceIdeal.S7077888x1 32
  | ⟨0, _⟩ => Cert.ReferenceIdeal.Read.val_main_v77 (F := Ideal) x1
  | ⟨1, _⟩ => Cert.ReferenceIdeal.Read.val_main_v127 (F := Ideal) x1
  | ⟨2, _⟩ => Cert.ReferenceIdeal.Read.val_main_v177 (F := Ideal) x1
  | ⟨3, _⟩ => Cert.ReferenceIdeal.Read.val_main_v225 (F := Ideal) x1
  | ⟨4, _⟩ => Cert.ReferenceIdeal.Read.val_main_v275 (F := Ideal) x1
  | ⟨5, _⟩ => Cert.ReferenceIdeal.Read.val_main_v323 (F := Ideal) x1
  | ⟨6, _⟩ => Cert.ReferenceIdeal.Read.val_main_v371 (F := Ideal) x1
  | ⟨7, _⟩ => Cert.ReferenceIdeal.Read.val_main_v417 (F := Ideal) x1

/-- and its eight update arrays. -/
def UR : Fin 8 → Cert.ReferenceIdeal.S7077888.Idx → Ideal .f32
  | ⟨0, _⟩ => Cert.ReferenceIdeal.Read.val_main_v71 (F := Ideal) x0 x1
  | ⟨1, _⟩ => Cert.ReferenceIdeal.Read.val_main_v121 (F := Ideal) x0 x1
  | ⟨2, _⟩ => Cert.ReferenceIdeal.Read.val_main_v171 (F := Ideal) x0 x1
  | ⟨3, _⟩ => Cert.ReferenceIdeal.Read.val_main_v219 (F := Ideal) x0 x1
  | ⟨4, _⟩ => Cert.ReferenceIdeal.Read.val_main_v269 (F := Ideal) x0 x1
  | ⟨5, _⟩ => Cert.ReferenceIdeal.Read.val_main_v317 (F := Ideal) x0 x1
  | ⟨6, _⟩ => Cert.ReferenceIdeal.Read.val_main_v365 (F := Ideal) x0 x1
  | ⟨7, _⟩ => Cert.ReferenceIdeal.Read.val_main_v411 (F := Ideal) x0 x1

/-- Corner by corner the reference's index array holds the specification's words, -/
theorem IR_apply (c : Fin 8) (v : Fin 7077888) : IR x1 c (ix2 v (0 : Fin 1)) = Spec.idxW x1 c v :=
  match c with
  | ⟨0, _⟩ => Cert.RefIndex.idx_c0 x1 v
  | ⟨1, _⟩ => Cert.RefIndex.idx_c1 x1 v
  | ⟨2, _⟩ => Cert.RefIndex.idx_c2 x1 v
  | ⟨3, _⟩ => Cert.RefIndex.idx_c3 x1 v
  | ⟨4, _⟩ => Cert.RefIndex.idx_c4 x1 v
  | ⟨5, _⟩ => Cert.RefIndex.idx_c5 x1 v
  | ⟨6, _⟩ => Cert.RefIndex.idx_c6 x1 v
  | ⟨7, _⟩ => Cert.RefIndex.idx_c7 x1 v

/-- and its update array the specification's values. -/
theorem UR_apply (c : Fin 8) (v : Fin 7077888) : UR x0 x1 c (ix1 v) = Spec.valV x0 x1 c v :=
  match c with
  | ⟨0, _⟩ => Cert.RefValue.val_c0 x0 x1 v
  | ⟨1, _⟩ => Cert.RefValue.val_c1 x0 x1 v
  | ⟨2, _⟩ => Cert.RefValue.val_c2 x0 x1 v
  | ⟨3, _⟩ => Cert.RefValue.val_c3 x0 x1 v
  | ⟨4, _⟩ => Cert.RefValue.val_c4 x0 x1 v
  | ⟨5, _⟩ => Cert.RefValue.val_c5 x0 x1 v
  | ⟨6, _⟩ => Cert.RefValue.val_c6 x0 x1 v
  | ⟨7, _⟩ => Cert.RefValue.val_c7 x0 x1 v

/-- The kernel program's result is the reference's. -/
theorem bridge
    (h2 : ∀ (cr : Fin 8) (h w d : Fin 192), A2 (ix4 cr h w d) = Spec.idxAt x1 (Spec.b0 cr) (Spec.b1 cr) (Spec.b2 cr) h w d)
    (h3 : ∀ (cr : Fin 8) (h w d : Fin 192), A3 (ix4 cr h w d) = Spec.valAt x0 x1 (Spec.b0 cr) (Spec.b1 cr) (Spec.b2 cr) h w d) :
    Cert.KernelTail.tail A2 A3 = Cert.ReferenceIdeal.Read.val_main_v419 (F := Ideal) x0 x1 := by
  have hs := Cert.LibScatterStack.scatterAdd_stack8 (N := 7077888) (M := 56623104) (w := 32) (by norm_num)
    Cert.ReferenceIdeal.Facts₀.scatter_S7077888_S7077888x1_S7077888_n_0_0_1_wf
    Cert.KernelIdeal.Facts₀.scatter_S7077888_S56623104x1_S56623104_n_0_0_1_wf
    (broadcastInDim Cert.KernelIdeal.S7077888 ![] Cert.KernelIdeal.Facts₀.bcast_S_S7077888 (constant (F := Ideal) Cert.KernelIdeal.S_ .f32 0x00000000#32))
    (IR x1) (UR x0 x1) (IK A2)
    (shapeCast Cert.KernelIdeal.S56623104 A3 Cert.KernelIdeal.Facts₀.shapeCasts_S8x192x192x192_S56623104)
    (fun c v => (IK_apply A2 x1 h2 c v).trans (IR_apply x1 c v).symm)
    (fun c v => (UK_apply A3 x0 x1 h3 c v).trans (UR_apply x0 x1 c v).symm)
  unfold Cert.KernelTail.tail Cert.ReferenceIdeal.Read.val_main_v419
  refine congrArg (fun y => shapeCast _ y _) ?_
  exact hs

end

end Cert.Bridge

end
-- ==== Proof.RefOpsAll.lean ====
/-
  The reference's @main as one list: its nine windows of host operations, joined in order.
-/
import proofs.«146513_j73220602462351_1_alg».proof.Proof.RefOps

noncomputable section

namespace Cert.ReferenceIdeal.Value

open Cert.ReferenceIdeal Idealize.ShloMosaic Idealize.ShloMosaic.StableHlo

/-- All 492 host operations of @main, in order. -/
abbrev opsAll {F : FTy → Type} [FloatOps F] : List (HloOp τ sig (Elt F)) :=
  opsW0 ++ (opsW1 ++ (opsW2 ++ (opsW3 ++ (opsW4 ++ (opsW5 ++ (opsW6 ++ (opsW7 ++ opsW8)))))))

end Cert.ReferenceIdeal.Value

end
-- ==== Proof.RefRunMain.lean ====
/-
  The reference program's run, window by window.

  @main is printed as nine consecutive windows of host operations.  Each window is the straight line of its own
  operations; so @main is the straight line of the nine lists joined, and every weakly fair execution of it terminates
  with each buffer at the fold of the operations' results over the launch contents.
-/
import proofs.«146513_j73220602462351_1_alg».proof.Proof.RefOpsAll

noncomputable section

namespace Cert.RefRunMain

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! ## Each window is the line of its operations -/

set_option maxRecDepth 8192 in
set_option maxHeartbeats 4000000 in
theorem part0_eq (c : Dev nD) : main_part0 (F := F) c = seq opsW0 := rfl
set_option maxRecDepth 8192 in
set_option maxHeartbeats 4000000 in
theorem part1_eq (c : Dev nD) : main_part1 (F := F) c = seq opsW1 := rfl
set_option maxRecDepth 8192 in
set_option maxHeartbeats 4000000 in
theorem part2_eq (c : Dev nD) : main_part2 (F := F) c = seq opsW2 := rfl
set_option maxRecDepth 8192 in
set_option maxHeartbeats 4000000 in
theorem part3_eq (c : Dev nD) : main_part3 (F := F) c = seq opsW3 := rfl
set_option maxRecDepth 8192 in
set_option maxHeartbeats 4000000 in
theorem part4_eq (c : Dev nD) : main_part4 (F := F) c = seq opsW4 := rfl
set_option maxRecDepth 8192 in
set_option maxHeartbeats 4000000 in
theorem part5_eq (c : Dev nD) : main_part5 (F := F) c = seq opsW5 := rfl
set_option maxRecDepth 8192 in
set_option maxHeartbeats 4000000 in
theorem part6_eq (c : Dev nD) : main_part6 (F := F) c = seq opsW6 := rfl
set_option maxRecDepth 8192 in
set_option maxHeartbeats 4000000 in
theorem part7_eq (c : Dev nD) : main_part7 (F := F) c = seq opsW7 := rfl
set_option maxRecDepth 8192 in
set_option maxHeartbeats 4000000 in
theorem part8_eq (c : Dev nD) : main_part8 (F := F) c = seq opsW8 := rfl

/-- @main runs its windows in order: it is the line of all the operations. -/
theorem main_eq (c : Dev nD) : main (F := F) c = seq (opsAll (F := F)) := by
  have h : main (F := F) c = (main_part0 c >>= fun _ => main_part1 c >>= fun _ => main_part2 c >>= fun _ => main_part3 c >>= fun _ =>
      main_part4 c >>= fun _ => main_part5 c >>= fun _ => main_part6 c >>= fun _ => main_part7 c >>= fun _ => main_part8 c) := rfl
  rw [h, part0_eq, part1_eq, part2_eq, part3_eq, part4_eq, part5_eq, part6_eq, part7_eq, part8_eq]
  simp only [opsAll, seq_append]

/-! ## Every operation touches TensorCore buffers only, and allocates nothing -/

theorem ops_sub : (opsAll : List (HloOp τ sig (Elt F))).Forall fun op => op.bufs ⊆ tcRefs τ sig :=
  List.forall_iff_forall_mem.mpr fun op h => by
    simp only [opsAll, List.mem_append] at h
    rcases h with h | h | h | h | h | h | h | h | h
    · exact List.forall_iff_forall_mem.mp sub0 op h
    · exact List.forall_iff_forall_mem.mp sub1 op h
    · exact List.forall_iff_forall_mem.mp sub2 op h
    · exact List.forall_iff_forall_mem.mp sub3 op h
    · exact List.forall_iff_forall_mem.mp sub4 op h
    · exact List.forall_iff_forall_mem.mp sub5 op h
    · exact List.forall_iff_forall_mem.mp sub6 op h
    · exact List.forall_iff_forall_mem.mp sub7 op h
    · exact List.forall_iff_forall_mem.mp sub8 op h

theorem fresh0 : ∀ op ∈ (opsW0 : List (HloOp τ sig (Elt F))), op.fresh = ∅ := by
  intro _ h; (repeat (cases h with | head => rfl | tail _ h => ?_)); exact nomatch h
theorem fresh1 : ∀ op ∈ (opsW1 : List (HloOp τ sig (Elt F))), op.fresh = ∅ := by
  intro _ h; (repeat (cases h with | head => rfl | tail _ h => ?_)); exact nomatch h
theorem fresh2 : ∀ op ∈ (opsW2 : List (HloOp τ sig (Elt F))), op.fresh = ∅ := by
  intro _ h; (repeat (cases h with | head => rfl | tail _ h => ?_)); exact nomatch h
theorem fresh3 : ∀ op ∈ (opsW3 : List (HloOp τ sig (Elt F))), op.fresh = ∅ := by
  intro _ h; (repeat (cases h with | head => rfl | tail _ h => ?_)); exact nomatch h
theorem fresh4 : ∀ op ∈ (opsW4 : List (HloOp τ sig (Elt F))), op.fresh = ∅ := by
  intro _ h; (repeat (cases h with | head => rfl | tail _ h => ?_)); exact nomatch h
theorem fresh5 : ∀ op ∈ (opsW5 : List (HloOp τ sig (Elt F))), op.fresh = ∅ := by
  intro _ h; (repeat (cases h with | head => rfl | tail _ h => ?_)); exact nomatch h
theorem fresh6 : ∀ op ∈ (opsW6 : List (HloOp τ sig (Elt F))), op.fresh = ∅ := by
  intro _ h; (repeat (cases h with | head => rfl | tail _ h => ?_)); exact nomatch h
theorem fresh7 : ∀ op ∈ (opsW7 : List (HloOp τ sig (Elt F))), op.fresh = ∅ := by
  intro _ h; (repeat (cases h with | head => rfl | tail _ h => ?_)); exact nomatch h
theorem fresh8 : ∀ op ∈ (opsW8 : List (HloOp τ sig (Elt F))), op.fresh = ∅ := by
  intro _ h; (repeat (cases h with | head => rfl | tail _ h => ?_)); exact nomatch h

theorem ops_fresh : ∀ op ∈ (opsAll : List (HloOp τ sig (Elt F))), op.fresh = ∅ := fun op h => by
  simp only [opsAll, List.mem_append] at h
  rcases h with h | h | h | h | h | h | h | h | h
  · exact fresh0 op h
  · exact fresh1 op h
  · exact fresh2 op h
  · exact fresh3 op h
  · exact fresh4 op h
  · exact fresh5 op h
  · exact fresh6 op h
  · exact fresh7 op h
  · exact fresh8 op h

/-! ## The run -/

/-- Every weakly fair execution of @main terminates, and every final state has each TensorCore buffer at the fold of
    the operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (opsAll (F := F)) (launchContents m d) (Proc.devRef .tc b) :=
  run_seq scopedRefs_eq scopedSems_eq defs main (fun _ => opsAll) main_eq (fun _ => ops_sub) m ρ (fun _ => ops_fresh)

end Cert.RefRunMain

end
-- ==== Proof.RefRunValue.lean ====
/-
  What the reference's operations leave at its result buffer.

  @main is a straight line of 492 host operations; `after ops V` is the contents of every buffer once the operations
  `ops` have run in order from the contents `V`.  Each operation writes one buffer, a function of the buffers it reads,
  so the contents of a buffer at the end are the composition of those functions: the term `val_main_v419` of the two
  argument buffers.  The line is cut into its nine windows and the composition is done window by window.  Between two
  windows only a few buffers matter (those written before the cut
  and read after it): the state at a cut is "each of these buffers holds its `val_main_vN` of the arguments", and one
  step lemma per window takes the state at its start to the state at its end: a buffer written in the window is the
  window's operations composed, read off the buffers of the state; a buffer written earlier is not touched by the
  window.  The run of all nine windows is then the nine steps in a row.
-/
import proofs.«146513_j73220602462351_1_alg».proof.Proof.RefOpsAll
import proofs.«146513_j73220602462351_1_alg».proof.Proof.RefRead

noncomputable section

namespace Cert.RefRunValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The contents of the source argument and of the flow argument. -/
abbrev X0 (F : FTy → Type) [FloatOps F] : Type := (⟨S1x1x192x192x192, .f32⟩ : BufTy).Contents (Elt F)
abbrev X1 (F : FTy → Type) [FloatOps F] : Type := (⟨S1x3x192x192x192, .f32⟩ : BufTy).Contents (Elt F)

/-! ## Window 0: operations 1 … 60 -/

/-- The state at the end of window 0: each buffer that a later window reads holds its term of the arguments. -/
structure St0 (W : Valuation τ sig (Elt F)) (x0 : X0 F) (x1 : X1 F) : Prop where
  c : W (Proc.devRef .tc main_c) = val_main_c (F := F)
  v19 : W (Proc.devRef .tc main_v19) = val_main_v19 (F := F) x1
  v24 : W (Proc.devRef .tc main_v24) = val_main_v24 (F := F) x1
  v25 : W (Proc.devRef .tc main_v25) = val_main_v25 (F := F) x0
  v26 : W (Proc.devRef .tc main_v26) = val_main_v26 (F := F)
  v34 : W (Proc.devRef .tc main_v34) = val_main_v34 (F := F) x1
  v42 : W (Proc.devRef .tc main_v42) = val_main_v42 (F := F) x1
  v50 : W (Proc.devRef .tc main_v50) = val_main_v50 (F := F) x1
  v52 : W (Proc.devRef .tc main_v52) = val_main_v52 (F := F) x1

/-- Operation 1's buffer at the end of window 0: the window's operations composed (a constant). -/
theorem w0_c (W : Valuation τ sig (Elt F)) (x0 : X0 F) (x1 : X1 F)
    (h0 : W (Proc.devRef .tc main_arg0) = x0) (h1 : W (Proc.devRef .tc main_arg1) = x1) :
    after (opsW0 (F := F)) W (Proc.devRef .tc main_c) = val_main_c (F := F) := by
  after_results_simp
  rfl

/-- Operation 23's buffer at the end of window 0: the window's operations composed, read off arg1. -/
theorem w0_v19 (W : Valuation τ sig (Elt F)) (x0 : X0 F) (x1 : X1 F)
    (h0 : W (Proc.devRef .tc main_arg0) = x0) (h1 : W (Proc.devRef .tc main_arg1) = x1) :
    after (opsW0 (F := F)) W (Proc.devRef .tc main_v19) = val_main_v19 (F := F) x1 := by
  after_results_simp
  rw [h1]
  rfl

/-- Operation 28's buffer at the end of window 0: the window's operations composed, read off arg1. -/
theorem w0_v24 (W : Valuation τ sig (Elt F)) (x0 : X0 F) (x1 : X1 F)
    (h0 : W (Proc.devRef .tc main_arg0) = x0) (h1 : W (Proc.devRef .tc main_arg1) = x1) :
    after (opsW0 (F := F)) W (Proc.devRef .tc main_v24) = val_main_v24 (F := F) x1 := by
  after_results_simp
  rw [h1]
  rfl

/-- Operation 29's buffer at the end of window 0: the window's operations composed, read off arg0. -/
theorem w0_v25 (W : Valuation τ sig (Elt F)) (x0 : X0 F) (x1 : X1 F)
    (h0 : W (Proc.devRef .tc main_arg0) = x0) (h1 : W (Proc.devRef .tc main_arg1) = x1) :
    after (opsW0 (F := F)) W (Proc.devRef .tc main_v25) = val_main_v25 (F := F) x0 := by
  after_results_simp
  rw [h0]
  rfl

/-- Operation 31's buffer at the end of window 0: the window's operations composed (a constant). -/
theorem w0_v26 (W : Valuation τ sig (Elt F)) (x0 : X0 F) (x1 : X1 F)
    (h0 : W (Proc.devRef .tc main_arg0) = x0) (h1 : W (Proc.devRef .tc main_arg1) = x1) :
    after (opsW0 (F := F)) W (Proc.devRef .tc main_v26) = val_main_v26 (F := F) := by
  after_results_simp
  rfl

/-- Operation 40's buffer at the end of window 0: the window's operations composed, read off arg1. -/
theorem w0_v34 (W : Valuation τ sig (Elt F)) (x0 : X0 F) (x1 : X1 F)
    (h0 : W (Proc.devRef .tc main_arg0) = x0) (h1 : W (Proc.devRef .tc main_arg1) = x1) :
    after (opsW0 (F := F)) W (Proc.devRef .tc main_v34) = val_main_v34 (F := F) x1 := by
  after_results_simp
  rw [h1]
  rfl

/-- Operation 49's buffer at the end of window 0: the window's operations composed, read off arg1. -/
theorem w0_v42 (W : Valuation τ sig (Elt F)) (x0 : X0 F) (x1 : X1 F)
    (h0 : W (Proc.devRef .tc main_arg0) = x0) (h1 : W (Proc.devRef .tc main_arg1) = x1) :
    after (opsW0 (F := F)) W (Proc.devRef .tc main_v42) = val_main_v42 (F := F) x1 := by
  after_results_simp
  rw [h1]
  rfl

/-- Operation 58's buffer at the end of window 0: the window's operations composed, read off arg1. -/
theorem w0_v50 (W : Valuation τ sig (Elt F)) (x0 : X0 F) (x1 : X1 F)
    (h0 : W (Proc.devRef .tc main_arg0) = x0) (h1 : W (Proc.devRef .tc main_arg1) = x1) :
    after (opsW0 (F := F)) W (Proc.devRef .tc main_v50) = val_main_v50 (F := F) x1 := by
  after_results_simp
  rw [h1]
  rfl

/-- Operation 60's buffer at the end of window 0: the window's operations composed, read off arg1. -/
theorem w0_v52 (W : Valuation τ sig (Elt F)) (x0 : X0 F) (x1 : X1 F)
    (h0 : W (Proc.devRef .tc main_arg0) = x0) (h1 : W (Proc.devRef .tc main_arg1) = x1) :
    after (opsW0 (F := F)) W (Proc.devRef .tc main_v52) = val_main_v52 (F := F) x1 := by
  after_results_simp
  rw [h1]
  rfl

/-- Window 0 takes the arguments to the state at its own end. -/
theorem step0 (W : Valuation τ sig (Elt F)) (x0 : X0 F) (x1 : X1 F)
    (h0 : W (Proc.devRef .tc main_arg0) = x0) (h1 : W (Proc.devRef .tc main_arg1) = x1) :
    St0 (after (opsW0 (F := F)) W) x0 x1 where
  c := w0_c W x0 x1 h0 h1
  v19 := w0_v19 W x0 x1 h0 h1
  v24 := w0_v24 W x0 x1 h0 h1
  v25 := w0_v25 W x0 x1 h0 h1
  v26 := w0_v26 W x0 x1 h0 h1
  v34 := w0_v34 W x0 x1 h0 h1
  v42 := w0_v42 W x0 x1 h0 h1
  v50 := w0_v50 W x0 x1 h0 h1
  v52 := w0_v52 W x0 x1 h0 h1

/-! ## Window 1: operations 61 … 120 -/

/-- The buffers window 1 writes, in order. -/
abbrev outs1 : List (Ref sig .tc) :=
  [main_cst_5, main_v53, main_v54, main_v55, main_v56, main_cst_6, main_v57, main_v58, main_v59, main_v60,
    main_v61, main_cst_7, main_v62, main_v63, main_v64, main_c_8, main_v65, main_v66, main_c_9, main_v67, main_v68,
    main_v69, main_v70, main_v71, main_c_10, main_v72, main_v73, main_c_11, main_v74, main_v75, main_v76, main_v77,
    main_v78, main_v79, main_v80, main_c_12, main_v81, main_v82, main_v83, main_v84, main_v85, main_v86, main_v87,
    main_v88, main_c_13, main_v89, main_v90, main_v91, main_v92, main_v93, main_v94, main_v95, main_v96, main_c_14,
    main_v97, main_v98, main_v99, main_v100, main_v101, main_v102]

/-- A buffer window 1 does not write keeps its contents: none of the window's operations writes it. -/
theorem keep1 (W : Valuation τ sig (Elt F)) (r : Ref sig .tc) (hr : r ∉ outs1) :
    after (opsW1 (F := F)) W (Proc.devRef .tc r) = W (Proc.devRef .tc r) :=
  after_of_forall_not_mem _ _ (List.forall_iff_forall_mem.mp (by
    simp only [opsW1, List.Forall, nullary_writes, unary_writes, binary_writes, ternary_writes, reshape_writes,
      nary_writes, Finset.mem_singleton]
    repeat' apply And.intro
    all_goals (refine devRef_ne_of_ne (fun e => hr ?_); subst e; decide)))

/-- The state at the end of window 1: each buffer that a later window reads holds its term of the arguments. -/
structure St1 (W : Valuation τ sig (Elt F)) (x0 : X0 F) (x1 : X1 F) : Prop where
  c : W (Proc.devRef .tc main_c) = val_main_c (F := F)
  v19 : W (Proc.devRef .tc main_v19) = val_main_v19 (F := F) x1
  v24 : W (Proc.devRef .tc main_v24) = val_main_v24 (F := F) x1
  v25 : W (Proc.devRef .tc main_v25) = val_main_v25 (F := F) x0
  v78 : W (Proc.devRef .tc main_v78) = val_main_v78 (F := F) x0 x1
  v86 : W (Proc.devRef .tc main_v86) = val_main_v86 (F := F) x1
  v94 : W (Proc.devRef .tc main_v94) = val_main_v94 (F := F) x1
  v102 : W (Proc.devRef .tc main_v102) = val_main_v102 (F := F) x1

/-- Operation 93's buffer at the end of window 1: the window's operations composed, read off v19, v25, v26, v34, v42, v50, v52. -/
theorem w1_v78 (W : Valuation τ sig (Elt F)) (x0 : X0 F) (x1 : X1 F)
    (h : St0 W x0 x1) :
    after (opsW1 (F := F)) W (Proc.devRef .tc main_v78) = val_main_v78 (F := F) x0 x1 := by
  after_results_simp
  rw [h.v19, h.v25, h.v26, h.v34, h.v42, h.v50, h.v52]
  rfl

/-- Operation 102's buffer at the end of window 1: the window's operations composed, read off c, v24. -/
theorem w1_v86 (W : Valuation τ sig (Elt F)) (x0 : X0 F) (x1 : X1 F)
    (h : St0 W x0 x1) :
    after (opsW1 (F := F)) W (Proc.devRef .tc main_v86) = val_main_v86 (F := F) x1 := by
  after_results_simp
  rw [h.c, h.v24]
  rfl

/-- Operation 111's buffer at the end of window 1: the window's operations composed, read off c, v24. -/
theorem w1_v94 (W : Valuation τ sig (Elt F)) (x0 : X0 F) (x1 : X1 F)
    (h : St0 W x0 x1) :
    after (opsW1 (F := F)) W (Proc.devRef .tc main_v94) = val_main_v94 (F := F) x1 := by
  after_results_simp
  rw [h.c, h.v24]
  rfl

/-- Operation 120's buffer at the end of window 1: the window's operations composed, read off c, v24. -/
theorem w1_v102 (W : Valuation τ sig (Elt F)) (x0 : X0 F) (x1 : X1 F)
    (h : St0 W x0 x1) :
    after (opsW1 (F := F)) W (Proc.devRef .tc main_v102) = val_main_v102 (F := F) x1 := by
  after_results_simp
  rw [h.c, h.v24]
  rfl

/-- Window 1 takes the state at the end of window 0 to the state at its own end. -/
theorem step1 (W : Valuation τ sig (Elt F)) (x0 : X0 F) (x1 : X1 F)
    (h : St0 W x0 x1) :
    St1 (after (opsW1 (F := F)) W) x0 x1 where
  c := (keep1 W main_c (by decide)).trans h.c
  v19 := (keep1 W main_v19 (by decide)).trans h.v19
  v24 := (keep1 W main_v24 (by decide)).trans h.v24
  v25 := (keep1 W main_v25 (by decide)).trans h.v25
  v78 := w1_v78 W x0 x1 h
  v86 := w1_v86 W x0 x1 h
  v94 := w1_v94 W x0 x1 h
  v102 := w1_v102 W x0 x1 h

/-! ## Window 2: operations 121 … 180 -/

/-- The buffers window 2 writes, in order. -/
abbrev outs2 : List (Ref sig .tc) :=
  [main_v103, main_v104, main_cst_15, main_v105, main_v106, main_v107, main_v108, main_cst_16, main_v109,
    main_v110, main_v111, main_v112, main_v113, main_v114, main_c_17, main_v115, main_v116, main_c_18, main_v117,
    main_v118, main_v119, main_v120, main_v121, main_c_19, main_v122, main_v123, main_c_20, main_v124, main_v125,
    main_v126, main_v127, main_v128, main_v129, main_v130, main_c_21, main_v131, main_v132, main_v133, main_v134,
    main_v135, main_v136, main_v137, main_v138, main_c_22, main_v139, main_v140, main_v141, main_v142, main_v143,
    main_v144, main_v145, main_v146, main_c_23, main_v147, main_v148, main_v149, main_v150, main_v151, main_v152,
    main_v153]

/-- A buffer window 2 does not write keeps its contents: none of the window's operations writes it. -/
theorem keep2 (W : Valuation τ sig (Elt F)) (r : Ref sig .tc) (hr : r ∉ outs2) :
    after (opsW2 (F := F)) W (Proc.devRef .tc r) = W (Proc.devRef .tc r) :=
  after_of_forall_not_mem _ _ (List.forall_iff_forall_mem.mp (by
    simp only [opsW2, List.Forall, nullary_writes, unary_writes, binary_writes, ternary_writes, reshape_writes,
      nary_writes, Finset.mem_singleton]
    repeat' apply And.intro
    all_goals (refine devRef_ne_of_ne (fun e => hr ?_); subst e; decide)))

/-- The state at the end of window 2: each buffer that a later window reads holds its term of the arguments. -/
structure St2 (W : Valuation τ sig (Elt F)) (x0 : X0 F) (x1 : X1 F) : Prop where
  c : W (Proc.devRef .tc main_c) = val_main_c (F := F)
  v19 : W (Proc.devRef .tc main_v19) = val_main_v19 (F := F) x1
  v24 : W (Proc.devRef .tc main_v24) = val_main_v24 (F := F) x1
  v25 : W (Proc.devRef .tc main_v25) = val_main_v25 (F := F) x0
  v128 : W (Proc.devRef .tc main_v128) = val_main_v128 (F := F) x0 x1
  v136 : W (Proc.devRef .tc main_v136) = val_main_v136 (F := F) x1
  v144 : W (Proc.devRef .tc main_v144) = val_main_v144 (F := F) x1
  v152 : W (Proc.devRef .tc main_v152) = val_main_v152 (F := F) x1
  v153 : W (Proc.devRef .tc main_v153) = val_main_v153 (F := F) x1

/-- Operation 152's buffer at the end of window 2: the window's operations composed, read off v19, v25, v78, v86, v94, v102. -/
theorem w2_v128 (W : Valuation τ sig (Elt F)) (x0 : X0 F) (x1 : X1 F)
    (h : St1 W x0 x1) :
    after (opsW2 (F := F)) W (Proc.devRef .tc main_v128) = val_main_v128 (F := F) x0 x1 := by
  after_results_simp
  rw [h.v19, h.v25, h.v78, h.v86, h.v94, h.v102]
  rfl

/-- Operation 161's buffer at the end of window 2: the window's operations composed, read off c, v24. -/
theorem w2_v136 (W : Valuation τ sig (Elt F)) (x0 : X0 F) (x1 : X1 F)
    (h : St1 W x0 x1) :
    after (opsW2 (F := F)) W (Proc.devRef .tc main_v136) = val_main_v136 (F := F) x1 := by
  after_results_simp
  rw [h.c, h.v24]
  rfl

/-- Operation 170's buffer at the end of window 2: the window's operations composed, read off c, v24. -/
theorem w2_v144 (W : Valuation τ sig (Elt F)) (x0 : X0 F) (x1 : X1 F)
    (h : St1 W x0 x1) :
    after (opsW2 (F := F)) W (Proc.devRef .tc main_v144) = val_main_v144 (F := F) x1 := by
  after_results_simp
  rw [h.c, h.v24]
  rfl

/-- Operation 179's buffer at the end of window 2: the window's operations composed, read off c, v24. -/
theorem w2_v152 (W : Valuation τ sig (Elt F)) (x0 : X0 F) (x1 : X1 F)
    (h : St1 W x0 x1) :
    after (opsW2 (F := F)) W (Proc.devRef .tc main_v152) = val_main_v152 (F := F) x1 := by
  after_results_simp
  rw [h.c, h.v24]
  rfl

/-- Operation 180's buffer at the end of window 2: the window's operations composed, read off v19. -/
theorem w2_v153 (W : Valuation τ sig (Elt F)) (x0 : X0 F) (x1 : X1 F)
    (h : St1 W x0 x1) :
    after (opsW2 (F := F)) W (Proc.devRef .tc main_v153) = val_main_v153 (F := F) x1 := by
  after_results_simp
  rw [h.v19]
  rfl

/-- Window 2 takes the state at the end of window 1 to the state at its own end. -/
theorem step2 (W : Valuation τ sig (Elt F)) (x0 : X0 F) (x1 : X1 F)
    (h : St1 W x0 x1) :
    St2 (after (opsW2 (F := F)) W) x0 x1 where
  c := (keep2 W main_c (by decide)).trans h.c
  v19 := (keep2 W main_v19 (by decide)).trans h.v19
  v24 := (keep2 W main_v24 (by decide)).trans h.v24
  v25 := (keep2 W main_v25 (by decide)).trans h.v25
  v128 := w2_v128 W x0 x1 h
  v136 := w2_v136 W x0 x1 h
  v144 := w2_v144 W x0 x1 h
  v152 := w2_v152 W x0 x1 h
  v153 := w2_v153 W x0 x1 h

/-! ## Window 3: operations 181 … 240 -/

/-- The buffers window 3 writes, in order. -/
abbrev outs3 : List (Ref sig .tc) :=
  [main_v154, main_cst_24, main_v155, main_v156, main_v157, main_v158, main_v159, main_v160, main_v161,
    main_cst_25, main_v162, main_v163, main_v164, main_c_26, main_v165, main_v166, main_c_27, main_v167, main_v168,
    main_v169, main_v170, main_v171, main_c_28, main_v172, main_v173, main_c_29, main_v174, main_v175, main_v176,
    main_v177, main_v178, main_v179, main_v180, main_c_30, main_v181, main_v182, main_v183, main_v184, main_v185,
    main_v186, main_v187, main_v188, main_c_31, main_v189, main_v190, main_v191, main_v192, main_v193, main_v194,
    main_v195, main_v196, main_c_32, main_v197, main_v198, main_v199, main_v200, main_v201, main_v202, main_v203,
    main_v204]

/-- A buffer window 3 does not write keeps its contents: none of the window's operations writes it. -/
theorem keep3 (W : Valuation τ sig (Elt F)) (r : Ref sig .tc) (hr : r ∉ outs3) :
    after (opsW3 (F := F)) W (Proc.devRef .tc r) = W (Proc.devRef .tc r) :=
  after_of_forall_not_mem _ _ (List.forall_iff_forall_mem.mp (by
    simp only [opsW3, List.Forall, nullary_writes, unary_writes, binary_writes, ternary_writes, reshape_writes,
      nary_writes, Finset.mem_singleton]
    repeat' apply And.intro
    all_goals (refine devRef_ne_of_ne (fun e => hr ?_); subst e; decide)))

/-- The state at the end of window 3: each buffer that a later window reads holds its term of the arguments. -/
structure St3 (W : Valuation τ sig (Elt F)) (x0 : X0 F) (x1 : X1 F) : Prop where
  c : W (Proc.devRef .tc main_c) = val_main_c (F := F)
  v19 : W (Proc.devRef .tc main_v19) = val_main_v19 (F := F) x1
  v24 : W (Proc.devRef .tc main_v24) = val_main_v24 (F := F) x1
  v25 : W (Proc.devRef .tc main_v25) = val_main_v25 (F := F) x0
  v178 : W (Proc.devRef .tc main_v178) = val_main_v178 (F := F) x0 x1
  v186 : W (Proc.devRef .tc main_v186) = val_main_v186 (F := F) x1
  v194 : W (Proc.devRef .tc main_v194) = val_main_v194 (F := F) x1
  v202 : W (Proc.devRef .tc main_v202) = val_main_v202 (F := F) x1
  v204 : W (Proc.devRef .tc main_v204) = val_main_v204 (F := F) x1

/-- Operation 211's buffer at the end of window 3: the window's operations composed, read off v19, v25, v128, v136, v144, v152, v153. -/
theorem w3_v178 (W : Valuation τ sig (Elt F)) (x0 : X0 F) (x1 : X1 F)
    (h : St2 W x0 x1) :
    after (opsW3 (F := F)) W (Proc.devRef .tc main_v178) = val_main_v178 (F := F) x0 x1 := by
  after_results_simp
  rw [h.v19, h.v25, h.v128, h.v136, h.v144, h.v152, h.v153]
  rfl

/-- Operation 220's buffer at the end of window 3: the window's operations composed, read off c, v24. -/
theorem w3_v186 (W : Valuation τ sig (Elt F)) (x0 : X0 F) (x1 : X1 F)
    (h : St2 W x0 x1) :
    after (opsW3 (F := F)) W (Proc.devRef .tc main_v186) = val_main_v186 (F := F) x1 := by
  after_results_simp
  rw [h.c, h.v24]
  rfl

/-- Operation 229's buffer at the end of window 3: the window's operations composed, read off c, v24. -/
theorem w3_v194 (W : Valuation τ sig (Elt F)) (x0 : X0 F) (x1 : X1 F)
    (h : St2 W x0 x1) :
    after (opsW3 (F := F)) W (Proc.devRef .tc main_v194) = val_main_v194 (F := F) x1 := by
  after_results_simp
  rw [h.c, h.v24]
  rfl

/-- Operation 238's buffer at the end of window 3: the window's operations composed, read off c, v24. -/
theorem w3_v202 (W : Valuation τ sig (Elt F)) (x0 : X0 F) (x1 : X1 F)
    (h : St2 W x0 x1) :
    after (opsW3 (F := F)) W (Proc.devRef .tc main_v202) = val_main_v202 (F := F) x1 := by
  after_results_simp
  rw [h.c, h.v24]
  rfl

/-- Operation 240's buffer at the end of window 3: the window's operations composed, read off v19. -/
theorem w3_v204 (W : Valuation τ sig (Elt F)) (x0 : X0 F) (x1 : X1 F)
    (h : St2 W x0 x1) :
    after (opsW3 (F := F)) W (Proc.devRef .tc main_v204) = val_main_v204 (F := F) x1 := by
  after_results_simp
  rw [h.v19]
  rfl

/-- Window 3 takes the state at the end of window 2 to the state at its own end. -/
theorem step3 (W : Valuation τ sig (Elt F)) (x0 : X0 F) (x1 : X1 F)
    (h : St2 W x0 x1) :
    St3 (after (opsW3 (F := F)) W) x0 x1 where
  c := (keep3 W main_c (by decide)).trans h.c
  v19 := (keep3 W main_v19 (by decide)).trans h.v19
  v24 := (keep3 W main_v24 (by decide)).trans h.v24
  v25 := (keep3 W main_v25 (by decide)).trans h.v25
  v178 := w3_v178 W x0 x1 h
  v186 := w3_v186 W x0 x1 h
  v194 := w3_v194 W x0 x1 h
  v202 := w3_v202 W x0 x1 h
  v204 := w3_v204 W x0 x1 h

/-! ## Window 4: operations 241 … 300 -/

/-- The buffers window 4 writes, in order. -/
abbrev outs4 : List (Ref sig .tc) :=
  [main_cst_33, main_v205, main_v206, main_v207, main_v208, main_v209, main_v210, main_v211, main_v212, main_c_34,
    main_v213, main_v214, main_c_35, main_v215, main_v216, main_v217, main_v218, main_v219, main_c_36, main_v220,
    main_v221, main_c_37, main_v222, main_v223, main_v224, main_v225, main_v226, main_v227, main_v228, main_c_38,
    main_v229, main_v230, main_v231, main_v232, main_v233, main_v234, main_v235, main_v236, main_c_39, main_v237,
    main_v238, main_v239, main_v240, main_v241, main_v242, main_v243, main_v244, main_c_40, main_v245, main_v246,
    main_v247, main_v248, main_v249, main_v250, main_v251, main_v252, main_v253, main_v254, main_cst_41, main_v255]

/-- A buffer window 4 does not write keeps its contents: none of the window's operations writes it. -/
theorem keep4 (W : Valuation τ sig (Elt F)) (r : Ref sig .tc) (hr : r ∉ outs4) :
    after (opsW4 (F := F)) W (Proc.devRef .tc r) = W (Proc.devRef .tc r) :=
  after_of_forall_not_mem _ _ (List.forall_iff_forall_mem.mp (by
    simp only [opsW4, List.Forall, nullary_writes, unary_writes, binary_writes, ternary_writes, reshape_writes,
      nary_writes, Finset.mem_singleton]
    repeat' apply And.intro
    all_goals (refine devRef_ne_of_ne (fun e => hr ?_); subst e; decide)))

/-- The state at the end of window 4: each buffer that a later window reads holds its term of the arguments. -/
structure St4 (W : Valuation τ sig (Elt F)) (x0 : X0 F) (x1 : X1 F) : Prop where
  c : W (Proc.devRef .tc main_c) = val_main_c (F := F)
  v19 : W (Proc.devRef .tc main_v19) = val_main_v19 (F := F) x1
  v24 : W (Proc.devRef .tc main_v24) = val_main_v24 (F := F) x1
  v25 : W (Proc.devRef .tc main_v25) = val_main_v25 (F := F) x0
  v226 : W (Proc.devRef .tc main_v226) = val_main_v226 (F := F) x0 x1
  v234 : W (Proc.devRef .tc main_v234) = val_main_v234 (F := F) x1
  v242 : W (Proc.devRef .tc main_v242) = val_main_v242 (F := F) x1
  v250 : W (Proc.devRef .tc main_v250) = val_main_v250 (F := F) x1
  v252 : W (Proc.devRef .tc main_v252) = val_main_v252 (F := F) x1
  v254 : W (Proc.devRef .tc main_v254) = val_main_v254 (F := F) x1
  v255 : W (Proc.devRef .tc main_v255) = val_main_v255 (F := F)

/-- Operation 267's buffer at the end of window 4: the window's operations composed, read off v19, v25, v178, v186, v194, v202, v204. -/
theorem w4_v226 (W : Valuation τ sig (Elt F)) (x0 : X0 F) (x1 : X1 F)
    (h : St3 W x0 x1) :
    after (opsW4 (F := F)) W (Proc.devRef .tc main_v226) = val_main_v226 (F := F) x0 x1 := by
  after_results_simp
  rw [h.v19, h.v25, h.v178, h.v186, h.v194, h.v202, h.v204]
  rfl

/-- Operation 276's buffer at the end of window 4: the window's operations composed, read off c, v24. -/
theorem w4_v234 (W : Valuation τ sig (Elt F)) (x0 : X0 F) (x1 : X1 F)
    (h : St3 W x0 x1) :
    after (opsW4 (F := F)) W (Proc.devRef .tc main_v234) = val_main_v234 (F := F) x1 := by
  after_results_simp
  rw [h.c, h.v24]
  rfl

/-- Operation 285's buffer at the end of window 4: the window's operations composed, read off c, v24. -/
theorem w4_v242 (W : Valuation τ sig (Elt F)) (x0 : X0 F) (x1 : X1 F)
    (h : St3 W x0 x1) :
    after (opsW4 (F := F)) W (Proc.devRef .tc main_v242) = val_main_v242 (F := F) x1 := by
  after_results_simp
  rw [h.c, h.v24]
  rfl

/-- Operation 294's buffer at the end of window 4: the window's operations composed, read off c, v24. -/
theorem w4_v250 (W : Valuation τ sig (Elt F)) (x0 : X0 F) (x1 : X1 F)
    (h : St3 W x0 x1) :
    after (opsW4 (F := F)) W (Proc.devRef .tc main_v250) = val_main_v250 (F := F) x1 := by
  after_results_simp
  rw [h.c, h.v24]
  rfl

/-- Operation 296's buffer at the end of window 4: the window's operations composed, read off v19. -/
theorem w4_v252 (W : Valuation τ sig (Elt F)) (x0 : X0 F) (x1 : X1 F)
    (h : St3 W x0 x1) :
    after (opsW4 (F := F)) W (Proc.devRef .tc main_v252) = val_main_v252 (F := F) x1 := by
  after_results_simp
  rw [h.v19]
  rfl

/-- Operation 298's buffer at the end of window 4: the window's operations composed, read off v19. -/
theorem w4_v254 (W : Valuation τ sig (Elt F)) (x0 : X0 F) (x1 : X1 F)
    (h : St3 W x0 x1) :
    after (opsW4 (F := F)) W (Proc.devRef .tc main_v254) = val_main_v254 (F := F) x1 := by
  after_results_simp
  rw [h.v19]
  rfl

/-- Operation 300's buffer at the end of window 4: the window's operations composed (a constant). -/
theorem w4_v255 (W : Valuation τ sig (Elt F)) (x0 : X0 F) (x1 : X1 F)
    (h : St3 W x0 x1) :
    after (opsW4 (F := F)) W (Proc.devRef .tc main_v255) = val_main_v255 (F := F) := by
  after_results_simp
  rfl

/-- Window 4 takes the state at the end of window 3 to the state at its own end. -/
theorem step4 (W : Valuation τ sig (Elt F)) (x0 : X0 F) (x1 : X1 F)
    (h : St3 W x0 x1) :
    St4 (after (opsW4 (F := F)) W) x0 x1 where
  c := (keep4 W main_c (by decide)).trans h.c
  v19 := (keep4 W main_v19 (by decide)).trans h.v19
  v24 := (keep4 W main_v24 (by decide)).trans h.v24
  v25 := (keep4 W main_v25 (by decide)).trans h.v25
  v226 := w4_v226 W x0 x1 h
  v234 := w4_v234 W x0 x1 h
  v242 := w4_v242 W x0 x1 h
  v250 := w4_v250 W x0 x1 h
  v252 := w4_v252 W x0 x1 h
  v254 := w4_v254 W x0 x1 h
  v255 := w4_v255 W x0 x1 h

/-! ## Window 5: operations 301 … 360 -/

/-- The buffers window 5 writes, in order. -/
abbrev outs5 : List (Ref sig .tc) :=
  [main_v256, main_v257, main_v258, main_v259, main_cst_42, main_v260, main_v261, main_v262, main_c_43, main_v263,
    main_v264, main_c_44, main_v265, main_v266, main_v267, main_v268, main_v269, main_c_45, main_v270, main_v271,
    main_c_46, main_v272, main_v273, main_v274, main_v275, main_v276, main_v277, main_v278, main_c_47, main_v279,
    main_v280, main_v281, main_v282, main_v283, main_v284, main_v285, main_v286, main_c_48, main_v287, main_v288,
    main_v289, main_v290, main_v291, main_v292, main_v293, main_v294, main_c_49, main_v295, main_v296, main_v297,
    main_v298, main_v299, main_v300, main_v301, main_v302, main_v303, main_v304, main_cst_50, main_v305, main_v306]

/-- A buffer window 5 does not write keeps its contents: none of the window's operations writes it. -/
theorem keep5 (W : Valuation τ sig (Elt F)) (r : Ref sig .tc) (hr : r ∉ outs5) :
    after (opsW5 (F := F)) W (Proc.devRef .tc r) = W (Proc.devRef .tc r) :=
  after_of_forall_not_mem _ _ (List.forall_iff_forall_mem.mp (by
    simp only [opsW5, List.Forall, nullary_writes, unary_writes, binary_writes, ternary_writes, reshape_writes,
      nary_writes, Finset.mem_singleton]
    repeat' apply And.intro
    all_goals (refine devRef_ne_of_ne (fun e => hr ?_); subst e; decide)))

/-- The state at the end of window 5: each buffer that a later window reads holds its term of the arguments. -/
structure St5 (W : Valuation τ sig (Elt F)) (x0 : X0 F) (x1 : X1 F) : Prop where
  c : W (Proc.devRef .tc main_c) = val_main_c (F := F)
  v19 : W (Proc.devRef .tc main_v19) = val_main_v19 (F := F) x1
  v24 : W (Proc.devRef .tc main_v24) = val_main_v24 (F := F) x1
  v25 : W (Proc.devRef .tc main_v25) = val_main_v25 (F := F) x0
  v276 : W (Proc.devRef .tc main_v276) = val_main_v276 (F := F) x0 x1
  v284 : W (Proc.devRef .tc main_v284) = val_main_v284 (F := F) x1
  v292 : W (Proc.devRef .tc main_v292) = val_main_v292 (F := F) x1
  v300 : W (Proc.devRef .tc main_v300) = val_main_v300 (F := F) x1
  v302 : W (Proc.devRef .tc main_v302) = val_main_v302 (F := F) x1
  v306 : W (Proc.devRef .tc main_v306) = val_main_v306 (F := F) x1

/-- Operation 326's buffer at the end of window 5: the window's operations composed, read off v19, v25, v226, v234, v242, v250, v252, v254, v255. -/
theorem w5_v276 (W : Valuation τ sig (Elt F)) (x0 : X0 F) (x1 : X1 F)
    (h : St4 W x0 x1) :
    after (opsW5 (F := F)) W (Proc.devRef .tc main_v276) = val_main_v276 (F := F) x0 x1 := by
  after_results_simp
  rw [h.v19, h.v25, h.v226, h.v234, h.v242, h.v250, h.v252, h.v254, h.v255]
  rfl

/-- Operation 335's buffer at the end of window 5: the window's operations composed, read off c, v24. -/
theorem w5_v284 (W : Valuation τ sig (Elt F)) (x0 : X0 F) (x1 : X1 F)
    (h : St4 W x0 x1) :
    after (opsW5 (F := F)) W (Proc.devRef .tc main_v284) = val_main_v284 (F := F) x1 := by
  after_results_simp
  rw [h.c, h.v24]
  rfl

/-- Operation 344's buffer at the end of window 5: the window's operations composed, read off c, v24. -/
theorem w5_v292 (W : Valuation τ sig (Elt F)) (x0 : X0 F) (x1 : X1 F)
    (h : St4 W x0 x1) :
    after (opsW5 (F := F)) W (Proc.devRef .tc main_v292) = val_main_v292 (F := F) x1 := by
  after_results_simp
  rw [h.c, h.v24]
  rfl

/-- Operation 353's buffer at the end of window 5: the window's operations composed, read off c, v24. -/
theorem w5_v300 (W : Valuation τ sig (Elt F)) (x0 : X0 F) (x1 : X1 F)
    (h : St4 W x0 x1) :
    after (opsW5 (F := F)) W (Proc.devRef .tc main_v300) = val_main_v300 (F := F) x1 := by
  after_results_simp
  rw [h.c, h.v24]
  rfl

/-- Operation 355's buffer at the end of window 5: the window's operations composed, read off v19. -/
theorem w5_v302 (W : Valuation τ sig (Elt F)) (x0 : X0 F) (x1 : X1 F)
    (h : St4 W x0 x1) :
    after (opsW5 (F := F)) W (Proc.devRef .tc main_v302) = val_main_v302 (F := F) x1 := by
  after_results_simp
  rw [h.v19]
  rfl

/-- Operation 360's buffer at the end of window 5: the window's operations composed, read off v19. -/
theorem w5_v306 (W : Valuation τ sig (Elt F)) (x0 : X0 F) (x1 : X1 F)
    (h : St4 W x0 x1) :
    after (opsW5 (F := F)) W (Proc.devRef .tc main_v306) = val_main_v306 (F := F) x1 := by
  after_results_simp
  rw [h.v19]
  rfl

/-- Window 5 takes the state at the end of window 4 to the state at its own end. -/
theorem step5 (W : Valuation τ sig (Elt F)) (x0 : X0 F) (x1 : X1 F)
    (h : St4 W x0 x1) :
    St5 (after (opsW5 (F := F)) W) x0 x1 where
  c := (keep5 W main_c (by decide)).trans h.c
  v19 := (keep5 W main_v19 (by decide)).trans h.v19
  v24 := (keep5 W main_v24 (by decide)).trans h.v24
  v25 := (keep5 W main_v25 (by decide)).trans h.v25
  v276 := w5_v276 W x0 x1 h
  v284 := w5_v284 W x0 x1 h
  v292 := w5_v292 W x0 x1 h
  v300 := w5_v300 W x0 x1 h
  v302 := w5_v302 W x0 x1 h
  v306 := w5_v306 W x0 x1 h

/-! ## Window 6: operations 361 … 420 -/

/-- The buffers window 6 writes, in order. -/
abbrev outs6 : List (Ref sig .tc) :=
  [main_v307, main_v308, main_v309, main_v310, main_c_51, main_v311, main_v312, main_c_52, main_v313, main_v314,
    main_v315, main_v316, main_v317, main_c_53, main_v318, main_v319, main_c_54, main_v320, main_v321, main_v322,
    main_v323, main_v324, main_v325, main_v326, main_c_55, main_v327, main_v328, main_v329, main_v330, main_v331,
    main_v332, main_v333, main_v334, main_c_56, main_v335, main_v336, main_v337, main_v338, main_v339, main_v340,
    main_v341, main_v342, main_c_57, main_v343, main_v344, main_v345, main_v346, main_v347, main_v348, main_v349,
    main_v350, main_v351, main_v352, main_v353, main_v354, main_v355, main_cst_58, main_v356, main_v357, main_v358]

/-- A buffer window 6 does not write keeps its contents: none of the window's operations writes it. -/
theorem keep6 (W : Valuation τ sig (Elt F)) (r : Ref sig .tc) (hr : r ∉ outs6) :
    after (opsW6 (F := F)) W (Proc.devRef .tc r) = W (Proc.devRef .tc r) :=
  after_of_forall_not_mem _ _ (List.forall_iff_forall_mem.mp (by
    simp only [opsW6, List.Forall, nullary_writes, unary_writes, binary_writes, ternary_writes, reshape_writes,
      nary_writes, Finset.mem_singleton]
    repeat' apply And.intro
    all_goals (refine devRef_ne_of_ne (fun e => hr ?_); subst e; decide)))

/-- The state at the end of window 6: each buffer that a later window reads holds its term of the arguments. -/
structure St6 (W : Valuation τ sig (Elt F)) (x0 : X0 F) (x1 : X1 F) : Prop where
  c : W (Proc.devRef .tc main_c) = val_main_c (F := F)
  v19 : W (Proc.devRef .tc main_v19) = val_main_v19 (F := F) x1
  v24 : W (Proc.devRef .tc main_v24) = val_main_v24 (F := F) x1
  v25 : W (Proc.devRef .tc main_v25) = val_main_v25 (F := F) x0
  v324 : W (Proc.devRef .tc main_v324) = val_main_v324 (F := F) x0 x1
  v332 : W (Proc.devRef .tc main_v332) = val_main_v332 (F := F) x1
  v340 : W (Proc.devRef .tc main_v340) = val_main_v340 (F := F) x1
  v348 : W (Proc.devRef .tc main_v348) = val_main_v348 (F := F) x1
  v358 : W (Proc.devRef .tc main_v358) = val_main_v358 (F := F) x1

/-- Operation 382's buffer at the end of window 6: the window's operations composed, read off v19, v25, v276, v284, v292, v300, v302, v306. -/
theorem w6_v324 (W : Valuation τ sig (Elt F)) (x0 : X0 F) (x1 : X1 F)
    (h : St5 W x0 x1) :
    after (opsW6 (F := F)) W (Proc.devRef .tc main_v324) = val_main_v324 (F := F) x0 x1 := by
  after_results_simp
  rw [h.v19, h.v25, h.v276, h.v284, h.v292, h.v300, h.v302, h.v306]
  rfl

/-- Operation 391's buffer at the end of window 6: the window's operations composed, read off c, v24. -/
theorem w6_v332 (W : Valuation τ sig (Elt F)) (x0 : X0 F) (x1 : X1 F)
    (h : St5 W x0 x1) :
    after (opsW6 (F := F)) W (Proc.devRef .tc main_v332) = val_main_v332 (F := F) x1 := by
  after_results_simp
  rw [h.c, h.v24]
  rfl

/-- Operation 400's buffer at the end of window 6: the window's operations composed, read off c, v24. -/
theorem w6_v340 (W : Valuation τ sig (Elt F)) (x0 : X0 F) (x1 : X1 F)
    (h : St5 W x0 x1) :
    after (opsW6 (F := F)) W (Proc.devRef .tc main_v340) = val_main_v340 (F := F) x1 := by
  after_results_simp
  rw [h.c, h.v24]
  rfl

/-- Operation 409's buffer at the end of window 6: the window's operations composed, read off c, v24. -/
theorem w6_v348 (W : Valuation τ sig (Elt F)) (x0 : X0 F) (x1 : X1 F)
    (h : St5 W x0 x1) :
    after (opsW6 (F := F)) W (Proc.devRef .tc main_v348) = val_main_v348 (F := F) x1 := by
  after_results_simp
  rw [h.c, h.v24]
  rfl

/-- Operation 420's buffer at the end of window 6: the window's operations composed, read off v19. -/
theorem w6_v358 (W : Valuation τ sig (Elt F)) (x0 : X0 F) (x1 : X1 F)
    (h : St5 W x0 x1) :
    after (opsW6 (F := F)) W (Proc.devRef .tc main_v358) = val_main_v358 (F := F) x1 := by
  after_results_simp
  rw [h.v19]
  rfl

/-- Window 6 takes the state at the end of window 5 to the state at its own end. -/
theorem step6 (W : Valuation τ sig (Elt F)) (x0 : X0 F) (x1 : X1 F)
    (h : St5 W x0 x1) :
    St6 (after (opsW6 (F := F)) W) x0 x1 where
  c := (keep6 W main_c (by decide)).trans h.c
  v19 := (keep6 W main_v19 (by decide)).trans h.v19
  v24 := (keep6 W main_v24 (by decide)).trans h.v24
  v25 := (keep6 W main_v25 (by decide)).trans h.v25
  v324 := w6_v324 W x0 x1 h
  v332 := w6_v332 W x0 x1 h
  v340 := w6_v340 W x0 x1 h
  v348 := w6_v348 W x0 x1 h
  v358 := w6_v358 W x0 x1 h

/-! ## Window 7: operations 421 … 480 -/

/-- The buffers window 7 writes, in order. -/
abbrev outs7 : List (Ref sig .tc) :=
  [main_c_59, main_v359, main_v360, main_c_60, main_v361, main_v362, main_v363, main_v364, main_v365, main_c_61,
    main_v366, main_v367, main_c_62, main_v368, main_v369, main_v370, main_v371, main_v372, main_v373, main_v374,
    main_c_63, main_v375, main_v376, main_v377, main_v378, main_v379, main_v380, main_v381, main_v382, main_c_64,
    main_v383, main_v384, main_v385, main_v386, main_v387, main_v388, main_v389, main_v390, main_c_65, main_v391,
    main_v392, main_v393, main_v394, main_v395, main_v396, main_v397, main_v398, main_v399, main_v400, main_v401,
    main_v402, main_v403, main_v404, main_c_66, main_v405, main_v406, main_c_67, main_v407, main_v408, main_v409]

/-- A buffer window 7 does not write keeps its contents: none of the window's operations writes it. -/
theorem keep7 (W : Valuation τ sig (Elt F)) (r : Ref sig .tc) (hr : r ∉ outs7) :
    after (opsW7 (F := F)) W (Proc.devRef .tc r) = W (Proc.devRef .tc r) :=
  after_of_forall_not_mem _ _ (List.forall_iff_forall_mem.mp (by
    simp only [opsW7, List.Forall, nullary_writes, unary_writes, binary_writes, ternary_writes, reshape_writes,
      nary_writes, Finset.mem_singleton]
    repeat' apply And.intro
    all_goals (refine devRef_ne_of_ne (fun e => hr ?_); subst e; decide)))

/-- The state at the end of window 7: each buffer that a later window reads holds its term of the arguments. -/
structure St7 (W : Valuation τ sig (Elt F)) (x0 : X0 F) (x1 : X1 F) : Prop where
  v25 : W (Proc.devRef .tc main_v25) = val_main_v25 (F := F) x0
  v372 : W (Proc.devRef .tc main_v372) = val_main_v372 (F := F) x0 x1
  v396 : W (Proc.devRef .tc main_v396) = val_main_v396 (F := F) x1
  v404 : W (Proc.devRef .tc main_v404) = val_main_v404 (F := F) x1
  v409 : W (Proc.devRef .tc main_v409) = val_main_v409 (F := F) x1

/-- Operation 438's buffer at the end of window 7: the window's operations composed, read off v25, v324, v332, v340, v348, v358. -/
theorem w7_v372 (W : Valuation τ sig (Elt F)) (x0 : X0 F) (x1 : X1 F)
    (h : St6 W x0 x1) :
    after (opsW7 (F := F)) W (Proc.devRef .tc main_v372) = val_main_v372 (F := F) x0 x1 := by
  after_results_simp
  rw [h.v25, h.v324, h.v332, h.v340, h.v348, h.v358]
  rfl

/-- Operation 465's buffer at the end of window 7: the window's operations composed, read off c, v24. -/
theorem w7_v396 (W : Valuation τ sig (Elt F)) (x0 : X0 F) (x1 : X1 F)
    (h : St6 W x0 x1) :
    after (opsW7 (F := F)) W (Proc.devRef .tc main_v396) = val_main_v396 (F := F) x1 := by
  after_results_simp
  rw [h.c, h.v24]
  rfl

/-- Operation 473's buffer at the end of window 7: the window's operations composed, read off v19. -/
theorem w7_v404 (W : Valuation τ sig (Elt F)) (x0 : X0 F) (x1 : X1 F)
    (h : St6 W x0 x1) :
    after (opsW7 (F := F)) W (Proc.devRef .tc main_v404) = val_main_v404 (F := F) x1 := by
  after_results_simp
  rw [h.v19]
  rfl

/-- Operation 480's buffer at the end of window 7: the window's operations composed, read off c, v24. -/
theorem w7_v409 (W : Valuation τ sig (Elt F)) (x0 : X0 F) (x1 : X1 F)
    (h : St6 W x0 x1) :
    after (opsW7 (F := F)) W (Proc.devRef .tc main_v409) = val_main_v409 (F := F) x1 := by
  after_results_simp
  rw [h.c, h.v24]
  rfl

/-- Window 7 takes the state at the end of window 6 to the state at its own end. -/
theorem step7 (W : Valuation τ sig (Elt F)) (x0 : X0 F) (x1 : X1 F)
    (h : St6 W x0 x1) :
    St7 (after (opsW7 (F := F)) W) x0 x1 where
  v25 := (keep7 W main_v25 (by decide)).trans h.v25
  v372 := w7_v372 W x0 x1 h
  v396 := w7_v396 W x0 x1 h
  v404 := w7_v404 W x0 x1 h
  v409 := w7_v409 W x0 x1 h

/-! ## Window 8: operations 481 … 492 -/

/-- Window 8 takes the state at the end of window 7 to the result: the last scatter, reshaped to the volume. -/
theorem step8 (W : Valuation τ sig (Elt F)) (x0 : X0 F) (x1 : X1 F) (h : St7 W x0 x1) :
    after (opsW8 (F := F)) W (Proc.devRef .tc main_v419) = val_main_v419 (F := F) x0 x1 := by
  after_results_simp
  rw [h.v25, h.v372, h.v396, h.v404, h.v409]
  rfl

/-! ## All nine windows -/

/-- After all of @main's operations the result buffer holds `val_main_v419` of the two argument buffers. -/
theorem result_eq (V : Valuation τ sig (Elt F)) :
    after (opsAll (F := F)) V (Proc.devRef .tc main_v419)
      = val_main_v419 (F := F) (V (Proc.devRef .tc main_arg0)) (V (Proc.devRef .tc main_arg1)) := by
  -- the line is its nine windows in a row
  rw [after_append, after_append, after_append, after_append, after_append, after_append, after_append, after_append]
  -- and the nine steps compose
  exact step8 _ _ _ (step7 _ _ _ (step6 _ _ _ (step5 _ _ _ (step4 _ _ _ (step3 _ _ _ (step2 _ _ _ (step1 _ _ _
    (step0 V _ _ rfl rfl))))))))

end Cert.RefRunValue

end
-- ==== Proof.RefRunKept.lean ====
/-
  No host operation of the reference writes one of its two arguments.

  Each of the 492 operations writes exactly one buffer, its own result, and no result buffer is an argument; so
  after the whole line the source (argument 0) and the flow (argument 1) hold what they held at the start.  The check
  is made window by window (nine windows of at most 60 operations), each a finite list of "this reference is not that
  one", and the windows are joined by membership in a concatenation.
-/
import proofs.«146513_j73220602462351_1_alg».proof.Proof.RefOpsAll

noncomputable section

namespace Cert.RefRunKept

open Cert.ReferenceIdeal Cert.ReferenceIdeal.Value Idealize.ShloMosaic Idealize.ShloMosaic.StableHlo Idealize.SL.Sem

variable {F : FTy → Type} [FloatOps F]

/-! ## Argument 0 is not a result buffer of any window -/

/-- Window 0 does not write argument 0. -/
theorem w0_arg0 : ∀ op ∈ (opsW0 : List (HloOp τ sig (Elt F))), Proc.devRef (τ := τ) .tc main_arg0 ∉ op.writes :=
  List.forall_iff_forall_mem.mp (by
    simp only [opsW0, List.Forall, nullary_writes, unary_writes, binary_writes, ternary_writes, reshape_writes, nary_writes,
      Finset.mem_singleton]
    repeat' apply And.intro
    all_goals exact devRef_ne_of_ne (by decide))

/-- Window 1 does not write argument 0. -/
theorem w1_arg0 : ∀ op ∈ (opsW1 : List (HloOp τ sig (Elt F))), Proc.devRef (τ := τ) .tc main_arg0 ∉ op.writes :=
  List.forall_iff_forall_mem.mp (by
    simp only [opsW1, List.Forall, nullary_writes, unary_writes, binary_writes, ternary_writes, reshape_writes,
      Finset.mem_singleton]
    repeat' apply And.intro
    all_goals exact devRef_ne_of_ne (by decide))

/-- Window 2 does not write argument 0. -/
theorem w2_arg0 : ∀ op ∈ (opsW2 : List (HloOp τ sig (Elt F))), Proc.devRef (τ := τ) .tc main_arg0 ∉ op.writes :=
  List.forall_iff_forall_mem.mp (by
    simp only [opsW2, List.Forall, nullary_writes, unary_writes, binary_writes, ternary_writes, reshape_writes,
      Finset.mem_singleton]
    repeat' apply And.intro
    all_goals exact devRef_ne_of_ne (by decide))

/-- Window 3 does not write argument 0. -/
theorem w3_arg0 : ∀ op ∈ (opsW3 : List (HloOp τ sig (Elt F))), Proc.devRef (τ := τ) .tc main_arg0 ∉ op.writes :=
  List.forall_iff_forall_mem.mp (by
    simp only [opsW3, List.Forall, nullary_writes, unary_writes, binary_writes, ternary_writes, reshape_writes,
      Finset.mem_singleton]
    repeat' apply And.intro
    all_goals exact devRef_ne_of_ne (by decide))

/-- Window 4 does not write argument 0. -/
theorem w4_arg0 : ∀ op ∈ (opsW4 : List (HloOp τ sig (Elt F))), Proc.devRef (τ := τ) .tc main_arg0 ∉ op.writes :=
  List.forall_iff_forall_mem.mp (by
    simp only [opsW4, List.Forall, nullary_writes, unary_writes, binary_writes, ternary_writes, reshape_writes,
      Finset.mem_singleton]
    repeat' apply And.intro
    all_goals exact devRef_ne_of_ne (by decide))

/-- Window 5 does not write argument 0. -/
theorem w5_arg0 : ∀ op ∈ (opsW5 : List (HloOp τ sig (Elt F))), Proc.devRef (τ := τ) .tc main_arg0 ∉ op.writes :=
  List.forall_iff_forall_mem.mp (by
    simp only [opsW5, List.Forall, nullary_writes, unary_writes, binary_writes, ternary_writes, reshape_writes,
      Finset.mem_singleton]
    repeat' apply And.intro
    all_goals exact devRef_ne_of_ne (by decide))

/-- Window 6 does not write argument 0. -/
theorem w6_arg0 : ∀ op ∈ (opsW6 : List (HloOp τ sig (Elt F))), Proc.devRef (τ := τ) .tc main_arg0 ∉ op.writes :=
  List.forall_iff_forall_mem.mp (by
    simp only [opsW6, List.Forall, nullary_writes, unary_writes, binary_writes, ternary_writes, reshape_writes,
      Finset.mem_singleton]
    repeat' apply And.intro
    all_goals exact devRef_ne_of_ne (by decide))

/-- Window 7 does not write argument 0. -/
theorem w7_arg0 : ∀ op ∈ (opsW7 : List (HloOp τ sig (Elt F))), Proc.devRef (τ := τ) .tc main_arg0 ∉ op.writes :=
  List.forall_iff_forall_mem.mp (by
    simp only [opsW7, List.Forall, nullary_writes, unary_writes, binary_writes, ternary_writes, reshape_writes,
      Finset.mem_singleton]
    repeat' apply And.intro
    all_goals exact devRef_ne_of_ne (by decide))

/-- Window 8 does not write argument 0. -/
theorem w8_arg0 : ∀ op ∈ (opsW8 : List (HloOp τ sig (Elt F))), Proc.devRef (τ := τ) .tc main_arg0 ∉ op.writes :=
  List.forall_iff_forall_mem.mp (by
    simp only [opsW8, List.Forall, nullary_writes, unary_writes, binary_writes, ternary_writes, reshape_writes,
      Finset.mem_singleton]
    repeat' apply And.intro
    all_goals exact devRef_ne_of_ne (by decide))

/-- No operation of the whole line writes argument 0: an operation of the concatenation lies in one of the windows. -/
theorem all_arg0 : ∀ op ∈ (opsAll : List (HloOp τ sig (Elt F))), Proc.devRef (τ := τ) .tc main_arg0 ∉ op.writes := by
  intro op hop
  rcases List.mem_append.mp hop with h | hop
  · exact w0_arg0 op h
  rcases List.mem_append.mp hop with h | hop
  · exact w1_arg0 op h
  rcases List.mem_append.mp hop with h | hop
  · exact w2_arg0 op h
  rcases List.mem_append.mp hop with h | hop
  · exact w3_arg0 op h
  rcases List.mem_append.mp hop with h | hop
  · exact w4_arg0 op h
  rcases List.mem_append.mp hop with h | hop
  · exact w5_arg0 op h
  rcases List.mem_append.mp hop with h | hop
  · exact w6_arg0 op h
  rcases List.mem_append.mp hop with h | hop
  · exact w7_arg0 op h
  exact w8_arg0 op hop

/-! ## Argument 1 is not a result buffer of any window -/

/-- Window 0 does not write argument 1. -/
theorem w0_arg1 : ∀ op ∈ (opsW0 : List (HloOp τ sig (Elt F))), Proc.devRef (τ := τ) .tc main_arg1 ∉ op.writes :=
  List.forall_iff_forall_mem.mp (by
    simp only [opsW0, List.Forall, nullary_writes, unary_writes, binary_writes, ternary_writes, reshape_writes, nary_writes,
      Finset.mem_singleton]
    repeat' apply And.intro
    all_goals exact devRef_ne_of_ne (by decide))

/-- Window 1 does not write argument 1. -/
theorem w1_arg1 : ∀ op ∈ (opsW1 : List (HloOp τ sig (Elt F))), Proc.devRef (τ := τ) .tc main_arg1 ∉ op.writes :=
  List.forall_iff_forall_mem.mp (by
    simp only [opsW1, List.Forall, nullary_writes, unary_writes, binary_writes, ternary_writes, reshape_writes,
      Finset.mem_singleton]
    repeat' apply And.intro
    all_goals exact devRef_ne_of_ne (by decide))

/-- Window 2 does not write argument 1. -/
theorem w2_arg1 : ∀ op ∈ (opsW2 : List (HloOp τ sig (Elt F))), Proc.devRef (τ := τ) .tc main_arg1 ∉ op.writes :=
  List.forall_iff_forall_mem.mp (by
    simp only [opsW2, List.Forall, nullary_writes, unary_writes, binary_writes, ternary_writes, reshape_writes,
      Finset.mem_singleton]
    repeat' apply And.intro
    all_goals exact devRef_ne_of_ne (by decide))

/-- Window 3 does not write argument 1. -/
theorem w3_arg1 : ∀ op ∈ (opsW3 : List (HloOp τ sig (Elt F))), Proc.devRef (τ := τ) .tc main_arg1 ∉ op.writes :=
  List.forall_iff_forall_mem.mp (by
    simp only [opsW3, List.Forall, nullary_writes, unary_writes, binary_writes, ternary_writes, reshape_writes,
      Finset.mem_singleton]
    repeat' apply And.intro
    all_goals exact devRef_ne_of_ne (by decide))

/-- Window 4 does not write argument 1. -/
theorem w4_arg1 : ∀ op ∈ (opsW4 : List (HloOp τ sig (Elt F))), Proc.devRef (τ := τ) .tc main_arg1 ∉ op.writes :=
  List.forall_iff_forall_mem.mp (by
    simp only [opsW4, List.Forall, nullary_writes, unary_writes, binary_writes, ternary_writes, reshape_writes,
      Finset.mem_singleton]
    repeat' apply And.intro
    all_goals exact devRef_ne_of_ne (by decide))

/-- Window 5 does not write argument 1. -/
theorem w5_arg1 : ∀ op ∈ (opsW5 : List (HloOp τ sig (Elt F))), Proc.devRef (τ := τ) .tc main_arg1 ∉ op.writes :=
  List.forall_iff_forall_mem.mp (by
    simp only [opsW5, List.Forall, nullary_writes, unary_writes, binary_writes, ternary_writes, reshape_writes,
      Finset.mem_singleton]
    repeat' apply And.intro
    all_goals exact devRef_ne_of_ne (by decide))

/-- Window 6 does not write argument 1. -/
theorem w6_arg1 : ∀ op ∈ (opsW6 : List (HloOp τ sig (Elt F))), Proc.devRef (τ := τ) .tc main_arg1 ∉ op.writes :=
  List.forall_iff_forall_mem.mp (by
    simp only [opsW6, List.Forall, nullary_writes, unary_writes, binary_writes, ternary_writes, reshape_writes,
      Finset.mem_singleton]
    repeat' apply And.intro
    all_goals exact devRef_ne_of_ne (by decide))

/-- Window 7 does not write argument 1. -/
theorem w7_arg1 : ∀ op ∈ (opsW7 : List (HloOp τ sig (Elt F))), Proc.devRef (τ := τ) .tc main_arg1 ∉ op.writes :=
  List.forall_iff_forall_mem.mp (by
    simp only [opsW7, List.Forall, nullary_writes, unary_writes, binary_writes, ternary_writes, reshape_writes,
      Finset.mem_singleton]
    repeat' apply And.intro
    all_goals exact devRef_ne_of_ne (by decide))

/-- Window 8 does not write argument 1. -/
theorem w8_arg1 : ∀ op ∈ (opsW8 : List (HloOp τ sig (Elt F))), Proc.devRef (τ := τ) .tc main_arg1 ∉ op.writes :=
  List.forall_iff_forall_mem.mp (by
    simp only [opsW8, List.Forall, nullary_writes, unary_writes, binary_writes, ternary_writes, reshape_writes,
      Finset.mem_singleton]
    repeat' apply And.intro
    all_goals exact devRef_ne_of_ne (by decide))

/-- No operation of the whole line writes argument 1: an operation of the concatenation lies in one of the windows. -/
theorem all_arg1 : ∀ op ∈ (opsAll : List (HloOp τ sig (Elt F))), Proc.devRef (τ := τ) .tc main_arg1 ∉ op.writes := by
  intro op hop
  rcases List.mem_append.mp hop with h | hop
  · exact w0_arg1 op h
  rcases List.mem_append.mp hop with h | hop
  · exact w1_arg1 op h
  rcases List.mem_append.mp hop with h | hop
  · exact w2_arg1 op h
  rcases List.mem_append.mp hop with h | hop
  · exact w3_arg1 op h
  rcases List.mem_append.mp hop with h | hop
  · exact w4_arg1 op h
  rcases List.mem_append.mp hop with h | hop
  · exact w5_arg1 op h
  rcases List.mem_append.mp hop with h | hop
  · exact w6_arg1 op h
  rcases List.mem_append.mp hop with h | hop
  · exact w7_arg1 op h
  exact w8_arg1 op hop

/-! ## The arguments after the line -/

/-- The source holds after the line what it held before. -/
theorem arg0_kept (V : Valuation τ sig (Elt F)) :
    after (opsAll (F := F)) V (Proc.devRef .tc main_arg0) = V (Proc.devRef .tc main_arg0) :=
  after_of_forall_not_mem (b := Proc.devRef .tc main_arg0) _ V all_arg0

/-- The flow holds after the line what it held before. -/
theorem arg1_kept (V : Valuation τ sig (Elt F)) :
    after (opsAll (F := F)) V (Proc.devRef .tc main_arg1) = V (Proc.devRef .tc main_arg1) :=
  after_of_forall_not_mem (b := Proc.devRef .tc main_arg1) _ V all_arg1

end Cert.RefRunKept

end
-- ==== Proof.RefRun.lean ====
/-
  The reference program's run, with its result named: every weakly fair execution terminates with the result buffer at
  the composed value of the host operations — eight successive scatter-adds of the corner contributions into a zero
  volume, reshaped — as a function of the two arguments, and the arguments as launched.
-/
import proofs.«146513_j73220602462351_1_alg».proof.Proof.RefRunMain
import proofs.«146513_j73220602462351_1_alg».proof.Proof.RefRunValue
import proofs.«146513_j73220602462351_1_alg».proof.Proof.RefRunKept
import Idealize.ShloMosaic.PureOps.Ideal

noncomputable section

namespace Cert.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

/-- On every device, from any memory with zero counters: @main terminates with its result at the operations' composed
    value of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v419)
        = val_main_v419 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v419).trans (Cert.RefRunValue.result_eq (launchContents m c)),
      (h c main_arg0).trans (Cert.RefRunKept.arg0_kept (launchContents m c)),
      (h c main_arg1).trans (Cert.RefRunKept.arg1_kept (launchContents m c))⟩)
    (Cert.RefRunMain.run_after m ρ)

end Cert.RefRun

end
-- ==== Proof.lean ====
/-
  A trilinear forward splat of a 192 x 192 x 192 volume: every voxel is displaced by a flow field and its source value
  is shared among the 8 corners of the unit cell it lands in, each corner receiving  src * w0 * w1 * w2  at the flat index
  of its clamped coordinates; the output is the sum of what lands at each index.

  The kernel computes, block of two rows by block of two rows, the 8 corner index words and the 8 corner values of every
  voxel into two arrays of shape [8, 192, 192, 192]; its program then flattens them and scatter-adds all 8 * 192^3 pairs at
  once into a zero volume.  The reference computes the same words and values corner by corner over the flattened volume
  and scatter-adds corner 0's pairs, then corner 1's, ... then corner 7's.  At the ideal instance a float is an extended
  real and a scatter-add is the exact sum of the updates landing on each entry, so the one scatter-add of the stacked
  arrays is the eight successive ones: sums of extended reals may be regrouped and reordered freely, and no finiteness of
  the inputs is needed for that.

  The modules: `Spec` (the corner words and values of one voxel, as scalar functions), `KernelArrays` (the two arrays the
  kernel writes, entry by entry), `KernelTail` (the kernel program's result as a function of the two arrays),
  `RefRunMain` / `RefRunValue` / `RefRunKept` / `RefRun` (the reference's run, window by window, and its result as a
  function of the arguments), `RefLoc` / `RefIndex` / `RefValue` (the reference's corner index and update arrays, entry by
  entry), `LibScatterStack`
  (one scatter-add of 8 stacked blocks is 8 successive scatter-adds), `Bridge` (the two results are equal).
-/
import proofs.«146513_j73220602462351_1_alg».proof.Defs
import proofs.«146513_j73220602462351_1_alg».proof.Proof.Gen.Kernel
import proofs.«146513_j73220602462351_1_alg».proof.Proof.KernelFrame
import proofs.«146513_j73220602462351_1_alg».proof.Proof.Gen.KernelIdeal
import proofs.«146513_j73220602462351_1_alg».proof.Proof.KernelIdealFrame
import proofs.«146513_j73220602462351_1_alg».proof.Proof.Gen.ReferenceIdeal
import proofs.«146513_j73220602462351_1_alg».proof.Proof.Gen.Pre_finite_inputs
import proofs.«146513_j73220602462351_1_alg».proof.Proof.KernelTail
import proofs.«146513_j73220602462351_1_alg».proof.Proof.KernelArrays
import proofs.«146513_j73220602462351_1_alg».proof.Proof.Bridge
import proofs.«146513_j73220602462351_1_alg».proof.Proof.RefRun
import Idealize.ShloMosaic.Adequacy
import Idealize.ShloMosaic.Init

noncomputable section

namespace Cert.Proof

open Idealize.ShloMosaic Idealize.SL.Sem

/-- The kernel as printed runs and leaves its arguments as launched. -/
theorem frame_Kernel : Cert.frame_Kernel := fun m ρ _ => Cert.Kernel.GenP.frame m ρ

/-- So does its idealization. -/
theorem frame_KernelIdeal : Cert.frame_KernelIdeal := fun m ρ _ => Cert.KernelIdeal.GenP.frame m ρ

/-- The reference is a straight line of host operations: its run, with the result dropped. -/
theorem frame_ReferenceIdeal : Cert.frame_ReferenceIdeal := fun m ρ _ =>
  (θ_run Cert.ReferenceIdeal.defs _ _).mono (fun _ h c => (h c).2) (Cert.RefRun.run m ρ)

/-- The ideal pass rewrote nothing. -/
theorem preserves : Cert.preserves_Kernel_KernelIdeal := trivial

/-- Run from memories that agree on the arguments, the two idealized programs end with the same result. -/
theorem algebraic : Cert.algebraic_KernelIdeal_ReferenceIdeal := by
  intro m ρ m' ρ' _ hagree
  refine ⟨fun c => Cert.KernelTail.tail ((Cert.KernelIdeal.GenP.dats (F := Ideal) m 0 c).arrAt 2 Cert.KernelIdeal.cfg0.N)
      ((Cert.KernelIdeal.GenP.dats (F := Ideal) m 0 c).arrAt 3 Cert.KernelIdeal.cfg0.N),
    Cert.KernelTail.run m ρ, ?_⟩
  refine (θ_run Cert.ReferenceIdeal.defs _ _).mono (fun _ h c => ⟨(h c).1.trans ?_, (h c).2⟩)
    (Cert.RefRun.run m' ρ')
  rw [(hagree c).1, (hagree c).2]
  exact (Cert.Bridge.bridge _ _ _ _ (Cert.KernelArrays.arr_idx m c) (Cert.KernelArrays.arr_val m c)).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
